-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x128x128 : Shape := ⟨4, ![4, 64, 128, 128]⟩
abbrev S_ : Shape := ⟨0, ![]⟩

class Facts : Prop where
  bcast_S_S4x64x128x128 : S_.BroadcastsInDim S4x64x128x128 (![] : Fin 0 → Fin S4x64x128x128.rank)
  reducesTo_S4x64x128x128_S_d0_1_2_3 : S4x64x128x128.ReducesTo [0, 1, 2, 3] S_
  h_S_ : 0 < S_.numel

variable [Facts]

def fn {F : FTy → Type} [FloatOps F] (main_arg0 : FVec F S4x64x128x128 .f32) (main_arg1 : FVec F S4x64x128x128 .f32) : IVec S_ 1 :=
  let main_v0 : FVec F S4x64x128x128 .f32 := Host.absf main_arg0
  let main_cst : FVec F S_ .f32 := constant S_ .f32 0x7F800000#32
  let main_v1 : FVec F S4x64x128x128 .f32 := broadcastInDim S4x64x128x128 ![] bcast_S_S4x64x128x128 main_cst
  let main_v2 : IVec S4x64x128x128 1 := cmpf .olt main_v0 main_v1
  let main_c : IVec S_ 1 := constantI S_ 1 1#1
  let main_v3 : IVec S_ 1 := (fun x v => Host.reduce IntOp.andi x v reducesTo_S4x64x128x128_S_d0_1_2_3 h_S_) main_v2 main_c
  let main_v4 : FVec F S4x64x128x128 .f32 := Host.absf main_arg1
  let main_cst_0 : FVec F S_ .f32 := constant S_ .f32 0x7F800000#32
  let main_v5 : FVec F S4x64x128x128 .f32 := broadcastInDim S4x64x128x128 ![] bcast_S_S4x64x128x128 main_cst_0
  let main_v6 : IVec S4x64x128x128 1 := cmpf .olt main_v4 main_v5
  let main_c_1 : IVec S_ 1 := constantI S_ 1 1#1
  let main_v7 : IVec S_ 1 := (fun x v => Host.reduce IntOp.andi x v reducesTo_S4x64x128x128_S_d0_1_2_3 h_S_) main_v6 main_c_1
  let main_v8 : IVec S_ 1 := andi main_v3 main_v7
  main_v8
-- ==== Kernel.lean ====
abbrev S4x64x128x128 : Shape := ⟨4, ![4, 64, 128, 128]⟩
abbrev S1x64x128x128 : Shape := ⟨4, ![1, 64, 128, 128]⟩
abbrev S128x128 : Shape := ⟨2, ![128, 128]⟩
abbrev S9x128x128 : Shape := ⟨3, ![9, 128, 128]⟩
abbrev S1x16x128x128 : Shape := ⟨4, ![1, 16, 128, 128]⟩
abbrev S16x128x128 : Shape := ⟨3, ![16, 128, 128]⟩
abbrev S1x128x128 : Shape := ⟨3, ![1, 128, 128]⟩
abbrev S64x128x128 : Shape := ⟨3, ![64, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S4x64x128x128, .f32⟩
  | .hbm, ⟨1, _⟩ => ⟨S4x64x128x128, .f32⟩
  | .hbm, ⟨2, _⟩ => ⟨S4x64x128x128, .f32⟩
  | .local _ .vmem, ⟨0, _⟩ => ⟨S1x64x128x128, .f32⟩
  | .local _ .vmem, ⟨1, _⟩ => ⟨S1x64x128x128, .f32⟩
  | .local _ .vmem, ⟨2, _⟩ => ⟨S1x64x128x128, .f32⟩
  | .local _ .vmem, ⟨3, _⟩ => ⟨S1x64x128x128, .f32⟩
  | .local _ .vmem, ⟨4, _⟩ => ⟨S1x64x128x128, .f32⟩
  | .local _ .vmem, ⟨5, _⟩ => ⟨S1x64x128x128, .f32⟩
  | _, _ => ⟨S4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def k0_mult1 : BitVec 32 :=
  let c0_i32_22 : BitVec 32 := 0#32
  let c16_i32 : BitVec 32 := 16#32
  let v59 : BitVec 32 := Scalar.muli c0_i32_22 c16_i32
  v59
def k0_off1 (c0_i32_22 : BitVec 32) : Fin 4 → Nat :=
  let c0 : Index := 0#32
  let c16_i32 : BitVec 32 := 16#32
  let v59 : BitVec 32 := Scalar.muli c0_i32_22 c16_i32
  let v60 : BitVec 32 := v59
  let v61 : Index := Scalar.indexCast v60
  let c0_23 : Index := 0#32
  let c0_24 : Index := 0#32
  ![0, v61.toNat, 0, 0]
def k0_mult2 : BitVec 32 :=
  let c1_i32_46 : BitVec 32 := 1#32
  let c16_i32_47 : BitVec 32 := 16#32
  let v136 : BitVec 32 := Scalar.muli c1_i32_46 c16_i32_47
  v136
def k0_mult3 : BitVec 32 :=
  let c2_i32 : BitVec 32 := 2#32
  let c16_i32_73 : BitVec 32 := 16#32
  let v213 : BitVec 32 := Scalar.muli c2_i32 c16_i32_73
  v213
def k0_mult4 : BitVec 32 :=
  let c3_i32 : BitVec 32 := 3#32
  let c16_i32_99 : BitVec 32 := 16#32
  let v290 : BitVec 32 := Scalar.muli c3_i32 c16_i32_99
  v290
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  iota_S128x128_d0_w32 : S128x128.Iotas .tc 32 [0]
  iota_S128x128_d1_w32 : S128x128.Iotas .tc 32 [1]
  h_S1x16x128x128 : 0 < S1x16x128x128.numel
  shapeCasts_S1x16x128x128_S16x128x128 : S1x16x128x128.ShapeCasts S16x128x128
  reduces_S16x128x128_S128x128 : S16x128x128.Reduces [0] S128x128
  rotates_S16x128x128_d1 : S16x128x128.Rotates 1 none
  rotates_S16x128x128_d2 : S16x128x128.Rotates 2 none
  slices_S9x128x128_o0_0_0_S1x128x128 : S9x128x128.Slices ![0, 0, 0] S1x128x128
  shapeCasts_S1x128x128_S128x128 : S1x128x128.ShapeCasts S128x128
  slices_S9x128x128_o1_0_0_S1x128x128 : S9x128x128.Slices ![1, 0, 0] S1x128x128
  slices_S9x128x128_o2_0_0_S1x128x128 : S9x128x128.Slices ![2, 0, 0] S1x128x128
  slices_S9x128x128_o3_0_0_S1x128x128 : S9x128x128.Slices ![3, 0, 0] S1x128x128
  slices_S9x128x128_o4_0_0_S1x128x128 : S9x128x128.Slices ![4, 0, 0] S1x128x128
  slices_S9x128x128_o5_0_0_S1x128x128 : S9x128x128.Slices ![5, 0, 0] S1x128x128
  slices_S9x128x128_o6_0_0_S1x128x128 : S9x128x128.Slices ![6, 0, 0] S1x128x128
  slices_S9x128x128_o7_0_0_S1x128x128 : S9x128x128.Slices ![7, 0, 0] S1x128x128
  slices_S9x128x128_o8_0_0_S1x128x128 : S9x128x128.Slices ![8, 0, 0] S1x128x128
  shapeCasts_S128x128_S1x128x128 : S128x128.ShapeCasts S1x128x128
  concatenates_S1x128x128_S1x128x128_S1x128x128_S1x128x128_S1x128x128_S1x128x128_S1x128x128_S1x128x128_S1x128x128_S9x128x128_d0 : Shape.Concatenates [S1x128x128, S1x128x128, S1x128x128, S1x128x128, S1x128x128, S1x128x128, S1x128x128, S1x128x128, S1x128x128] S9x128x128 0
  rotates_S128x128_d0 : S128x128.Rotates 0 none
  rotates_S128x128_d1 : S128x128.Rotates 1 none
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  broadcasts_S1x128x128_S64x128x128 : S1x128x128.Broadcasts S64x128x128
  shapeCasts_S64x128x128_S1x64x128x128 : S64x128x128.ShapeCasts S1x64x128x128
  hrank0 : 0 < grid0.rank
  k0_mult1_dvd : 16 ∣ k0_mult1.toNat
  k0_off1_inb : ∀ (r : Fin 4), ∀ a, (k0_off1 (BitVec.ofNat 32 r.val)) a + S1x16x128x128.size a ≤ S1x64x128x128.size a
  k0_mult2_dvd : 16 ∣ k0_mult2.toNat
  k0_mult3_dvd : 16 ∣ k0_mult3.toNat
  k0_mult4_dvd : 16 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S4x64x128x128.size a
  hwx0_0 : ∀ i : grid0.Coords, EltTy.bits .f32 = 32 ∨ (Rect.block (s := S4x64x128x128) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S4x64x128x128.size a
  hwx0_1 : ∀ i : grid0.Coords, EltTy.bits .f32 = 32 ∨ (Rect.block (s := S4x64x128x128) S1x64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128x128.size a ≤ S4x64x128x128.size a
  hwx0_2 : ∀ i : grid0.Coords, EltTy.bits .f32 = 32 ∨ (Rect.block (s := S4x64x128x128) S1x64x128x128.size (cc0_transform_2 i) (hinb0_2 i)).WholeWords (EltTy.packing .f32)

variable [Facts₀]

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x128x128 : Shape := ⟨4, ![4, 64, 128, 128]⟩
abbrev S_ : Shape := ⟨0, ![]⟩
abbrev S4x64x130x130 : Shape := ⟨4, ![4, 64, 130, 130]⟩
abbrev S4x64x1x128x128 : Shape := ⟨5, ![4, 64, 1, 128, 128]⟩
abbrev S4x64x9x128x128 : Shape := ⟨5, ![4, 64, 9, 128, 128]⟩
abbrev S4x9x128x128 : Shape := ⟨4, ![4, 9, 128, 128]⟩
abbrev S4x1x9x128x128 : Shape := ⟨5, ![4, 1, 9, 128, 128]⟩
abbrev S1 : Shape := ⟨1, ![1]⟩
abbrev S2 : Shape := ⟨1, ![2]⟩

abbrev nBuf : Space → Nat
  | .hbm => 116
  | .vmem => 0
  | .smem => 0
  | _ => 0

abbrev bufTy : (tb : Table) → Fin (tcTables nBuf tb) → BufTy
  | .hbm, ⟨0, _⟩ => ⟨S4x64x128x128, .f32⟩
  | .hbm, ⟨1, _⟩ => ⟨S4x64x128x128, .f32⟩
  | .hbm, ⟨2, _⟩ => ⟨S_, .i32⟩
  | .hbm, ⟨3, _⟩ => ⟨S_, .f32⟩
  | .hbm, ⟨4, _⟩ => ⟨S4x64x130x130, .f32⟩
  | .hbm, ⟨5, _⟩ => ⟨S_, .i32⟩
  | .hbm, ⟨6, _⟩ => ⟨S_, .f32⟩
  | .hbm, ⟨7, _⟩ => ⟨S4x64x130x130, .f32⟩
  | .hbm, ⟨8, _⟩ => ⟨S4x64x128x128, .f32⟩
  | .hbm, ⟨9, _⟩ => ⟨S4x64x128x128, .f32⟩
  | .hbm, ⟨10, _⟩ => ⟨S4x64x128x128, .f32⟩
  | .hbm, ⟨11, _⟩ => ⟨S4x64x128x128, .f32⟩
  | .hbm, ⟨12, _⟩ => ⟨S4x64x128x128, .f32⟩
  | .hbm, ⟨13, _⟩ => ⟨S4x64x128x128, .f32⟩
  | .hbm, ⟨14, _⟩ => ⟨S4x64x128x128, .f32⟩
  | .hbm, ⟨15, _⟩ => ⟨S4x64x128x128, .f32⟩
  | .hbm, ⟨16, _⟩ => ⟨S4x64x128x128, .f32⟩
  | .hbm, ⟨17, _⟩ => ⟨S4x64x1x128x128, .f32⟩
  | .hbm, ⟨18, _⟩ => ⟨S4x64x1x128x128, .f32⟩
  | .hbm, ⟨19, _⟩ => ⟨S4x64x1x128x128, .f32⟩
  | .hbm, ⟨20, _⟩ => ⟨S4x64x1x128x128, .f32⟩
  | .hbm, ⟨21, _⟩ => ⟨S4x64x1x128x128, .f32⟩
  | .hbm, ⟨22, _⟩ => ⟨S4x64x1x128x128, .f32⟩
  | .hbm, ⟨23, _⟩ => ⟨S4x64x1x128x128, .f32⟩
  | .hbm, ⟨24, _⟩ => ⟨S4x64x1x128x128, .f32⟩
  | .hbm, ⟨25, _⟩ => ⟨S4x64x1x128x128, .f32⟩
  | .hbm, ⟨26, _⟩ => ⟨S4x64x9x128x128, .f32⟩
  | .hbm, ⟨27, _⟩ => ⟨S4x64x128x128, .f32⟩
  | .hbm, ⟨28, _⟩ => ⟨S4x64x1x128x128, .f32⟩
  | .hbm, ⟨29, _⟩ => ⟨S4x64x9x128x128, .f32⟩
  | .hbm, ⟨30, _⟩ => ⟨S4x64x9x128x128, .f32⟩
  | .hbm, ⟨31, _⟩ => ⟨S4x64x9x128x128, .f32⟩
  | .hbm, ⟨32, _⟩ => ⟨S_, .f32⟩
  | .hbm, ⟨33, _⟩ => ⟨S4x9x128x128, .f32⟩
  | .hbm, ⟨34, _⟩ => ⟨S4x1x9x128x128, .f32⟩
  | .hbm, ⟨35, _⟩ => ⟨S_, .f32⟩
  | .hbm, ⟨36, _⟩ => ⟨S4x1x9x128x128, .f32⟩
  | .hbm, ⟨37, _⟩ => ⟨S4x1x9x128x128, .f32⟩
  | .hbm, ⟨38, _⟩ => ⟨S4x1x9x128x128, .f32⟩
  | .hbm, ⟨39, _⟩ => ⟨S4x64x9x128x128, .f32⟩
  | .hbm, ⟨40, _⟩ => ⟨S4x64x9x128x128, .f32⟩
  | .hbm, ⟨41, _⟩ => ⟨S_, .f32⟩
  | .hbm, ⟨42, _⟩ => ⟨S4x64x130x130, .f32⟩
  | .hbm, ⟨43, _⟩ => ⟨S4x64x1x128x128, .f32⟩
  | .hbm, ⟨44, _⟩ => ⟨S4x64x128x128, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S4x64x130x130, .f32⟩
  | .hbm, ⟨51, _⟩ => ⟨S4x64x1x128x128, .f32⟩
  | .hbm, ⟨52, _⟩ => ⟨S4x64x128x128, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S4x64x130x130, .f32⟩
  | .hbm, ⟨59, _⟩ => ⟨S4x64x1x128x128, .f32⟩
  | .hbm, ⟨60, _⟩ => ⟨S4x64x128x128, .f32⟩
  | .hbm, ⟨61, _⟩ => ⟨S_, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S2, .i32⟩
  | .hbm, ⟨66, _⟩ => ⟨S4x64x130x130, .f32⟩
  | .hbm, ⟨67, _⟩ => ⟨S4x64x1x128x128, .f32⟩
  | .hbm, ⟨68, _⟩ => ⟨S4x64x128x128, .f32⟩
  | .hbm, ⟨69, _⟩ => ⟨S_, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S2, .i32⟩
  | .hbm, ⟨74, _⟩ => ⟨S4x64x130x130, .f32⟩
  | .hbm, ⟨75, _⟩ => ⟨S4x64x1x128x128, .f32⟩
  | .hbm, ⟨76, _⟩ => ⟨S4x64x128x128, .f32⟩
  | .hbm, ⟨77, _⟩ => ⟨S_, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S2, .i32⟩
  | .hbm, ⟨82, _⟩ => ⟨S4x64x130x130, .f32⟩
  | .hbm, ⟨83, _⟩ => ⟨S4x64x1x128x128, .f32⟩
  | .hbm, ⟨84, _⟩ => ⟨S4x64x128x128, .f32⟩
  | .hbm, ⟨85, _⟩ => ⟨S_, .i32⟩
  | .hbm, ⟨86, _⟩ => ⟨S1, .i32⟩
  | .hbm, ⟨87, _⟩ => ⟨S_, .i32⟩
  | .hbm, ⟨88, _⟩ => ⟨S1, .i32⟩
  | .hbm, ⟨89, _⟩ => ⟨S2, .i32⟩
  | .hbm, ⟨90, _⟩ => ⟨S4x64x130x130, .f32⟩
  | .hbm, ⟨91, _⟩ => ⟨S4x64x1x128x128, .f32⟩
  | .hbm, ⟨92, _⟩ => ⟨S4x64x128x128, .f32⟩
  | .hbm, ⟨93, _⟩ => ⟨S_, .i32⟩
  | .hbm, ⟨94, _⟩ => ⟨S1, .i32⟩
  | .hbm, ⟨95, _⟩ => ⟨S_, .i32⟩
  | .hbm, ⟨96, _⟩ => ⟨S1, .i32⟩
  | .hbm, ⟨97, _⟩ => ⟨S2, .i32⟩
  | .hbm, ⟨98, _⟩ => ⟨S4x64x130x130, .f32⟩
  | .hbm, ⟨99, _⟩ => ⟨S4x64x1x128x128, .f32⟩
  | .hbm, ⟨100, _⟩ => ⟨S4x64x128x128, .f32⟩
  | .hbm, ⟨101, _⟩ => ⟨S_, .i32⟩
  | .hbm, ⟨102, _⟩ => ⟨S1, .i32⟩
  | .hbm, ⟨103, _⟩ => ⟨S_, .i32⟩
  | .hbm, ⟨104, _⟩ => ⟨S1, .i32⟩
  | .hbm, ⟨105, _⟩ => ⟨S2, .i32⟩
  | .hbm, ⟨106, _⟩ => ⟨S4x64x130x130, .f32⟩
  | .hbm, ⟨107, _⟩ => ⟨S4x64x1x128x128, .f32⟩
  | .hbm, ⟨108, _⟩ => ⟨S4x64x128x128, .f32⟩
  | .hbm, ⟨109, _⟩ => ⟨S_, .i32⟩
  | .hbm, ⟨110, _⟩ => ⟨S1, .i32⟩
  | .hbm, ⟨111, _⟩ => ⟨S_, .i32⟩
  | .hbm, ⟨112, _⟩ => ⟨S1, .i32⟩
  | .hbm, ⟨113, _⟩ => ⟨S2, .i32⟩
  | .hbm, ⟨114, _⟩ => ⟨S4x64x130x130, .f32⟩
  | .hbm, ⟨115, _⟩ => ⟨S4x64x128x128, .f32⟩
  | _, _ => ⟨S4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_c_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_9 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_11 : Ref sig .tc := ⟨.hbm, 77, rfl⟩
abbrev main_v60 : Ref sig .tc := ⟨.hbm, 78, rfl⟩
abbrev main_c_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_13 : Ref sig .tc := ⟨.hbm, 85, rfl⟩
abbrev main_v66 : Ref sig .tc := ⟨.hbm, 86, rfl⟩
abbrev main_c_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_15 : Ref sig .tc := ⟨.hbm, 93, rfl⟩
abbrev main_v72 : Ref sig .tc := ⟨.hbm, 94, rfl⟩
abbrev main_c_16 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_17 : Ref sig .tc := ⟨.hbm, 101, rfl⟩
abbrev main_v78 : Ref sig .tc := ⟨.hbm, 102, rfl⟩
abbrev main_c_18 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_19 : Ref sig .tc := ⟨.hbm, 109, rfl⟩
abbrev main_v84 : Ref sig .tc := ⟨.hbm, 110, rfl⟩
abbrev main_c_20 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]

class Facts₀ : Prop where
  pads_S4x64x128x128_S4x64x130x130_000_000_110_110 : S4x64x128x128.Pads (![0, 0, 1, 1] : Fin 4 → Nat) ![0, 0, 1, 1] ![0, 0, 0, 0] S4x64x130x130
  h_S_ : 0 < S_.numel
  slices_S4x64x130x130_S4x64x128x128_0_0_0_0 : S4x64x130x130.Slices ![0, 0, 0, 0] S4x64x128x128
  slices_S4x64x130x130_S4x64x128x128_0_0_0_1 : S4x64x130x130.Slices ![0, 0, 0, 1] S4x64x128x128
  slices_S4x64x130x130_S4x64x128x128_0_0_0_2 : S4x64x130x130.Slices ![0, 0, 0, 2] S4x64x128x128
  slices_S4x64x130x130_S4x64x128x128_0_0_1_0 : S4x64x130x130.Slices ![0, 0, 1, 0] S4x64x128x128
  slices_S4x64x130x130_S4x64x128x128_0_0_1_1 : S4x64x130x130.Slices ![0, 0, 1, 1] S4x64x128x128
  slices_S4x64x130x130_S4x64x128x128_0_0_1_2 : S4x64x130x130.Slices ![0, 0, 1, 2] S4x64x128x128
  slices_S4x64x130x130_S4x64x128x128_0_0_2_0 : S4x64x130x130.Slices ![0, 0, 2, 0] S4x64x128x128
  slices_S4x64x130x130_S4x64x128x128_0_0_2_1 : S4x64x130x130.Slices ![0, 0, 2, 1] S4x64x128x128
  slices_S4x64x130x130_S4x64x128x128_0_0_2_2 : S4x64x130x130.Slices ![0, 0, 2, 2] S4x64x128x128
  bcast_S4x64x128x128_S4x64x1x128x128_0_1_3_4 : S4x64x128x128.BroadcastsInDim S4x64x1x128x128 (![0, 1, 3, 4] : Fin 4 → Fin S4x64x1x128x128.rank)
  concatenates_S4x64x1x128x128_S4x64x1x128x128_S4x64x1x128x128_S4x64x1x128x128_S4x64x1x128x128_S4x64x1x128x128_S4x64x1x128x128_S4x64x1x128x128_S4x64x1x128x128_S4x64x9x128x128_d2 : Shape.Concatenates [S4x64x1x128x128, S4x64x1x128x128, S4x64x1x128x128, S4x64x1x128x128, S4x64x1x128x128, S4x64x1x128x128, S4x64x1x128x128, S4x64x1x128x128, S4x64x1x128x128] S4x64x9x128x128 2
  bcast_S4x64x1x128x128_S4x64x9x128x128_0_1_2_3_4 : S4x64x1x128x128.BroadcastsInDim S4x64x9x128x128 (![0, 1, 2, 3, 4] : Fin 5 → Fin S4x64x9x128x128.rank)
  reducesTo_S4x64x9x128x128_S4x9x128x128_d1 : S4x64x9x128x128.ReducesTo [1] S4x9x128x128
  bcast_S4x9x128x128_S4x1x9x128x128_0_2_3_4 : S4x9x128x128.BroadcastsInDim S4x1x9x128x128 (![0, 2, 3, 4] : Fin 4 → Fin S4x1x9x128x128.rank)
  bcast_S_S4x1x9x128x128 : S_.BroadcastsInDim S4x1x9x128x128 (![] : Fin 0 → Fin S4x1x9x128x128.rank)
  bcast_S4x1x9x128x128_S4x64x9x128x128_0_1_2_3_4 : S4x1x9x128x128.BroadcastsInDim S4x64x9x128x128 (![0, 1, 2, 3, 4] : Fin 5 → Fin S4x64x9x128x128.rank)
  bcast_S_S4x64x130x130 : S_.BroadcastsInDim S4x64x130x130 (![] : Fin 0 → Fin S4x64x130x130.rank)
  slices_S4x64x9x128x128_S4x64x1x128x128_0_0_0_0_0 : S4x64x9x128x128.Slices ![0, 0, 0, 0, 0] S4x64x1x128x128
  shapeCasts_S4x64x1x128x128_S4x64x128x128 : S4x64x1x128x128.ShapeCasts S4x64x128x128
  bcast_S_S1 : S_.BroadcastsInDim S1 (![] : Fin 0 → Fin S1.rank)
  concatenates_S1_S1_S2_d0 : Shape.Concatenates [S1, S1] S2 0
  slices_S4x64x9x128x128_S4x64x1x128x128_0_0_1_0_0 : S4x64x9x128x128.Slices ![0, 0, 1, 0, 0] S4x64x1x128x128
  slices_S4x64x9x128x128_S4x64x1x128x128_0_0_2_0_0 : S4x64x9x128x128.Slices ![0, 0, 2, 0, 0] S4x64x1x128x128
  slices_S4x64x9x128x128_S4x64x1x128x128_0_0_3_0_0 : S4x64x9x128x128.Slices ![0, 0, 3, 0, 0] S4x64x1x128x128
  slices_S4x64x9x128x128_S4x64x1x128x128_0_0_4_0_0 : S4x64x9x128x128.Slices ![0, 0, 4, 0, 0] S4x64x1x128x128
  slices_S4x64x9x128x128_S4x64x1x128x128_0_0_5_0_0 : S4x64x9x128x128.Slices ![0, 0, 5, 0, 0] S4x64x1x128x128
  slices_S4x64x9x128x128_S4x64x1x128x128_0_0_6_0_0 : S4x64x9x128x128.Slices ![0, 0, 6, 0, 0] S4x64x1x128x128
  slices_S4x64x9x128x128_S4x64x1x128x128_0_0_7_0_0 : S4x64x9x128x128.Slices ![0, 0, 7, 0, 0] S4x64x1x128x128
  slices_S4x64x9x128x128_S4x64x1x128x128_0_0_8_0_0 : S4x64x9x128x128.Slices ![0, 0, 8, 0, 0] S4x64x1x128x128
  scatter_S4x64x130x130_S2_S4x64x128x128_0123_n_23_0_wf : ScatterDims.WF S4x64x130x130 S2 S4x64x128x128 [0, 1, 2, 3] [] [2, 3] 0

variable [Facts₀]

def scatter_S4x64x130x130_S2_S4x64x128x128_0123_n_23_0 : ScatterDims S4x64x130x130 S2 S4x64x128x128 where
  updateWindowDims := [0, 1, 2, 3]
  insertedWindowDims := []
  scatterDimsToOperandDims := [2, 3]
  indexVectorDim := 0
  wf := scatter_S4x64x130x130_S2_S4x64x128x128_0123_n_23_0_wf

class Facts : Prop extends Facts₀ where

variable [Facts]
-- ==== Proof.KernelBody.lean ====
/-
  The kernel's body as one function of what it loads, in the body's own operations, cut where its mathematics cuts.
  The 64 channels are taken sixteen at a time. Each chunk adds, into two running squared norms (`normStep`) and into a
  stack of nine running cross terms (`stackStep`), the chunk's sums over its sixteen channels: of the squares of each
  argument, and of the first argument times the second moved by one of the nine offsets (rotations of the two image
  axes by 1 or by 127 = −1 mod 128; the y-rotation is shared by the three x-rotations of its row of taps). After the
  last chunk (`weightSum`) each tap's weight is `exp(−½ · (n1 + n2' − 2 · cross))` with `n2'` the second norm moved by
  the tap's offset, kept where the moved pixel lies inside the image (`inRange` on the row and column numbers) and
  zero elsewhere; the nine weights are added up from zero and multiply every channel of the first argument (`out`).
  `stored_eq` says the block the body stores is `bodyValue` of its eight chunk loads and its whole-block load.
-/
import proofs.«179273_j17781164605470_2_alg».proof.Proof.Gen.KernelIdeal.Frame
import Idealize.ShloMosaic.Lib.Pipeline.Value

set_option maxRecDepth 16384

noncomputable section

namespace Cert.KernelIdeal.Body

open Cert.KernelIdeal Idealize.ShloMosaic Idealize.ShloMosaic.TcCoe Idealize.SL.Sem Idealize.ShloMosaic.Tactic

section Defs
open Cert.KernelIdeal.Facts₀ Cert.KernelIdeal.Facts

variable {F : FTy → Type} [FloatOps F]

/-- A loaded chunk of sixteen channels without its unit image axis. -/
def chunkOf (l : Vec F S1x16x128x128 .f32) : FVec F S16x128x128 .f32 :=
  shapeCast S16x128x128 l shapeCasts_S1x16x128x128_S16x128x128

/-- The sum over a chunk's sixteen channels of a product. -/
def chSum (a b : FVec F S16x128x128 .f32) : FVec F S128x128 .f32 :=
  multiReduction .add [0] S128x128 (mulf a b) 0x00000000#32 reduces_S16x128x128_S128x128 (.inl rfl) rfl

/-- One slab of the stack of nine, as a 128 × 128 array. -/
def slab (off : Fin 3 → Nat) (h : S9x128x128.Slices off S1x128x128) (st : FVec F S9x128x128 .f32) : FVec F S128x128 .f32 :=
  shapeCast S128x128 (extractStridedSlice S1x128x128 off st h) shapeCasts_S1x128x128_S128x128

/-- A 128 × 128 array as one slab. -/
def asSlab (v : FVec F S128x128 .f32) : FVec F S1x128x128 .f32 :=
  shapeCast S1x128x128 v shapeCasts_S128x128_S1x128x128

/-- A chunk rotated along the image's y axis, resp. x axis. -/
def rotY (s : BitVec 32) (v : FVec F S16x128x128 .f32) : FVec F S16x128x128 .f32 := dynamicRotate 1 s none v rotates_S16x128x128_d1
def rotX (s : BitVec 32) (v : FVec F S16x128x128 .f32) : FVec F S16x128x128 .f32 := dynamicRotate 2 s none v rotates_S16x128x128_d2

/-- A running squared norm after one more chunk. -/
def normStep (n : FVec F S128x128 .f32) (l : Vec F S1x16x128x128 .f32) : FVec F S128x128 .f32 :=
  addf n (chSum (chunkOf l) (chunkOf l))

/-- The stack of nine running cross terms after one more chunk: slab `3 dy + dx` gains the chunk's sum of the first
    argument times the second rotated by the tap's offset. -/
def stackStep (st : FVec F S9x128x128 .f32) (l1 l2 : Vec F S1x16x128x128 .f32) : FVec F S9x128x128 .f32 :=
  concatenate S9x128x128 0
    [⟨S1x128x128, asSlab (addf (slab ![0, 0, 0] slices_S9x128x128_o0_0_0_S1x128x128 st) (chSum (chunkOf l1) (rotX 1#32 (rotY 1#32 (chunkOf l2)))))⟩,
     ⟨S1x128x128, asSlab (addf (slab ![1, 0, 0] slices_S9x128x128_o1_0_0_S1x128x128 st) (chSum (chunkOf l1) (rotY 1#32 (chunkOf l2))))⟩,
     ⟨S1x128x128, asSlab (addf (slab ![2, 0, 0] slices_S9x128x128_o2_0_0_S1x128x128 st) (chSum (chunkOf l1) (rotX 127#32 (rotY 1#32 (chunkOf l2)))))⟩,
     ⟨S1x128x128, asSlab (addf (slab ![3, 0, 0] slices_S9x128x128_o3_0_0_S1x128x128 st) (chSum (chunkOf l1) (rotX 1#32 (chunkOf l2))))⟩,
     ⟨S1x128x128, asSlab (addf (slab ![4, 0, 0] slices_S9x128x128_o4_0_0_S1x128x128 st) (chSum (chunkOf l1) (chunkOf l2)))⟩,
     ⟨S1x128x128, asSlab (addf (slab ![5, 0, 0] slices_S9x128x128_o5_0_0_S1x128x128 st) (chSum (chunkOf l1) (rotX 127#32 (chunkOf l2))))⟩,
     ⟨S1x128x128, asSlab (addf (slab ![6, 0, 0] slices_S9x128x128_o6_0_0_S1x128x128 st) (chSum (chunkOf l1) (rotX 1#32 (rotY 127#32 (chunkOf l2)))))⟩,
     ⟨S1x128x128, asSlab (addf (slab ![7, 0, 0] slices_S9x128x128_o7_0_0_S1x128x128 st) (chSum (chunkOf l1) (rotY 127#32 (chunkOf l2))))⟩,
     ⟨S1x128x128, asSlab (addf (slab ![8, 0, 0] slices_S9x128x128_o8_0_0_S1x128x128 st) (chSum (chunkOf l1) (rotX 127#32 (rotY 127#32 (chunkOf l2)))))⟩]
    concatenates_S1x128x128_S1x128x128_S1x128x128_S1x128x128_S1x128x128_S1x128x128_S1x128x128_S1x128x128_S1x128x128_S9x128x128_d0

/-- The zero starts of the running sums. -/
def zero2 : FVec F S128x128 .f32 := broadcast S128x128 (Scalar.ofBits .f32 0x00000000#32)
def zero9 : FVec F S9x128x128 .f32 := broadcast S9x128x128 (Scalar.ofBits .f32 0x00000000#32)

/-- Each pixel's row number, resp. column number. -/
def rowNo : IVec S128x128 32 := iota .tc S128x128 32 [0] iota_S128x128_d0_w32
def colNo : IVec S128x128 32 := iota .tc S128x128 32 [1] iota_S128x128_d1_w32

/-- `0 ≤ v + d < 128` as signed words, entry by entry. -/
def inRange (v : IVec S128x128 32) (d : BitVec 32) : IVec S128x128 1 :=
  andi (cmpi .sge (addi v (broadcast S128x128 d)) (broadcast S128x128 0#32))
    (cmpi .slt (addi v (broadcast S128x128 d)) (broadcast S128x128 128#32))

/-- A 128 × 128 array rotated along y, resp. x. -/
def rollY (s : BitVec 32) (v : FVec F S128x128 .f32) : FVec F S128x128 .f32 := dynamicRotate 0 s none v rotates_S128x128_d0
def rollX (s : BitVec 32) (v : FVec F S128x128 .f32) : FVec F S128x128 .f32 := dynamicRotate 1 s none v rotates_S128x128_d1

/-- One tap's weight: `exp(−½ · (n1 + n2' − 2 · cross))` where the mask holds, zero elsewhere. -/
def tapWeight (mask : IVec S128x128 1) (n1 n2s cr : FVec F S128x128 .f32) : FVec F S128x128 .f32 :=
  select mask
    (exp (mulf (broadcast S128x128 (Scalar.ofBits .f32 0xBF000000#32))
      (subf (addf n1 n2s) (mulf (broadcast S128x128 (Scalar.ofBits .f32 0x40000000#32)) cr))))
    (broadcast S128x128 (Scalar.ofBits .f32 0x00000000#32))

/-- The weight of tap `(0, 0)`: offsets `(-1, -1)`. -/
def tap0 (n1 n2 : FVec F S128x128 .f32) (st : FVec F S9x128x128 .f32) : FVec F S128x128 .f32 :=
  tapWeight (andi (inRange rowNo 4294967295#32) (inRange colNo 4294967295#32)) n1 (rollX 1#32 (rollY 1#32 n2)) (slab ![0, 0, 0] slices_S9x128x128_o0_0_0_S1x128x128 st)

/-- The weight of tap `(0, 1)`: offsets `(-1, 0)`. -/
def tap1 (n1 n2 : FVec F S128x128 .f32) (st : FVec F S9x128x128 .f32) : FVec F S128x128 .f32 :=
  tapWeight (andi (inRange rowNo 4294967295#32) (inRange colNo 0#32)) n1 (rollY 1#32 n2) (slab ![1, 0, 0] slices_S9x128x128_o1_0_0_S1x128x128 st)

/-- The weight of tap `(0, 2)`: offsets `(-1, 1)`. -/
def tap2 (n1 n2 : FVec F S128x128 .f32) (st : FVec F S9x128x128 .f32) : FVec F S128x128 .f32 :=
  tapWeight (andi (inRange rowNo 4294967295#32) (inRange colNo 1#32)) n1 (rollX 127#32 (rollY 1#32 n2)) (slab ![2, 0, 0] slices_S9x128x128_o2_0_0_S1x128x128 st)

/-- The weight of tap `(1, 0)`: offsets `(0, -1)`. -/
def tap3 (n1 n2 : FVec F S128x128 .f32) (st : FVec F S9x128x128 .f32) : FVec F S128x128 .f32 :=
  tapWeight (andi (inRange rowNo 0#32) (inRange colNo 4294967295#32)) n1 (rollX 1#32 n2) (slab ![3, 0, 0] slices_S9x128x128_o3_0_0_S1x128x128 st)

/-- The weight of tap `(1, 1)`: offsets `(0, 0)`. -/
def tap4 (n1 n2 : FVec F S128x128 .f32) (st : FVec F S9x128x128 .f32) : FVec F S128x128 .f32 :=
  tapWeight (andi (inRange rowNo 0#32) (inRange colNo 0#32)) n1 (n2) (slab ![4, 0, 0] slices_S9x128x128_o4_0_0_S1x128x128 st)

/-- The weight of tap `(1, 2)`: offsets `(0, 1)`. -/
def tap5 (n1 n2 : FVec F S128x128 .f32) (st : FVec F S9x128x128 .f32) : FVec F S128x128 .f32 :=
  tapWeight (andi (inRange rowNo 0#32) (inRange colNo 1#32)) n1 (rollX 127#32 n2) (slab ![5, 0, 0] slices_S9x128x128_o5_0_0_S1x128x128 st)

/-- The weight of tap `(2, 0)`: offsets `(1, -1)`. -/
def tap6 (n1 n2 : FVec F S128x128 .f32) (st : FVec F S9x128x128 .f32) : FVec F S128x128 .f32 :=
  tapWeight (andi (inRange rowNo 1#32) (inRange colNo 4294967295#32)) n1 (rollX 1#32 (rollY 127#32 n2)) (slab ![6, 0, 0] slices_S9x128x128_o6_0_0_S1x128x128 st)

/-- The weight of tap `(2, 1)`: offsets `(1, 0)`. -/
def tap7 (n1 n2 : FVec F S128x128 .f32) (st : FVec F S9x128x128 .f32) : FVec F S128x128 .f32 :=
  tapWeight (andi (inRange rowNo 1#32) (inRange colNo 0#32)) n1 (rollY 127#32 n2) (slab ![7, 0, 0] slices_S9x128x128_o7_0_0_S1x128x128 st)

/-- The weight of tap `(2, 2)`: offsets `(1, 1)`. -/
def tap8 (n1 n2 : FVec F S128x128 .f32) (st : FVec F S9x128x128 .f32) : FVec F S128x128 .f32 :=
  tapWeight (andi (inRange rowNo 1#32) (inRange colNo 1#32)) n1 (rollX 127#32 (rollY 127#32 n2)) (slab ![8, 0, 0] slices_S9x128x128_o8_0_0_S1x128x128 st)

/-- The nine taps' weights added up from zero, in the order `3 dy + dx`. -/
def weightSum (n1 n2 : FVec F S128x128 .f32) (st : FVec F S9x128x128 .f32) : FVec F S128x128 .f32 :=
  addf (addf (addf (addf (addf (addf (addf (addf (addf zero2
    (tap0 n1 n2 st)) (tap1 n1 n2 st)) (tap2 n1 n2 st)) (tap3 n1 n2 st)) (tap4 n1 n2 st)) (tap5 n1 n2 st))
    (tap6 n1 n2 st)) (tap7 n1 n2 st)) (tap8 n1 n2 st)

/-- The stored block: every channel of the whole first block times the summed weights. -/
def out (w : FVec F S128x128 .f32) (full : Vec F S1x64x128x128 .f32) : FVec F S1x64x128x128 .f32 :=
  shapeCast S1x64x128x128
    (mulf (shapeCast S64x128x128 full shapeCasts_S1x64x128x128_S64x128x128 : FVec F S64x128x128 .f32)
      (broadcastTo S64x128x128 (asSlab w) broadcasts_S1x128x128_S64x128x128))
    shapeCasts_S64x128x128_S1x64x128x128

/-- The body's stored block from its four chunk loads of each argument and its whole-block load of the first. -/
def bodyValue (l1 l2 : Fin 4 → Vec F S1x16x128x128 .f32) (full : Vec F S1x64x128x128 .f32) : FVec F S1x64x128x128 .f32 :=
  out (weightSum
      (normStep (normStep (normStep (normStep zero2 (l1 0)) (l1 1)) (l1 2)) (l1 3))
      (normStep (normStep (normStep (normStep zero2 (l2 0)) (l2 1)) (l2 2)) (l2 3))
      (stackStep (stackStep (stackStep (stackStep zero9 (l1 0) (l2 0)) (l1 1) (l2 1)) (l1 2) (l2 2)) (l1 3) (l2 3)))
    full

/-- A load of sixteen channels starting at channel `o` through a whole staging memref held at the block `x`. -/
def load16 (arg : Memref sig .tc .vmem S1x64x128x128 .f32) (harg : arg.IsWhole) (x : Vec F S1x64x128x128 .f32)
    (off : Fin 4 → Nat) (h : ∀ a, off a + S1x16x128x128.size a ≤ S1x64x128x128.size a) : Vec F S1x16x128x128 .f32 :=
  View.readAt (Elt F) arg.view (Rect.unit (s := S1x64x128x128) off S1x16x128x128.size h).toLoadRect (harg.unread x)

/-- The four chunk loads. -/
def loads (arg : Memref sig .tc .vmem S1x64x128x128 .f32) (harg : arg.IsWhole) (x : Vec F S1x64x128x128 .f32) :
    Fin 4 → Vec F S1x16x128x128 .f32
  | 0 => load16 arg harg x ![0, 0, 0, 0] (by decide)
  | 1 => load16 arg harg x ![0, 16, 0, 0] (by decide)
  | 2 => load16 arg harg x ![0, 32, 0, 0] (by decide)
  | 3 => load16 arg harg x ![0, 48, 0, 0] (by decide)

/-- The load of the whole block. -/
def loadAll (arg : Memref sig .tc .vmem S1x64x128x128 .f32) (harg : arg.IsWhole) (x : Vec F S1x64x128x128 .f32) :
    Vec F S1x64x128x128 .f32 :=
  View.readAt (Elt F) arg.view (Rect.unit (s := S1x64x128x128) ![0, 0, 0, 0] S1x64x128x128.size inb_S1x64x128x128_S1x64x128x128_0_0_0_0).toLoadRect (harg.unread x)

end Defs

section Stored
open Cert.KernelIdeal.Gen

variable {F : FTy → Type} [FloatOps F]

set_option maxHeartbeats 4000000 in
/-- What the body leaves in the output's staging buffer is `bodyValue` of its loads. -/
theorem stored_eq (c : Dev nD) (i : grid0.Coords) (arg1 : Memref sig .tc .vmem S1x64x128x128 .f32) (harg1 : arg1.IsWhole) (arg2 : Memref sig .tc .vmem S1x64x128x128 .f32) (harg2 : arg2.IsWhole) (arg3 : Memref sig .tc .vmem S1x64x128x128 .f32) (harg3 : arg3.IsWhole)
    (x0 : Vec F S1x64x128x128 .f32) (x1 : Vec F S1x64x128x128 .f32) :
    out0_A_2 (F := F) c i arg1 harg1 arg2 harg2 arg3 harg3 x0 x1
      = bodyValue (loads arg1 harg1 x0) (loads arg2 harg2 x1) (loadAll arg1 harg1 x0) := by
  unfold out0_A_2
  rw [View.read_writes_eq_canon _ _ _ (cover0_A_2 c i arg1 harg1 arg2 harg2 arg3 harg3 x0 x1)]
  unfold kernelRun0_A
  dsimp only
  sl_unfold_run_names
  rw [View.canon_unit_zero (funext fun a => by fin_cases a <;> rfl)]
  rfl

end Stored

end Cert.KernelIdeal.Body

end
-- ==== Proof.TapSpec.lean ====
/-
  The pixel-adaptive Gaussian weighting of a 3 × 3 neighbourhood, stated twice as a function of the two argument
  arrays `A0`, `A1` (4 images × 64 channels × 128 × 128 pixels), entry by entry, over the extended reals.

  For a pixel `(y, x)` of image `b` and a tap `(dy, dx)` (each of 0, 1, 2, standing for the offsets −1, 0, +1) the
  neighbour is `(y + dy − 1, x + dx − 1)`; the tap counts only when the neighbour lies inside the image.
  * `kernAt`: the weight of a tap is `exp(−½ · (Σ_c A0² + Σ_c A1'² − 2 · Σ_c A0 · A1'))` (the squared distance
    expanded into two norms and a cross term, `A1'` being `A1` at the neighbour), and the entry is
    `A0(b, c, y, x) · Σ_taps weight`.
  * `refAt`: the weight of a tap is `exp(−½ · Σ_c (A0 − A1')²)`, and the entry is `Σ_taps weight · A0(b, c, y, x)`.
  The two agree when every entry of both arrays is a real number (`kernAt_eq_refAt` in `TapAlgebra`): the
  expansion of the square and the distribution of `A0` over the sum of the weights both need finite terms.
  The neighbour's coordinate is taken around the end of the axis (`nb`), which is what a rotation of the axis
  reads; at a tap that counts no wrap happens.
-/
import Idealize.ShloMosaic.PureOps.Ideal
import Idealize.ShloMosaic.Lib.ValueIdx

noncomputable section

namespace Cert.GaussTaps

open Idealize.ShloMosaic Idealize.ShloMosaic.ValueIdx

/-- The shape of both arguments and of the result. -/
abbrev SArr : Shape := ⟨4, ![4, 64, 128, 128]⟩

/-- The coordinate `y + d − 1` taken around the end of an axis of 128 (`d = 0, 1, 2` for the offsets −1, 0, +1). -/
def nb (y : Fin 128) (d : Fin 3) : Fin 128 := ⟨(y.val + d.val + 127) % 128, Nat.mod_lt _ (by decide)⟩

/-- The coordinate `y + d − 1` lies on the axis: no wrap. -/
def inside (y : Fin 128) (d : Fin 3) : Prop := 1 ≤ y.val + d.val ∧ y.val + d.val ≤ 128

instance (y : Fin 128) (d : Fin 3) : Decidable (inside y d) := by unfold inside; infer_instance

theorem nb_val_of_inside {y : Fin 128} {d : Fin 3} (h : inside y d) : (nb y d).val + 1 = y.val + d.val := by
  unfold inside at h; unfold nb; simp only; omega

/-- The factor −1/2 of the exponent, as both programs spell it. -/
abbrev negHalf : EReal := Ideal.ofBits .f32 0xBF000000#32
/-- The factor 2 of the cross term, as the kernel spells it. -/
abbrev two : EReal := Ideal.ofBits .f32 0x40000000#32

variable (A0 A1 : SArr.Idx → EReal)

/-- `Σ_c A(b, c, y, x)²`: the squared norm of a pixel's channel vector. -/
def sqNorm (A : SArr.Idx → EReal) (b : Fin 4) (y x : Fin 128) : EReal :=
  ∑ c : Fin 64, A (ix4 b c y x) * A (ix4 b c y x)

/-- `Σ_c A0(b, c, y, x) · A1(b, c, y', x')` at the tap's neighbour `(y', x')`. -/
def cross (b : Fin 4) (dy dx : Fin 3) (y x : Fin 128) : EReal :=
  ∑ c : Fin 64, A0 (ix4 b c y x) * A1 (ix4 b c (nb y dy) (nb x dx))

/-- `Σ_c (A0(b, c, y, x) − A1(b, c, y', x'))²` at the tap's neighbour. -/
def dist (b : Fin 4) (dy dx : Fin 3) (y x : Fin 128) : EReal :=
  ∑ c : Fin 64, (A0 (ix4 b c y x) - A1 (ix4 b c (nb y dy) (nb x dx))) * (A0 (ix4 b c y x) - A1 (ix4 b c (nb y dy) (nb x dx)))

/-- A tap's weight in the expanded form: two norms and a cross term. -/
def wExpanded (b : Fin 4) (dy dx : Fin 3) (y x : Fin 128) : EReal :=
  if inside y dy ∧ inside x dx then
    Ideal.exp (negHalf * ((sqNorm A0 b y x + sqNorm A1 b (nb y dy) (nb x dx)) - two * cross A0 A1 b dy dx y x))
  else 0

/-- The entry in the expanded form: the pixel times the sum of its nine taps' weights. -/
def kernAt (b : Fin 4) (c : Fin 64) (y x : Fin 128) : EReal :=
  A0 (ix4 b c y x) * ∑ dy : Fin 3, ∑ dx : Fin 3, wExpanded A0 A1 b dy dx y x

/-- The entry in the direct form: the sum over the nine taps of weight times pixel. -/
def refAt (b : Fin 4) (c : Fin 64) (y x : Fin 128) : EReal :=
  ∑ dy : Fin 3, ∑ dx : Fin 3,
    if inside y dy ∧ inside x dx then Ideal.exp (negHalf * dist A0 A1 b dy dx y x) * A0 (ix4 b c y x) else 0

/-- The result array in the direct form. -/
def result : SArr.Idx → EReal := fun i => refAt A0 A1 (i 0) (i 1) (i 2) (i 3)

theorem result_ix4 (b : Fin 4) (c : Fin 64) (y x : Fin 128) : result A0 A1 (ix4 b c y x) = refAt A0 A1 b c y x := rfl

end Cert.GaussTaps

end
-- ==== Proof.KernelRead.lean ====
/-
  The kernel body's steps read at an index, at the extended reals.
  A chunk step adds to a running norm the chunk's sum of squares at the pixel (`normStep_apply`) and to slab
  `3 dy + dx` of the stack the chunk's sum of products of the first argument at the pixel with the second at the
  pixel's neighbour `(nb y dy, nb x dx)` (`stackStep_apply`): a rotation of an axis of 128 by 1 reads the coordinate
  before, by 127 the coordinate after, both around the end, which is `nb` at `d = 0` and `d = 2`; no rotation is
  `nb` at `d = 1`. The comparison words `0 ≤ v + (d − 1) < 128` on a row or column number say `inside`
  (`inRange_rowNo_apply`, `inRange_colNo_apply`: decided over the 128 coordinates). So after four chunks the norms and
  the stack hold double sums over chunk and channel (`nrm`, `crs`), and the stored block at `(0, c, y, x)` is the
  first block's entry times the sum over the nine taps of `exp(−½ · (n1 + n2' − 2 · cross))` under `inside`
  (`bodyValue_apply`).
-/
import proofs.«179273_j17781164605470_2_alg».proof.Proof.KernelBody
import proofs.«179273_j17781164605470_2_alg».proof.Proof.TapSpec
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

set_option maxRecDepth 16384

noncomputable section

namespace Cert.KernelIdeal.BodyRead

open Cert.KernelIdeal Cert.KernelIdeal.Body Cert.GaussTaps Idealize.ShloMosaic Idealize.ShloMosaic.ValueIdx

/-- The slab of tap `(dy, dx)`. -/
def tapIx (dy dx : Fin 3) : Fin 9 := ⟨3 * dy.val + dx.val, by have := dy.isLt; have := dx.isLt; omega⟩

theorem nb_one (y : Fin 128) : nb y 1 = y := Fin.ext (by
  show (y.val + 1 + 127) % 128 = y.val
  have := y.isLt; omega)

/-- The coordinate a rotation by 1 (tap coordinate 0) or by 127 (tap coordinate 2) of an axis of 128 reads. -/
theorem rot_coord (s : BitVec 32) (d : Fin 3) (hs : s.toNat = 1 ∧ d.val = 0 ∨ s.toNat = 127 ∧ d.val = 2) (y : Fin 128) :
    (nb y d).val = (y.val + 128 - s.toNat % 128) % 128 := by
  show (y.val + d.val + 127) % 128 = _
  have := y.isLt
  rcases hs with ⟨h1, h2⟩ | ⟨h1, h2⟩ <;> rw [h1, h2] <;> omega

/-! ## The layout steps -/

theorem chunkOf_apply (l : Vec Ideal S1x16x128x128 .f32) (j : Fin 16) (y x : Fin 128) :
    chunkOf l (ix3 j y x) = l (ix4 (0 : Fin 1) j y x) := by
  unfold chunkOf; exact shapeCast_1abc_abc_apply l _ j y x

theorem asSlab_apply (v : FVec Ideal S128x128 .f32) (u : Fin 1) (y x : Fin 128) :
    asSlab v (ix3 u y x) = v (ix2 y x) := by
  unfold asSlab; exact shapeCast_ab_1ab_apply v _ u y x

theorem slab_apply (k : Fin 9) (off : Fin 3 → Nat) (h : S9x128x128.Slices off S1x128x128) (hoff : off = ![k.val, 0, 0])
    (st : FVec Ideal S9x128x128 .f32) (y x : Fin 128) : slab off h st (ix2 y x) = st (ix3 k y x) := by
  subst hoff
  unfold slab
  refine (shapeCast_1ab_ab_apply _ _ y x).trans ?_
  exact extractStridedSlice_apply _ st h (ix3 (0 : Fin 1) y x) (ix3 k y x) (fun a => match a with
    | ⟨0, _⟩ => by show k.val = k.val + 0; omega
    | ⟨1, _⟩ => by show y.val = 0 + y.val; omega
    | ⟨2, _⟩ => by show x.val = 0 + x.val; omega)

/-- The sum over a chunk's sixteen channels of a product, at a pixel. -/
theorem chSum_apply (a b : FVec Ideal S16x128x128 .f32) (y x : Fin 128) :
    chSum a b (ix2 y x) = ∑ j : Fin 16, a (ix3 j y x) * b (ix3 j y x) := by
  unfold chSum
  refine (Ideal.multiReduction_add_single (mulf a b) 0x00000000#32 _ (.inl rfl) rfl (ix2 y x)).trans ?_
  refine Finset.sum_congr rfl fun j _ => ?_
  have e : (Facts₀.reduces_S16x128x128_S128x128).lift (ix2 y x) j = ix3 j y x :=
    funext fun d => Fin.ext (by match d with | ⟨0, _⟩ => rfl | ⟨1, _⟩ => rfl | ⟨2, _⟩ => rfl)
  rw [e]; rfl

theorem rotY_apply (s : BitVec 32) (d : Fin 3) (hs : s.toNat = 1 ∧ d.val = 0 ∨ s.toNat = 127 ∧ d.val = 2)
    (v : FVec Ideal S16x128x128 .f32) (j : Fin 16) (y x : Fin 128) : rotY s v (ix3 j y x) = v (ix3 j (nb y d) x) := by
  unfold rotY
  exact dynamicRotate_apply (1 : Fin 3) s v _ (ix3 j y x) (ix3 j (nb y d) x) (fun b => by
    split
    · next hb => subst hb; exact rot_coord s d hs y
    · next hb => exact match b, hb with | ⟨0, _⟩, _ => rfl | ⟨1, _⟩, hb => absurd (Fin.ext rfl) hb | ⟨2, _⟩, _ => rfl)

theorem rotX_apply (s : BitVec 32) (d : Fin 3) (hs : s.toNat = 1 ∧ d.val = 0 ∨ s.toNat = 127 ∧ d.val = 2)
    (v : FVec Ideal S16x128x128 .f32) (j : Fin 16) (y x : Fin 128) : rotX s v (ix3 j y x) = v (ix3 j y (nb x d)) := by
  unfold rotX
  exact dynamicRotate_apply (2 : Fin 3) s v _ (ix3 j y x) (ix3 j y (nb x d)) (fun b => by
    split
    · next hb => subst hb; exact rot_coord s d hs x
    · next hb => exact match b, hb with | ⟨0, _⟩, _ => rfl | ⟨1, _⟩, _ => rfl | ⟨2, _⟩, hb => absurd (Fin.ext rfl) hb)

theorem rollY_apply (s : BitVec 32) (d : Fin 3) (hs : s.toNat = 1 ∧ d.val = 0 ∨ s.toNat = 127 ∧ d.val = 2)
    (v : FVec Ideal S128x128 .f32) (y x : Fin 128) : rollY s v (ix2 y x) = v (ix2 (nb y d) x) := by
  unfold rollY
  exact dynamicRotate_apply (0 : Fin 2) s v _ (ix2 y x) (ix2 (nb y d) x) (fun b => by
    split
    · next hb => subst hb; exact rot_coord s d hs y
    · next hb => exact match b, hb with | ⟨0, _⟩, hb => absurd (Fin.ext rfl) hb | ⟨1, _⟩, _ => rfl)

theorem rollX_apply (s : BitVec 32) (d : Fin 3) (hs : s.toNat = 1 ∧ d.val = 0 ∨ s.toNat = 127 ∧ d.val = 2)
    (v : FVec Ideal S128x128 .f32) (y x : Fin 128) : rollX s v (ix2 y x) = v (ix2 y (nb x d)) := by
  unfold rollX
  exact dynamicRotate_apply (1 : Fin 2) s v _ (ix2 y x) (ix2 y (nb x d)) (fun b => by
    split
    · next hb => subst hb; exact rot_coord s d hs x
    · next hb => exact match b, hb with | ⟨0, _⟩, _ => rfl | ⟨1, _⟩, hb => absurd (Fin.ext rfl) hb)

/-- Nine 128 × 128 arrays as the pieces of a stack of nine slabs. -/
abbrev pieces9 (p0 p1 p2 p3 p4 p5 p6 p7 p8 : FVec Ideal S128x128 .f32) : List ((s : Shape) × (s.Idx → EReal)) :=
  [⟨S1x128x128, asSlab p0⟩, ⟨S1x128x128, asSlab p1⟩, ⟨S1x128x128, asSlab p2⟩, ⟨S1x128x128, asSlab p3⟩, ⟨S1x128x128, asSlab p4⟩, ⟨S1x128x128, asSlab p5⟩, ⟨S1x128x128, asSlab p6⟩, ⟨S1x128x128, asSlab p7⟩, ⟨S1x128x128, asSlab p8⟩]

/-- Nine slabs stacked: slab `k` at a pixel is the `k`-th array there. -/
theorem stack9_apply (p0 p1 p2 p3 p4 p5 p6 p7 p8 : FVec Ideal S128x128 .f32)
    (h : Shape.Concatenates ((pieces9 p0 p1 p2 p3 p4 p5 p6 p7 p8).map (·.1)) S9x128x128 0) (k : Fin 9) (y x : Fin 128) :
    concatenate S9x128x128 0 (pieces9 p0 p1 p2 p3 p4 p5 p6 p7 p8) h (ix3 k y x) = (![p0, p1, p2, p3, p4, p5, p6, p7, p8] : Fin 9 → FVec Ideal S128x128 .f32) k (ix2 y x) :=
  match k with
  | ⟨0, _⟩ =>
    (concatenate_apply_piece (0 : Fin 3) (pieces9 p0 p1 p2 p3 p4 p5 p6 p7 p8) h (ix3 (⟨0, by decide⟩ : Fin 9) y x) 0 (show (0 : ℕ) < 9 by decide) S1x128x128 (asSlab p0) rfl rfl 0 rfl
      (ix3 (0 : Fin 1) y x) (fun b hb => match b, hb with | ⟨0, _⟩, hb => absurd rfl hb | ⟨1, _⟩, _ => rfl | ⟨2, _⟩, _ => rfl) rfl).trans
      (asSlab_apply p0 0 y x)
  | ⟨1, _⟩ =>
    (concatenate_apply_piece (0 : Fin 3) (pieces9 p0 p1 p2 p3 p4 p5 p6 p7 p8) h (ix3 (⟨1, by decide⟩ : Fin 9) y x) 1 (show (1 : ℕ) < 9 by decide) S1x128x128 (asSlab p1) rfl rfl 1 rfl
      (ix3 (0 : Fin 1) y x) (fun b hb => match b, hb with | ⟨0, _⟩, hb => absurd rfl hb | ⟨1, _⟩, _ => rfl | ⟨2, _⟩, _ => rfl) rfl).trans
      (asSlab_apply p1 0 y x)
  | ⟨2, _⟩ =>
    (concatenate_apply_piece (0 : Fin 3) (pieces9 p0 p1 p2 p3 p4 p5 p6 p7 p8) h (ix3 (⟨2, by decide⟩ : Fin 9) y x) 2 (show (2 : ℕ) < 9 by decide) S1x128x128 (asSlab p2) rfl rfl 2 rfl
      (ix3 (0 : Fin 1) y x) (fun b hb => match b, hb with | ⟨0, _⟩, hb => absurd rfl hb | ⟨1, _⟩, _ => rfl | ⟨2, _⟩, _ => rfl) rfl).trans
      (asSlab_apply p2 0 y x)
  | ⟨3, _⟩ =>
    (concatenate_apply_piece (0 : Fin 3) (pieces9 p0 p1 p2 p3 p4 p5 p6 p7 p8) h (ix3 (⟨3, by decide⟩ : Fin 9) y x) 3 (show (3 : ℕ) < 9 by decide) S1x128x128 (asSlab p3) rfl rfl 3 rfl
      (ix3 (0 : Fin 1) y x) (fun b hb => match b, hb with | ⟨0, _⟩, hb => absurd rfl hb | ⟨1, _⟩, _ => rfl | ⟨2, _⟩, _ => rfl) rfl).trans
      (asSlab_apply p3 0 y x)
  | ⟨4, _⟩ =>
    (concatenate_apply_piece (0 : Fin 3) (pieces9 p0 p1 p2 p3 p4 p5 p6 p7 p8) h (ix3 (⟨4, by decide⟩ : Fin 9) y x) 4 (show (4 : ℕ) < 9 by decide) S1x128x128 (asSlab p4) rfl rfl 4 rfl
      (ix3 (0 : Fin 1) y x) (fun b hb => match b, hb with | ⟨0, _⟩, hb => absurd rfl hb | ⟨1, _⟩, _ => rfl | ⟨2, _⟩, _ => rfl) rfl).trans
      (asSlab_apply p4 0 y x)
  | ⟨5, _⟩ =>
    (concatenate_apply_piece (0 : Fin 3) (pieces9 p0 p1 p2 p3 p4 p5 p6 p7 p8) h (ix3 (⟨5, by decide⟩ : Fin 9) y x) 5 (show (5 : ℕ) < 9 by decide) S1x128x128 (asSlab p5) rfl rfl 5 rfl
      (ix3 (0 : Fin 1) y x) (fun b hb => match b, hb with | ⟨0, _⟩, hb => absurd rfl hb | ⟨1, _⟩, _ => rfl | ⟨2, _⟩, _ => rfl) rfl).trans
      (asSlab_apply p5 0 y x)
  | ⟨6, _⟩ =>
    (concatenate_apply_piece (0 : Fin 3) (pieces9 p0 p1 p2 p3 p4 p5 p6 p7 p8) h (ix3 (⟨6, by decide⟩ : Fin 9) y x) 6 (show (6 : ℕ) < 9 by decide) S1x128x128 (asSlab p6) rfl rfl 6 rfl
      (ix3 (0 : Fin 1) y x) (fun b hb => match b, hb with | ⟨0, _⟩, hb => absurd rfl hb | ⟨1, _⟩, _ => rfl | ⟨2, _⟩, _ => rfl) rfl).trans
      (asSlab_apply p6 0 y x)
  | ⟨7, _⟩ =>
    (concatenate_apply_piece (0 : Fin 3) (pieces9 p0 p1 p2 p3 p4 p5 p6 p7 p8) h (ix3 (⟨7, by decide⟩ : Fin 9) y x) 7 (show (7 : ℕ) < 9 by decide) S1x128x128 (asSlab p7) rfl rfl 7 rfl
      (ix3 (0 : Fin 1) y x) (fun b hb => match b, hb with | ⟨0, _⟩, hb => absurd rfl hb | ⟨1, _⟩, _ => rfl | ⟨2, _⟩, _ => rfl) rfl).trans
      (asSlab_apply p7 0 y x)
  | ⟨8, _⟩ =>
    (concatenate_apply_piece (0 : Fin 3) (pieces9 p0 p1 p2 p3 p4 p5 p6 p7 p8) h (ix3 (⟨8, by decide⟩ : Fin 9) y x) 8 (show (8 : ℕ) < 9 by decide) S1x128x128 (asSlab p8) rfl rfl 8 rfl
      (ix3 (0 : Fin 1) y x) (fun b hb => match b, hb with | ⟨0, _⟩, hb => absurd rfl hb | ⟨1, _⟩, _ => rfl | ⟨2, _⟩, _ => rfl) rfl).trans
      (asSlab_apply p8 0 y x)

/-! ## A chunk step at a pixel -/

theorem nb_one' (y : Fin 128) (h : 1 < 3) : nb y ⟨1, h⟩ = y := nb_one y

theorem normStep_apply (n : FVec Ideal S128x128 .f32) (l : Vec Ideal S1x16x128x128 .f32) (y x : Fin 128) :
    normStep n l (ix2 y x)
      = n (ix2 y x) + ∑ j : Fin 16, (l (ix4 (0 : Fin 1) j y x) : EReal) * (l (ix4 (0 : Fin 1) j y x) : EReal) := by
  unfold normStep
  refine (addf_apply _ _ _).trans ?_
  rw [chSum_apply]
  simp only [chunkOf_apply]

/-- One chunk's sum, over its sixteen channels, of the first argument at a pixel times the second at the tap's
    neighbour. -/
def tapSum (l1 l2 : Vec Ideal S1x16x128x128 .f32) (dy dx : Fin 3) (y x : Fin 128) : EReal :=
  ∑ j : Fin 16, (l1 (ix4 (0 : Fin 1) j y x) : EReal) * (l2 (ix4 (0 : Fin 1) j (nb y dy) (nb x dx)) : EReal)

theorem stackStep_apply_0 (st : FVec Ideal S9x128x128 .f32) (l1 l2 : Vec Ideal S1x16x128x128 .f32) (y x : Fin 128) :
    stackStep st l1 l2 (ix3 (⟨0, by decide⟩ : Fin 9) y x) = st (ix3 (⟨0, by decide⟩ : Fin 9) y x) + tapSum l1 l2 (⟨0, by decide⟩ : Fin 3) (⟨0, by decide⟩ : Fin 3) y x := by
  unfold stackStep tapSum
  refine (stack9_apply _ _ _ _ _ _ _ _ _ _ (⟨0, by decide⟩ : Fin 9) y x).trans ?_
  show slab _ _ st (ix2 y x) + chSum (chunkOf l1) (rotX 1#32 (rotY 1#32 (chunkOf l2))) (ix2 y x) = _
  rw [slab_apply (⟨0, by decide⟩ : Fin 9) _ _ rfl st y x, chSum_apply]
  refine congrArg (_ + ·) (Finset.sum_congr rfl fun j _ => ?_)
  simp only [chunkOf_apply, rotX_apply 1#32 (⟨0, by decide⟩ : Fin 3) (Or.inl ⟨rfl, rfl⟩), rotX_apply 127#32 (⟨2, by decide⟩ : Fin 3) (Or.inr ⟨rfl, rfl⟩), rotY_apply 1#32 (⟨0, by decide⟩ : Fin 3) (Or.inl ⟨rfl, rfl⟩), rotY_apply 127#32 (⟨2, by decide⟩ : Fin 3) (Or.inr ⟨rfl, rfl⟩), nb_one']

theorem stackStep_apply_1 (st : FVec Ideal S9x128x128 .f32) (l1 l2 : Vec Ideal S1x16x128x128 .f32) (y x : Fin 128) :
    stackStep st l1 l2 (ix3 (⟨1, by decide⟩ : Fin 9) y x) = st (ix3 (⟨1, by decide⟩ : Fin 9) y x) + tapSum l1 l2 (⟨0, by decide⟩ : Fin 3) (⟨1, by decide⟩ : Fin 3) y x := by
  unfold stackStep tapSum
  refine (stack9_apply _ _ _ _ _ _ _ _ _ _ (⟨1, by decide⟩ : Fin 9) y x).trans ?_
  show slab _ _ st (ix2 y x) + chSum (chunkOf l1) (rotY 1#32 (chunkOf l2)) (ix2 y x) = _
  rw [slab_apply (⟨1, by decide⟩ : Fin 9) _ _ rfl st y x, chSum_apply]
  refine congrArg (_ + ·) (Finset.sum_congr rfl fun j _ => ?_)
  simp only [chunkOf_apply, rotX_apply 1#32 (⟨0, by decide⟩ : Fin 3) (Or.inl ⟨rfl, rfl⟩), rotX_apply 127#32 (⟨2, by decide⟩ : Fin 3) (Or.inr ⟨rfl, rfl⟩), rotY_apply 1#32 (⟨0, by decide⟩ : Fin 3) (Or.inl ⟨rfl, rfl⟩), rotY_apply 127#32 (⟨2, by decide⟩ : Fin 3) (Or.inr ⟨rfl, rfl⟩), nb_one']

theorem stackStep_apply_2 (st : FVec Ideal S9x128x128 .f32) (l1 l2 : Vec Ideal S1x16x128x128 .f32) (y x : Fin 128) :
    stackStep st l1 l2 (ix3 (⟨2, by decide⟩ : Fin 9) y x) = st (ix3 (⟨2, by decide⟩ : Fin 9) y x) + tapSum l1 l2 (⟨0, by decide⟩ : Fin 3) (⟨2, by decide⟩ : Fin 3) y x := by
  unfold stackStep tapSum
  refine (stack9_apply _ _ _ _ _ _ _ _ _ _ (⟨2, by decide⟩ : Fin 9) y x).trans ?_
  show slab _ _ st (ix2 y x) + chSum (chunkOf l1) (rotX 127#32 (rotY 1#32 (chunkOf l2))) (ix2 y x) = _
  rw [slab_apply (⟨2, by decide⟩ : Fin 9) _ _ rfl st y x, chSum_apply]
  refine congrArg (_ + ·) (Finset.sum_congr rfl fun j _ => ?_)
  simp only [chunkOf_apply, rotX_apply 1#32 (⟨0, by decide⟩ : Fin 3) (Or.inl ⟨rfl, rfl⟩), rotX_apply 127#32 (⟨2, by decide⟩ : Fin 3) (Or.inr ⟨rfl, rfl⟩), rotY_apply 1#32 (⟨0, by decide⟩ : Fin 3) (Or.inl ⟨rfl, rfl⟩), rotY_apply 127#32 (⟨2, by decide⟩ : Fin 3) (Or.inr ⟨rfl, rfl⟩), nb_one']

theorem stackStep_apply_3 (st : FVec Ideal S9x128x128 .f32) (l1 l2 : Vec Ideal S1x16x128x128 .f32) (y x : Fin 128) :
    stackStep st l1 l2 (ix3 (⟨3, by decide⟩ : Fin 9) y x) = st (ix3 (⟨3, by decide⟩ : Fin 9) y x) + tapSum l1 l2 (⟨1, by decide⟩ : Fin 3) (⟨0, by decide⟩ : Fin 3) y x := by
  unfold stackStep tapSum
  refine (stack9_apply _ _ _ _ _ _ _ _ _ _ (⟨3, by decide⟩ : Fin 9) y x).trans ?_
  show slab _ _ st (ix2 y x) + chSum (chunkOf l1) (rotX 1#32 (chunkOf l2)) (ix2 y x) = _
  rw [slab_apply (⟨3, by decide⟩ : Fin 9) _ _ rfl st y x, chSum_apply]
  refine congrArg (_ + ·) (Finset.sum_congr rfl fun j _ => ?_)
  simp only [chunkOf_apply, rotX_apply 1#32 (⟨0, by decide⟩ : Fin 3) (Or.inl ⟨rfl, rfl⟩), rotX_apply 127#32 (⟨2, by decide⟩ : Fin 3) (Or.inr ⟨rfl, rfl⟩), rotY_apply 1#32 (⟨0, by decide⟩ : Fin 3) (Or.inl ⟨rfl, rfl⟩), rotY_apply 127#32 (⟨2, by decide⟩ : Fin 3) (Or.inr ⟨rfl, rfl⟩), nb_one']

theorem stackStep_apply_4 (st : FVec Ideal S9x128x128 .f32) (l1 l2 : Vec Ideal S1x16x128x128 .f32) (y x : Fin 128) :
    stackStep st l1 l2 (ix3 (⟨4, by decide⟩ : Fin 9) y x) = st (ix3 (⟨4, by decide⟩ : Fin 9) y x) + tapSum l1 l2 (⟨1, by decide⟩ : Fin 3) (⟨1, by decide⟩ : Fin 3) y x := by
  unfold stackStep tapSum
  refine (stack9_apply _ _ _ _ _ _ _ _ _ _ (⟨4, by decide⟩ : Fin 9) y x).trans ?_
  show slab _ _ st (ix2 y x) + chSum (chunkOf l1) (chunkOf l2) (ix2 y x) = _
  rw [slab_apply (⟨4, by decide⟩ : Fin 9) _ _ rfl st y x, chSum_apply]
  refine congrArg (_ + ·) (Finset.sum_congr rfl fun j _ => ?_)
  simp only [chunkOf_apply, rotX_apply 1#32 (⟨0, by decide⟩ : Fin 3) (Or.inl ⟨rfl, rfl⟩), rotX_apply 127#32 (⟨2, by decide⟩ : Fin 3) (Or.inr ⟨rfl, rfl⟩), rotY_apply 1#32 (⟨0, by decide⟩ : Fin 3) (Or.inl ⟨rfl, rfl⟩), rotY_apply 127#32 (⟨2, by decide⟩ : Fin 3) (Or.inr ⟨rfl, rfl⟩), nb_one']

theorem stackStep_apply_5 (st : FVec Ideal S9x128x128 .f32) (l1 l2 : Vec Ideal S1x16x128x128 .f32) (y x : Fin 128) :
    stackStep st l1 l2 (ix3 (⟨5, by decide⟩ : Fin 9) y x) = st (ix3 (⟨5, by decide⟩ : Fin 9) y x) + tapSum l1 l2 (⟨1, by decide⟩ : Fin 3) (⟨2, by decide⟩ : Fin 3) y x := by
  unfold stackStep tapSum
  refine (stack9_apply _ _ _ _ _ _ _ _ _ _ (⟨5, by decide⟩ : Fin 9) y x).trans ?_
  show slab _ _ st (ix2 y x) + chSum (chunkOf l1) (rotX 127#32 (chunkOf l2)) (ix2 y x) = _
  rw [slab_apply (⟨5, by decide⟩ : Fin 9) _ _ rfl st y x, chSum_apply]
  refine congrArg (_ + ·) (Finset.sum_congr rfl fun j _ => ?_)
  simp only [chunkOf_apply, rotX_apply 1#32 (⟨0, by decide⟩ : Fin 3) (Or.inl ⟨rfl, rfl⟩), rotX_apply 127#32 (⟨2, by decide⟩ : Fin 3) (Or.inr ⟨rfl, rfl⟩), rotY_apply 1#32 (⟨0, by decide⟩ : Fin 3) (Or.inl ⟨rfl, rfl⟩), rotY_apply 127#32 (⟨2, by decide⟩ : Fin 3) (Or.inr ⟨rfl, rfl⟩), nb_one']

theorem stackStep_apply_6 (st : FVec Ideal S9x128x128 .f32) (l1 l2 : Vec Ideal S1x16x128x128 .f32) (y x : Fin 128) :
    stackStep st l1 l2 (ix3 (⟨6, by decide⟩ : Fin 9) y x) = st (ix3 (⟨6, by decide⟩ : Fin 9) y x) + tapSum l1 l2 (⟨2, by decide⟩ : Fin 3) (⟨0, by decide⟩ : Fin 3) y x := by
  unfold stackStep tapSum
  refine (stack9_apply _ _ _ _ _ _ _ _ _ _ (⟨6, by decide⟩ : Fin 9) y x).trans ?_
  show slab _ _ st (ix2 y x) + chSum (chunkOf l1) (rotX 1#32 (rotY 127#32 (chunkOf l2))) (ix2 y x) = _
  rw [slab_apply (⟨6, by decide⟩ : Fin 9) _ _ rfl st y x, chSum_apply]
  refine congrArg (_ + ·) (Finset.sum_congr rfl fun j _ => ?_)
  simp only [chunkOf_apply, rotX_apply 1#32 (⟨0, by decide⟩ : Fin 3) (Or.inl ⟨rfl, rfl⟩), rotX_apply 127#32 (⟨2, by decide⟩ : Fin 3) (Or.inr ⟨rfl, rfl⟩), rotY_apply 1#32 (⟨0, by decide⟩ : Fin 3) (Or.inl ⟨rfl, rfl⟩), rotY_apply 127#32 (⟨2, by decide⟩ : Fin 3) (Or.inr ⟨rfl, rfl⟩), nb_one']

theorem stackStep_apply_7 (st : FVec Ideal S9x128x128 .f32) (l1 l2 : Vec Ideal S1x16x128x128 .f32) (y x : Fin 128) :
    stackStep st l1 l2 (ix3 (⟨7, by decide⟩ : Fin 9) y x) = st (ix3 (⟨7, by decide⟩ : Fin 9) y x) + tapSum l1 l2 (⟨2, by decide⟩ : Fin 3) (⟨1, by decide⟩ : Fin 3) y x := by
  unfold stackStep tapSum
  refine (stack9_apply _ _ _ _ _ _ _ _ _ _ (⟨7, by decide⟩ : Fin 9) y x).trans ?_
  show slab _ _ st (ix2 y x) + chSum (chunkOf l1) (rotY 127#32 (chunkOf l2)) (ix2 y x) = _
  rw [slab_apply (⟨7, by decide⟩ : Fin 9) _ _ rfl st y x, chSum_apply]
  refine congrArg (_ + ·) (Finset.sum_congr rfl fun j _ => ?_)
  simp only [chunkOf_apply, rotX_apply 1#32 (⟨0, by decide⟩ : Fin 3) (Or.inl ⟨rfl, rfl⟩), rotX_apply 127#32 (⟨2, by decide⟩ : Fin 3) (Or.inr ⟨rfl, rfl⟩), rotY_apply 1#32 (⟨0, by decide⟩ : Fin 3) (Or.inl ⟨rfl, rfl⟩), rotY_apply 127#32 (⟨2, by decide⟩ : Fin 3) (Or.inr ⟨rfl, rfl⟩), nb_one']

theorem stackStep_apply_8 (st : FVec Ideal S9x128x128 .f32) (l1 l2 : Vec Ideal S1x16x128x128 .f32) (y x : Fin 128) :
    stackStep st l1 l2 (ix3 (⟨8, by decide⟩ : Fin 9) y x) = st (ix3 (⟨8, by decide⟩ : Fin 9) y x) + tapSum l1 l2 (⟨2, by decide⟩ : Fin 3) (⟨2, by decide⟩ : Fin 3) y x := by
  unfold stackStep tapSum
  refine (stack9_apply _ _ _ _ _ _ _ _ _ _ (⟨8, by decide⟩ : Fin 9) y x).trans ?_
  show slab _ _ st (ix2 y x) + chSum (chunkOf l1) (rotX 127#32 (rotY 127#32 (chunkOf l2))) (ix2 y x) = _
  rw [slab_apply (⟨8, by decide⟩ : Fin 9) _ _ rfl st y x, chSum_apply]
  refine congrArg (_ + ·) (Finset.sum_congr rfl fun j _ => ?_)
  simp only [chunkOf_apply, rotX_apply 1#32 (⟨0, by decide⟩ : Fin 3) (Or.inl ⟨rfl, rfl⟩), rotX_apply 127#32 (⟨2, by decide⟩ : Fin 3) (Or.inr ⟨rfl, rfl⟩), rotY_apply 1#32 (⟨0, by decide⟩ : Fin 3) (Or.inl ⟨rfl, rfl⟩), rotY_apply 127#32 (⟨2, by decide⟩ : Fin 3) (Or.inr ⟨rfl, rfl⟩), nb_one']

/-- Slab `3 dy + dx` of the stack gains the chunk's tap sum. -/
theorem stackStep_apply (st : FVec Ideal S9x128x128 .f32) (l1 l2 : Vec Ideal S1x16x128x128 .f32) (dy dx : Fin 3) (y x : Fin 128) :
    stackStep st l1 l2 (ix3 (tapIx dy dx) y x) = st (ix3 (tapIx dy dx) y x) + tapSum l1 l2 dy dx y x :=
  match dy, dx with
  | ⟨0, _⟩, ⟨0, _⟩ => stackStep_apply_0 st l1 l2 y x
  | ⟨0, _⟩, ⟨1, _⟩ => stackStep_apply_1 st l1 l2 y x
  | ⟨0, _⟩, ⟨2, _⟩ => stackStep_apply_2 st l1 l2 y x
  | ⟨1, _⟩, ⟨0, _⟩ => stackStep_apply_3 st l1 l2 y x
  | ⟨1, _⟩, ⟨1, _⟩ => stackStep_apply_4 st l1 l2 y x
  | ⟨1, _⟩, ⟨2, _⟩ => stackStep_apply_5 st l1 l2 y x
  | ⟨2, _⟩, ⟨0, _⟩ => stackStep_apply_6 st l1 l2 y x
  | ⟨2, _⟩, ⟨1, _⟩ => stackStep_apply_7 st l1 l2 y x
  | ⟨2, _⟩, ⟨2, _⟩ => stackStep_apply_8 st l1 l2 y x

/-! ## Four chunks -/

/-- The squared norm of a pixel's channel vector, chunk by chunk. -/
def nrm (l : Fin 4 → Vec Ideal S1x16x128x128 .f32) (y x : Fin 128) : EReal :=
  ∑ k : Fin 4, ∑ j : Fin 16, (l k (ix4 (0 : Fin 1) j y x) : EReal) * (l k (ix4 (0 : Fin 1) j y x) : EReal)

/-- The cross term of a pixel and its neighbour, chunk by chunk. -/
def crs (l1 l2 : Fin 4 → Vec Ideal S1x16x128x128 .f32) (dy dx : Fin 3) (y x : Fin 128) : EReal :=
  ∑ k : Fin 4, tapSum (l1 k) (l2 k) dy dx y x

theorem zero2_apply (i : S128x128.Idx) : zero2 (F := Ideal) i = 0 := Ideal.ofBits_zero_f32
theorem zero9_apply (i : S9x128x128.Idx) : zero9 (F := Ideal) i = 0 := Ideal.ofBits_zero_f32

theorem norms_apply (l : Fin 4 → Vec Ideal S1x16x128x128 .f32) (y x : Fin 128) :
    normStep (normStep (normStep (normStep zero2 (l 0)) (l 1)) (l 2)) (l 3) (ix2 y x) = nrm l y x := by
  simp only [normStep_apply, zero2_apply, nrm, Fin.sum_univ_four, zero_add]

theorem stacks_apply (l1 l2 : Fin 4 → Vec Ideal S1x16x128x128 .f32) (dy dx : Fin 3) (y x : Fin 128) :
    stackStep (stackStep (stackStep (stackStep zero9 (l1 0) (l2 0)) (l1 1) (l2 1)) (l1 2) (l2 2)) (l1 3) (l2 3)
        (ix3 (tapIx dy dx) y x) = crs l1 l2 dy dx y x := by
  simp only [stackStep_apply, zero9_apply, crs, Fin.sum_univ_four, zero_add]

end Cert.KernelIdeal.BodyRead

end
-- ==== Proof.KernelMasks.lean ====
/-
  The kernel's range masks and one tap's weight, read at a pixel, at the extended reals.
  The words `0 ≤ v + (d − 1)` and `v + (d − 1) < 128` on a pixel's row or column number `v`, as 32-bit signed words,
  say that the coordinate `v + d − 1` lies on the axis (`inside`): decided over the 128 coordinates for each of
  the three offsets. A tap's weight is selected by the conjunction of its row word and its column word, so at a
  pixel it is `exp(−½ · (n1 + n2' − 2 · cross))` when both neighbours' coordinates lie inside, and zero otherwise.
-/
import proofs.«179273_j17781164605470_2_alg».proof.Proof.KernelRead

set_option maxRecDepth 16384

noncomputable section

namespace Cert.KernelIdeal.BodyRead

open Cert.KernelIdeal Cert.KernelIdeal.Body Cert.GaussTaps Idealize.ShloMosaic Idealize.ShloMosaic.ValueIdx

/-! ## The masks -/

/-- The two comparison words `0 ≤ y + (d − 1)` and `y + (d − 1) < 128`, on 32-bit signed words, say that the
    coordinate `y + d − 1` lies on the axis: decided over the 128 coordinates for each of the three offsets. -/
theorem mask_word (w : BitVec 32) (d : Fin 3)
    (hw : (w = 4294967295#32 ∧ d = 0) ∨ (w = 0#32 ∧ d = 1) ∨ (w = 1#32 ∧ d = 2)) (y : Fin 128) :
    IntOp.andi (IntOp.cmpi .sge (IntOp.addi (BitVec.ofNat 32 y.val) w) 0#32)
        (IntOp.cmpi .slt (IntOp.addi (BitVec.ofNat 32 y.val) w) 128#32)
      = if inside y d then 1#1 else 0#1 := by
  rcases hw with ⟨rfl, rfl⟩ | ⟨rfl, rfl⟩ | ⟨rfl, rfl⟩ <;> revert y <;> decide +kernel

theorem inRange_rowNo_apply (w : BitVec 32) (d : Fin 3)
    (hw : (w = 4294967295#32 ∧ d = 0) ∨ (w = 0#32 ∧ d = 1) ∨ (w = 1#32 ∧ d = 2)) (y x : Fin 128) :
    inRange rowNo w (ix2 y x) = if inside y d then 1#1 else 0#1 := by
  have e : rowNo (ix2 y x) = BitVec.ofNat 32 y.val := iota_single_apply .tc S128x128 32 0 _ (ix2 y x)
  show IntOp.andi (IntOp.cmpi .sge (IntOp.addi (rowNo (ix2 y x)) w) 0#32) (IntOp.cmpi .slt (IntOp.addi (rowNo (ix2 y x)) w) 128#32) = _
  rw [e]; exact mask_word w d hw y

theorem inRange_colNo_apply (w : BitVec 32) (d : Fin 3)
    (hw : (w = 4294967295#32 ∧ d = 0) ∨ (w = 0#32 ∧ d = 1) ∨ (w = 1#32 ∧ d = 2)) (y x : Fin 128) :
    inRange colNo w (ix2 y x) = if inside x d then 1#1 else 0#1 := by
  have e : colNo (ix2 y x) = BitVec.ofNat 32 x.val := iota_single_apply .tc S128x128 32 1 _ (ix2 y x)
  show IntOp.andi (IntOp.cmpi .sge (IntOp.addi (colNo (ix2 y x)) w) 0#32) (IntOp.cmpi .slt (IntOp.addi (colNo (ix2 y x)) w) 128#32) = _
  rw [e]; exact mask_word w d hw x

theorem andi_apply {s : Shape} {w : Nat} (a b : IVec s w) (i : s.Idx) : andi a b i = IntOp.andi (a i) (b i) := rfl

/-- A select on the conjunction of two one-bit words that encode propositions is an `if` on their conjunction. -/
theorem select_and {α : Type} (a b : Prop) [Decidable a] [Decidable b] (u v : α) :
    Scalar.select (IntOp.andi (if a then 1#1 else 0#1) (if b then 1#1 else 0#1)) u v = if a ∧ b then u else v := by
  by_cases ha : a <;> by_cases hb : b <;>
    simp only [ha, hb, if_true, if_false, and_self, and_false, false_and, and_true] <;> rfl

/-! ## The weights and the stored block -/

theorem tapWeight_apply (mask : IVec S128x128 1) (n1 n2s cr : FVec Ideal S128x128 .f32) (i : S128x128.Idx) :
    tapWeight mask n1 n2s cr i
      = Scalar.select (mask i) (Ideal.exp (negHalf * ((n1 i + n2s i) - two * cr i))) (0 : EReal) := by
  unfold tapWeight
  show Scalar.select (mask i) (Ideal.exp (negHalf * ((n1 i + n2s i) - two * cr i))) (Ideal.ofBits .f32 0x00000000#32) = _
  rw [Ideal.ofBits_zero_f32]

/-- One tap's weight at a pixel, its mask the row and column range words of the tap's offsets. -/
theorem tap_apply (wy wx : BitVec 32) (dy dx : Fin 3)
    (hwy : (wy = 4294967295#32 ∧ dy = 0) ∨ (wy = 0#32 ∧ dy = 1) ∨ (wy = 1#32 ∧ dy = 2))
    (hwx : (wx = 4294967295#32 ∧ dx = 0) ∨ (wx = 0#32 ∧ dx = 1) ∨ (wx = 1#32 ∧ dx = 2))
    (n1 n2s cr : FVec Ideal S128x128 .f32) (y x : Fin 128) :
    tapWeight (andi (inRange rowNo wy) (inRange colNo wx)) n1 n2s cr (ix2 y x)
      = if inside y dy ∧ inside x dx then
          Ideal.exp (negHalf * ((n1 (ix2 y x) + n2s (ix2 y x)) - two * cr (ix2 y x)))
        else 0 := by
  rw [tapWeight_apply, andi_apply, inRange_rowNo_apply wy dy hwy, inRange_colNo_apply wx dx hwx, select_and]

end Cert.KernelIdeal.BodyRead

end
-- ==== Proof.KernelWeights.lean ====
/-
  The nine weights summed and the stored block, read at a pixel, at the extended reals.
  Each tap's weight at a pixel is `exp(−½ · (n1 + n2' − 2 · cross))` under `inside`, its `n2'` the second norm at the
  tap's neighbour (a roll of an axis by 1 or by 127 reads the coordinate before or after, around the end) and its
  cross term the tap's slab of the stack; the nine add up from zero (`weightSum_apply`). The stored block at
  `(0, c, y, x)` is the whole first block's entry there times that sum (`out_apply`), with the norms and the stack
  after four chunks the double sums `nrm` and `crs` (`bodyValue_apply`).
-/
import proofs.«179273_j17781164605470_2_alg».proof.Proof.KernelMasks

set_option maxRecDepth 16384

noncomputable section

namespace Cert.KernelIdeal.BodyRead

open Cert.KernelIdeal Cert.KernelIdeal.Body Cert.GaussTaps Idealize.ShloMosaic Idealize.ShloMosaic.ValueIdx

theorem slab_lit (kv : ℕ) (hk : kv < 9) (h : S9x128x128.Slices ![kv, 0, 0] S1x128x128) (st : FVec Ideal S9x128x128 .f32)
    (y x : Fin 128) : slab ![kv, 0, 0] h st (ix2 y x) = st (ix3 (⟨kv, hk⟩ : Fin 9) y x) :=
  slab_apply ⟨kv, hk⟩ _ h rfl st y x

theorem tap0_apply (n1 n2 : FVec Ideal S128x128 .f32) (st : FVec Ideal S9x128x128 .f32) (y x : Fin 128) :
    tap0 n1 n2 st (ix2 y x)
      = if inside y (0 : Fin 3) ∧ inside x (0 : Fin 3) then
          Ideal.exp (negHalf * ((n1 (ix2 y x) + n2 (ix2 (nb y (0 : Fin 3)) (nb x (0 : Fin 3)))) - two * st (ix3 (⟨0, by decide⟩ : Fin 9) y x)))
        else 0 := by
  unfold tap0
  rw [tap_apply 4294967295#32 4294967295#32 (0 : Fin 3) (0 : Fin 3) (Or.inl ⟨rfl, rfl⟩) (Or.inl ⟨rfl, rfl⟩), slab_lit 0 (by decide)]
  rw [rollX_apply 1#32 (0 : Fin 3) (Or.inl ⟨rfl, rfl⟩)]
  rw [rollY_apply 1#32 (0 : Fin 3) (Or.inl ⟨rfl, rfl⟩)]

theorem tap1_apply (n1 n2 : FVec Ideal S128x128 .f32) (st : FVec Ideal S9x128x128 .f32) (y x : Fin 128) :
    tap1 n1 n2 st (ix2 y x)
      = if inside y (0 : Fin 3) ∧ inside x (1 : Fin 3) then
          Ideal.exp (negHalf * ((n1 (ix2 y x) + n2 (ix2 (nb y (0 : Fin 3)) x)) - two * st (ix3 (⟨1, by decide⟩ : Fin 9) y x)))
        else 0 := by
  unfold tap1
  rw [tap_apply 4294967295#32 0#32 (0 : Fin 3) (1 : Fin 3) (Or.inl ⟨rfl, rfl⟩) (Or.inr (Or.inl ⟨rfl, rfl⟩)), slab_lit 1 (by decide)]
  rw [rollY_apply 1#32 (0 : Fin 3) (Or.inl ⟨rfl, rfl⟩)]

theorem tap2_apply (n1 n2 : FVec Ideal S128x128 .f32) (st : FVec Ideal S9x128x128 .f32) (y x : Fin 128) :
    tap2 n1 n2 st (ix2 y x)
      = if inside y (0 : Fin 3) ∧ inside x (2 : Fin 3) then
          Ideal.exp (negHalf * ((n1 (ix2 y x) + n2 (ix2 (nb y (0 : Fin 3)) (nb x (2 : Fin 3)))) - two * st (ix3 (⟨2, by decide⟩ : Fin 9) y x)))
        else 0 := by
  unfold tap2
  rw [tap_apply 4294967295#32 1#32 (0 : Fin 3) (2 : Fin 3) (Or.inl ⟨rfl, rfl⟩) (Or.inr (Or.inr ⟨rfl, rfl⟩)), slab_lit 2 (by decide)]
  rw [rollX_apply 127#32 (2 : Fin 3) (Or.inr ⟨rfl, rfl⟩)]
  rw [rollY_apply 1#32 (0 : Fin 3) (Or.inl ⟨rfl, rfl⟩)]

theorem tap3_apply (n1 n2 : FVec Ideal S128x128 .f32) (st : FVec Ideal S9x128x128 .f32) (y x : Fin 128) :
    tap3 n1 n2 st (ix2 y x)
      = if inside y (1 : Fin 3) ∧ inside x (0 : Fin 3) then
          Ideal.exp (negHalf * ((n1 (ix2 y x) + n2 (ix2 y (nb x (0 : Fin 3)))) - two * st (ix3 (⟨3, by decide⟩ : Fin 9) y x)))
        else 0 := by
  unfold tap3
  rw [tap_apply 0#32 4294967295#32 (1 : Fin 3) (0 : Fin 3) (Or.inr (Or.inl ⟨rfl, rfl⟩)) (Or.inl ⟨rfl, rfl⟩), slab_lit 3 (by decide)]
  rw [rollX_apply 1#32 (0 : Fin 3) (Or.inl ⟨rfl, rfl⟩)]

theorem tap4_apply (n1 n2 : FVec Ideal S128x128 .f32) (st : FVec Ideal S9x128x128 .f32) (y x : Fin 128) :
    tap4 n1 n2 st (ix2 y x)
      = if inside y (1 : Fin 3) ∧ inside x (1 : Fin 3) then
          Ideal.exp (negHalf * ((n1 (ix2 y x) + n2 (ix2 y x)) - two * st (ix3 (⟨4, by decide⟩ : Fin 9) y x)))
        else 0 := by
  unfold tap4
  rw [tap_apply 0#32 0#32 (1 : Fin 3) (1 : Fin 3) (Or.inr (Or.inl ⟨rfl, rfl⟩)) (Or.inr (Or.inl ⟨rfl, rfl⟩)), slab_lit 4 (by decide)]

theorem tap5_apply (n1 n2 : FVec Ideal S128x128 .f32) (st : FVec Ideal S9x128x128 .f32) (y x : Fin 128) :
    tap5 n1 n2 st (ix2 y x)
      = if inside y (1 : Fin 3) ∧ inside x (2 : Fin 3) then
          Ideal.exp (negHalf * ((n1 (ix2 y x) + n2 (ix2 y (nb x (2 : Fin 3)))) - two * st (ix3 (⟨5, by decide⟩ : Fin 9) y x)))
        else 0 := by
  unfold tap5
  rw [tap_apply 0#32 1#32 (1 : Fin 3) (2 : Fin 3) (Or.inr (Or.inl ⟨rfl, rfl⟩)) (Or.inr (Or.inr ⟨rfl, rfl⟩)), slab_lit 5 (by decide)]
  rw [rollX_apply 127#32 (2 : Fin 3) (Or.inr ⟨rfl, rfl⟩)]

theorem tap6_apply (n1 n2 : FVec Ideal S128x128 .f32) (st : FVec Ideal S9x128x128 .f32) (y x : Fin 128) :
    tap6 n1 n2 st (ix2 y x)
      = if inside y (2 : Fin 3) ∧ inside x (0 : Fin 3) then
          Ideal.exp (negHalf * ((n1 (ix2 y x) + n2 (ix2 (nb y (2 : Fin 3)) (nb x (0 : Fin 3)))) - two * st (ix3 (⟨6, by decide⟩ : Fin 9) y x)))
        else 0 := by
  unfold tap6
  rw [tap_apply 1#32 4294967295#32 (2 : Fin 3) (0 : Fin 3) (Or.inr (Or.inr ⟨rfl, rfl⟩)) (Or.inl ⟨rfl, rfl⟩), slab_lit 6 (by decide)]
  rw [rollX_apply 1#32 (0 : Fin 3) (Or.inl ⟨rfl, rfl⟩)]
  rw [rollY_apply 127#32 (2 : Fin 3) (Or.inr ⟨rfl, rfl⟩)]

theorem tap7_apply (n1 n2 : FVec Ideal S128x128 .f32) (st : FVec Ideal S9x128x128 .f32) (y x : Fin 128) :
    tap7 n1 n2 st (ix2 y x)
      = if inside y (2 : Fin 3) ∧ inside x (1 : Fin 3) then
          Ideal.exp (negHalf * ((n1 (ix2 y x) + n2 (ix2 (nb y (2 : Fin 3)) x)) - two * st (ix3 (⟨7, by decide⟩ : Fin 9) y x)))
        else 0 := by
  unfold tap7
  rw [tap_apply 1#32 0#32 (2 : Fin 3) (1 : Fin 3) (Or.inr (Or.inr ⟨rfl, rfl⟩)) (Or.inr (Or.inl ⟨rfl, rfl⟩)), slab_lit 7 (by decide)]
  rw [rollY_apply 127#32 (2 : Fin 3) (Or.inr ⟨rfl, rfl⟩)]

theorem tap8_apply (n1 n2 : FVec Ideal S128x128 .f32) (st : FVec Ideal S9x128x128 .f32) (y x : Fin 128) :
    tap8 n1 n2 st (ix2 y x)
      = if inside y (2 : Fin 3) ∧ inside x (2 : Fin 3) then
          Ideal.exp (negHalf * ((n1 (ix2 y x) + n2 (ix2 (nb y (2 : Fin 3)) (nb x (2 : Fin 3)))) - two * st (ix3 (⟨8, by decide⟩ : Fin 9) y x)))
        else 0 := by
  unfold tap8
  rw [tap_apply 1#32 1#32 (2 : Fin 3) (2 : Fin 3) (Or.inr (Or.inr ⟨rfl, rfl⟩)) (Or.inr (Or.inr ⟨rfl, rfl⟩)), slab_lit 8 (by decide)]
  rw [rollX_apply 127#32 (2 : Fin 3) (Or.inr ⟨rfl, rfl⟩)]
  rw [rollY_apply 127#32 (2 : Fin 3) (Or.inr ⟨rfl, rfl⟩)]

theorem tapIx_0_0 : tapIx (0 : Fin 3) (0 : Fin 3) = (⟨0, by decide⟩ : Fin 9) := rfl
theorem tapIx_0_1 : tapIx (0 : Fin 3) (1 : Fin 3) = (⟨1, by decide⟩ : Fin 9) := rfl
theorem tapIx_0_2 : tapIx (0 : Fin 3) (2 : Fin 3) = (⟨2, by decide⟩ : Fin 9) := rfl
theorem tapIx_1_0 : tapIx (1 : Fin 3) (0 : Fin 3) = (⟨3, by decide⟩ : Fin 9) := rfl
theorem tapIx_1_1 : tapIx (1 : Fin 3) (1 : Fin 3) = (⟨4, by decide⟩ : Fin 9) := rfl
theorem tapIx_1_2 : tapIx (1 : Fin 3) (2 : Fin 3) = (⟨5, by decide⟩ : Fin 9) := rfl
theorem tapIx_2_0 : tapIx (2 : Fin 3) (0 : Fin 3) = (⟨6, by decide⟩ : Fin 9) := rfl
theorem tapIx_2_1 : tapIx (2 : Fin 3) (1 : Fin 3) = (⟨7, by decide⟩ : Fin 9) := rfl
theorem tapIx_2_2 : tapIx (2 : Fin 3) (2 : Fin 3) = (⟨8, by decide⟩ : Fin 9) := rfl

/-- Nine terms added one after the other are three groups of three. -/
theorem nine_assoc {M : Type*} [AddSemigroup M] (a b c d e f g h i : M) :
    ((((((((a + b) + c) + d) + e) + f) + g) + h) + i) = (a + b + c) + (d + e + f) + (g + h + i) := by
  simp only [add_assoc]

/-- The nine weights summed, at a pixel: each tap's `exp(−½ · (n1 + n2' − 2 · cross))` under `inside`. -/
theorem weightSum_apply (n1 n2 : FVec Ideal S128x128 .f32) (st : FVec Ideal S9x128x128 .f32) (y x : Fin 128) :
    weightSum n1 n2 st (ix2 y x)
      = ∑ dy : Fin 3, ∑ dx : Fin 3,
          if inside y dy ∧ inside x dx then
            Ideal.exp (negHalf * ((n1 (ix2 y x) + n2 (ix2 (nb y dy) (nb x dx))) - two * st (ix3 (tapIx dy dx) y x)))
          else 0 := by
  have e : weightSum n1 n2 st (ix2 y x)
      = (((((((((zero2 (F := Ideal) (ix2 y x) : EReal) + tap0 n1 n2 st (ix2 y x)) + tap1 n1 n2 st (ix2 y x)) + tap2 n1 n2 st (ix2 y x)) + tap3 n1 n2 st (ix2 y x))
        + tap4 n1 n2 st (ix2 y x)) + tap5 n1 n2 st (ix2 y x)) + tap6 n1 n2 st (ix2 y x)) + tap7 n1 n2 st (ix2 y x)) + tap8 n1 n2 st (ix2 y x) := by
    unfold weightSum
    rw [addf_apply, addf_apply, addf_apply, addf_apply, addf_apply, addf_apply, addf_apply, addf_apply, addf_apply]
  rw [e, zero2_apply, zero_add, nine_assoc]
  rw [tap0_apply, tap1_apply, tap2_apply, tap3_apply, tap4_apply, tap5_apply, tap6_apply, tap7_apply, tap8_apply]
  rw [Fin.sum_univ_three, Fin.sum_univ_three, Fin.sum_univ_three, Fin.sum_univ_three]
  simp only [tapIx_0_0, tapIx_0_1, tapIx_0_2, tapIx_1_0, tapIx_1_1, tapIx_1_2, tapIx_2_0, tapIx_2_1, tapIx_2_2, nb_one]

theorem out_apply (w : FVec Ideal S128x128 .f32) (full : Vec Ideal S1x64x128x128 .f32) (c : Fin 64) (y x : Fin 128) :
    out w full (ix4 (0 : Fin 1) c y x) = (full (ix4 (0 : Fin 1) c y x) : EReal) * w (ix2 y x) := by
  unfold out
  refine (shapeCast_abc_1abc_apply _ _ 0 c y x).trans ?_
  refine (mulf_apply _ _ _).trans ?_
  rw [shapeCast_1abc_abc_apply]
  refine congrArg (_ * ·) ?_
  exact (broadcastTo_apply (asSlab w) _ (ix3 c y x) (ix3 (0 : Fin 1) y x) (fun a => match a with
    | ⟨0, _⟩ => rfl | ⟨1, _⟩ => rfl | ⟨2, _⟩ => rfl)).trans (asSlab_apply w 0 y x)

/-- The stored block at `(0, c, y, x)`. -/
theorem bodyValue_apply (l1 l2 : Fin 4 → Vec Ideal S1x16x128x128 .f32) (full : Vec Ideal S1x64x128x128 .f32)
    (c : Fin 64) (y x : Fin 128) :
    bodyValue l1 l2 full (ix4 (0 : Fin 1) c y x)
      = (full (ix4 (0 : Fin 1) c y x) : EReal) * ∑ dy : Fin 3, ∑ dx : Fin 3,
          if inside y dy ∧ inside x dx then
            Ideal.exp (negHalf * ((nrm l1 y x + nrm l2 (nb y dy) (nb x dx)) - two * crs l1 l2 dy dx y x))
          else 0 := by
  unfold bodyValue
  rw [out_apply, weightSum_apply]
  simp only [norms_apply, stacks_apply]

end Cert.KernelIdeal.BodyRead

end
-- ==== Proof.KernelLoads.lean ====
/-
  The stored block in terms of the two input blocks alone, at the extended reals.
  A load of sixteen channels starting at channel `o`, through a whole staging memref held at the block `X`, reads
  `X` at channel `o + j` (`load16_apply`); the four chunks start at channels 0, 16, 32 and 48, so the chunk-by-chunk
  double sums are single sums over the 64 channels (`sum_quarters`: a sum over 64 is the sum of its four quarters, in
  any additive commutative monoid). Hence `stored_apply`: the stored block at `(0, c, y, x)` is `blockAt`, the first
  block's entry times the sum over the nine taps of `exp(−½ · (Σ X0² + Σ X1'² − 2 · Σ X0 · X1'))` under `inside`.
-/
import proofs.«179273_j17781164605470_2_alg».proof.Proof.KernelWeights
import Idealize.ShloMosaic.Lib.WholeRead

set_option maxRecDepth 16384

noncomputable section

namespace Cert.KernelIdeal.BodyRead

open Cert.KernelIdeal Cert.KernelIdeal.Body Cert.GaussTaps Idealize.ShloMosaic Idealize.ShloMosaic.ValueIdx

/-! ## The loads -/

theorem load16_apply (arg : Memref sig .tc .vmem S1x64x128x128 .f32) (harg : arg.IsWhole) (X : Vec Ideal S1x64x128x128 .f32)
    (o : ℕ) (ho : o + 16 ≤ 64) (h : ∀ a, (![0, o, 0, 0] : Fin 4 → ℕ) a + S1x16x128x128.size a ≤ S1x64x128x128.size a)
    (j : Fin 16) (y x : Fin 128) :
    load16 arg harg X ![0, o, 0, 0] h (ix4 (0 : Fin 1) j y x) = X (ix4 (0 : Fin 1) ⟨o + j.val, by have := j.isLt; omega⟩ y x) := by
  unfold load16
  refine (harg.readAt_unread X _ _).trans ?_
  refine congrArg X (funext fun a => Fin.ext ?_)
  match a with
  | ⟨0, _⟩ => show 0 + 1 * (0 : ℕ) = 0; rfl
  | ⟨1, _⟩ => show o + 1 * j.val = o + j.val; omega
  | ⟨2, _⟩ => show 0 + 1 * y.val = y.val; omega
  | ⟨3, _⟩ => show 0 + 1 * x.val = x.val; omega

theorem loadAll_apply (arg : Memref sig .tc .vmem S1x64x128x128 .f32) (harg : arg.IsWhole) (X : Vec Ideal S1x64x128x128 .f32)
    (u : Fin 1) (ch : Fin 64) (y x : Fin 128) : loadAll arg harg X (ix4 u ch y x) = X (ix4 u ch y x) := by
  unfold loadAll
  refine (harg.readAt_unread X _ _).trans ?_
  refine congrArg X (funext fun a => Fin.ext ?_)
  match a with
  | ⟨0, _⟩ => show 0 + 1 * u.val = u.val; omega
  | ⟨1, _⟩ => show 0 + 1 * ch.val = ch.val; omega
  | ⟨2, _⟩ => show 0 + 1 * y.val = y.val; omega
  | ⟨3, _⟩ => show 0 + 1 * x.val = x.val; omega

/-! ## Four quarters of a sum over 64 -/

/-- A sum over 64 indices is the sum of its four quarters of 16. -/
theorem sum_quarters {M : Type*} [AddCommMonoid M] (g : Fin 64 → M) :
    (∑ j : Fin 16, g ⟨0 + j.val, by have := j.isLt; omega⟩) + (∑ j : Fin 16, g ⟨16 + j.val, by have := j.isLt; omega⟩) + (∑ j : Fin 16, g ⟨32 + j.val, by have := j.isLt; omega⟩)
      + (∑ j : Fin 16, g ⟨48 + j.val, by have := j.isLt; omega⟩) = ∑ c, g c := by
  let G : ℕ → M := fun n => if h : n < 64 then g ⟨n, h⟩ else 0
  have hG : ∀ (n : ℕ) (h : n < 64), g ⟨n, h⟩ = G n := fun n h => by simp only [G, dif_pos h]
  have e : ∀ (o : ℕ) (pf : ∀ j : Fin 16, o + j.val < 64),
      (∑ j : Fin 16, g ⟨o + j.val, pf j⟩) = ∑ n ∈ Finset.range 16, G (o + n) := by
    intro o pf
    rw [← Fin.sum_univ_eq_sum_range (fun n => G (o + n)) 16]
    exact Finset.sum_congr rfl fun j _ => hG _ _
  have e64 : ∑ c, g c = ∑ n ∈ Finset.range 64, G n := by
    rw [← Fin.sum_univ_eq_sum_range G 64]
    exact Finset.sum_congr rfl fun c _ => hG c.val c.isLt
  have h1 := Finset.sum_range_add G 48 16
  have h2 := Finset.sum_range_add G 32 16
  have h3 := Finset.sum_range_add G 16 16
  simp only [Nat.reduceAdd] at h1 h2 h3
  rw [e 0, e 16, e 32, e 48, e64, h1, h2, h3]
  simp only [Nat.zero_add]

/-! ## The double sums over chunk and channel are sums over the 64 channels -/

theorem nrm_loads (arg : Memref sig .tc .vmem S1x64x128x128 .f32) (harg : arg.IsWhole) (X : Vec Ideal S1x64x128x128 .f32)
    (y x : Fin 128) :
    nrm (loads arg harg X) y x = ∑ c : Fin 64, (X (ix4 (0 : Fin 1) c y x) : EReal) * (X (ix4 (0 : Fin 1) c y x) : EReal) := by
  unfold nrm
  rw [Fin.sum_univ_four]
  simp only [loads, load16_apply arg harg X 0 (by omega), load16_apply arg harg X 16 (by omega),
    load16_apply arg harg X 32 (by omega), load16_apply arg harg X 48 (by omega)]
  exact sum_quarters (fun c => (X (ix4 (0 : Fin 1) c y x) : EReal) * (X (ix4 (0 : Fin 1) c y x) : EReal))

theorem crs_loads (arg1 : Memref sig .tc .vmem S1x64x128x128 .f32) (harg1 : arg1.IsWhole)
    (arg2 : Memref sig .tc .vmem S1x64x128x128 .f32) (harg2 : arg2.IsWhole) (X0 X1 : Vec Ideal S1x64x128x128 .f32)
    (dy dx : Fin 3) (y x : Fin 128) :
    crs (loads arg1 harg1 X0) (loads arg2 harg2 X1) dy dx y x
      = ∑ c : Fin 64, (X0 (ix4 (0 : Fin 1) c y x) : EReal) * (X1 (ix4 (0 : Fin 1) c (nb y dy) (nb x dx)) : EReal) := by
  unfold crs tapSum
  rw [Fin.sum_univ_four]
  simp only [loads, load16_apply arg1 harg1 X0 0 (by omega), load16_apply arg1 harg1 X0 16 (by omega),
    load16_apply arg1 harg1 X0 32 (by omega), load16_apply arg1 harg1 X0 48 (by omega),
    load16_apply arg2 harg2 X1 0 (by omega), load16_apply arg2 harg2 X1 16 (by omega),
    load16_apply arg2 harg2 X1 32 (by omega), load16_apply arg2 harg2 X1 48 (by omega)]
  exact sum_quarters (fun c => (X0 (ix4 (0 : Fin 1) c y x) : EReal) * (X1 (ix4 (0 : Fin 1) c (nb y dy) (nb x dx)) : EReal))

/-! ## The stored block from the two input blocks -/

/-- The stored block's entry at channel `ch` and pixel `(y, x)`, from the two input blocks. -/
def blockAt (X0 X1 : Vec Ideal S1x64x128x128 .f32) (ch : Fin 64) (y x : Fin 128) : EReal :=
  (X0 (ix4 (0 : Fin 1) ch y x) : EReal) * ∑ dy : Fin 3, ∑ dx : Fin 3,
    if inside y dy ∧ inside x dx then
      Ideal.exp (negHalf * (((∑ c : Fin 64, (X0 (ix4 (0 : Fin 1) c y x) : EReal) * (X0 (ix4 (0 : Fin 1) c y x) : EReal))
          + ∑ c : Fin 64, (X1 (ix4 (0 : Fin 1) c (nb y dy) (nb x dx)) : EReal) * (X1 (ix4 (0 : Fin 1) c (nb y dy) (nb x dx)) : EReal))
        - two * ∑ c : Fin 64, (X0 (ix4 (0 : Fin 1) c y x) : EReal) * (X1 (ix4 (0 : Fin 1) c (nb y dy) (nb x dx)) : EReal)))
    else 0

theorem stored_apply (arg1 : Memref sig .tc .vmem S1x64x128x128 .f32) (harg1 : arg1.IsWhole)
    (arg2 : Memref sig .tc .vmem S1x64x128x128 .f32) (harg2 : arg2.IsWhole) (X0 X1 : Vec Ideal S1x64x128x128 .f32)
    (u : Fin 1) (ch : Fin 64) (y x : Fin 128) :
    bodyValue (loads arg1 harg1 X0) (loads arg2 harg2 X1) (loadAll arg1 harg1 X0) (ix4 u ch y x) = blockAt X0 X1 ch y x := by
  obtain rfl : u = 0 := Subsingleton.elim _ _
  rw [bodyValue_apply, loadAll_apply]
  simp only [nrm_loads, crs_loads]
  rfl

end Cert.KernelIdeal.BodyRead

end
-- ==== Proof.KernelArray.lean ====
/-
  From the kernel's blocks to its result array, at the extended reals.
  The grid has one point per image: point `t`'s blocks are image `t` of each array, whole (`idx_facts`, decided over
  the four points). So an input block's entry `(0, c, y, x)` is the argument's entry `(t, c, y, x)` (`iblk0_apply`,
  `iblk1_apply`), the stored block's entry is `kernAt` of the two arguments at image `t` (`blockAt_eq`), what point
  `t` writes back is image `t` of the whole-array function `kern` (`flushed_eq`), every index lies in the block of
  the point its image coordinate names (`cover`), and the run ends with the result array at `kern` of the
  arguments, the arguments unchanged (`run`).
-/
import proofs.«179273_j17781164605470_2_alg».proof.Proof.KernelLoads
import proofs.«179273_j17781164605470_2_alg».proof.Proof.Gen.KernelIdeal.Value
import Idealize.ShloMosaic.Lib.Pipeline.Value

set_option maxRecDepth 16384

noncomputable section

namespace Cert.KernelIdeal.ArrayValue

open Cert.KernelIdeal Cert.KernelIdeal.Gen Cert.KernelIdeal.Value Cert.KernelIdeal.Body Cert.KernelIdeal.BodyRead Cert.GaussTaps
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array in the expanded form: `kernAt` at every index. -/
def kern (A0 A1 : S4x64x128x128.Idx → EReal) : S4x64x128x128.Idx → EReal :=
  fun i => kernAt A0 A1 (i 0) (i 1) (i 2) (i 3)

/-- The image a grid point works on. -/
def img (t : Fin cfg0.N) : Fin 4 := ⟨t.val, t.isLt⟩

/-- Every window's block at point `t` is image `t`, whole. -/
theorem idx_facts : ∀ t : Fin cfg0.N, (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

theorem iblk0_apply (c : Dev nD) (t : Fin cfg0.N) (ch : Fin 64) (y x : Fin 128) :
    (iblk m c 0 t : Vec Ideal S1x64x128x128 .f32) (ix4 (0 : Fin 1) ch y x)
      = (V m c main_arg0 : S4x64x128x128.Idx → EReal) (ix4 (img t) ch y x) := by
  obtain ⟨e0, e1, e2, e3⟩ := (idx_facts t).1
  unfold iblk
  rw [View.read_apply]
  show V m c main_arg0 _ = V m c main_arg0 _
  congr 1
  funext a
  apply Fin.ext
  match a with
  | ⟨0, _⟩ => show win0_0.index t (0 : Fin 4) * 1 + 1 * (0 : ℕ) = t.val; omega
  | ⟨1, _⟩ => show win0_0.index t (1 : Fin 4) * 64 + 1 * ch.val = ch.val; omega
  | ⟨2, _⟩ => show win0_0.index t (2 : Fin 4) * 128 + 1 * y.val = y.val; omega
  | ⟨3, _⟩ => show win0_0.index t (3 : Fin 4) * 128 + 1 * x.val = x.val; omega

theorem iblk1_apply (c : Dev nD) (t : Fin cfg0.N) (ch : Fin 64) (y x : Fin 128) :
    (iblk m c 1 t : Vec Ideal S1x64x128x128 .f32) (ix4 (0 : Fin 1) ch y x)
      = (V m c main_arg1 : S4x64x128x128.Idx → EReal) (ix4 (img t) ch y x) := by
  obtain ⟨e0, e1, e2, e3⟩ := (idx_facts t).2.1
  unfold iblk
  rw [View.read_apply]
  show V m c main_arg1 _ = V m c main_arg1 _
  congr 1
  funext a
  apply Fin.ext
  match a with
  | ⟨0, _⟩ => show win0_1.index t (0 : Fin 4) * 1 + 1 * (0 : ℕ) = t.val; omega
  | ⟨1, _⟩ => show win0_1.index t (1 : Fin 4) * 64 + 1 * ch.val = ch.val; omega
  | ⟨2, _⟩ => show win0_1.index t (2 : Fin 4) * 128 + 1 * y.val = y.val; omega
  | ⟨3, _⟩ => show win0_1.index t (3 : Fin 4) * 128 + 1 * x.val = x.val; omega

/-- The stored block's entry is the expanded form at the point's image. -/
theorem blockAt_eq (c : Dev nD) (t : Fin cfg0.N) (ch : Fin 64) (y x : Fin 128) :
    blockAt (iblk m c 0 t) (iblk m c 1 t) ch y x
      = kernAt (V m c main_arg0 : S4x64x128x128.Idx → EReal) (V m c main_arg1 : S4x64x128x128.Idx → EReal) (img t) ch y x := by
  unfold blockAt kernAt wExpanded sqNorm cross
  simp only [iblk0_apply m, iblk1_apply m]

/-- What point `t` writes back is image `t` of `kern` of the argument arrays. -/
theorem flushed_eq (c : Dev nD) (t : Fin cfg0.N) :
    (dats m 0 c).flushed 2 t
      = ((cfg0.win 2).blk t).view.read (Elt Ideal) (kern (V m c main_arg0) (V m c main_arg1)) := by
  rw [flushed2_A, stored_eq]
  obtain ⟨e0, e1, e2, e3⟩ := (idx_facts t).2.2
  funext j
  have h0 : (j 0).val < 1 := (j 0).isLt
  have hj : ((cfg0.win 2).blk t).view.emb j = ix4 (img t) (j 1) (j 2) (j 3) := by
    funext a
    apply Fin.ext
    match a with
    | ⟨0, _⟩ => show win0_2.index t (0 : Fin 4) * 1 + 1 * (j 0).val = t.val; omega
    | ⟨1, _⟩ => show win0_2.index t (1 : Fin 4) * 64 + 1 * (j 1).val = (j 1).val; omega
    | ⟨2, _⟩ => show win0_2.index t (2 : Fin 4) * 128 + 1 * (j 2).val = (j 2).val; omega
    | ⟨3, _⟩ => show win0_2.index t (3 : Fin 4) * 128 + 1 * (j 3).val = (j 3).val; omega
  show bodyValue (F := Ideal) _ _ _ j = kern _ _ (((cfg0.win 2).blk t).view.emb j)
  rw [hj]
  show _ = kernAt _ _ (img t) (j 1) (j 2) (j 3)
  rw [← blockAt_eq m c t (j 1) (j 2) (j 3)]
  have hs := stored_apply (ms0_0 t) (hs0_0 t) (ms0_1 t) (hs0_1 t) (iblk m c 0 t) (iblk m c 1 t) (j 0) (j 1) (j 2) (j 3)
  refine Eq.trans ?_ hs
  exact congrArg (bodyValue (F := Ideal) _ _ _) (eq_ix4 (n0 := 1) (n1 := 64) (n2 := 128) (n3 := 128) j)

/-- Every index of the result array lies in the block of the point its image coordinate names. -/
theorem cover (i : S4x64x128x128.Idx) :
    ∃ t : Fin cfg0.N, (cfg0.win 2).flush t = true ∧ i ∈ ((cfg0.win 2).blk t).view.set := by
  have h0 : (i 0).val < 4 := (i 0).isLt
  have h1 : (i 1).val < 64 := (i 1).isLt
  have h2 : (i 2).val < 128 := (i 2).isLt
  have h3 : (i 3).val < 128 := (i 3).isLt
  obtain ⟨t, ht⟩ : ∃ t : Fin cfg0.N, t.val = (i 0).val := ⟨⟨(i 0).val, h0⟩, rfl⟩
  obtain ⟨e0, e1, e2, e3⟩ := (idx_facts t).2.2
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- The result array after the run is `kern` of the argument arrays. -/
theorem final (c : Dev nD) :
    (dats m 0 c).arrAt 2 cfg0.N = kern (m ((c : Thread nD τ).loc main_arg0)) (m ((c : Thread nD τ).loc main_arg1)) :=
  (dats m 0 c).arrAt_eq_of_cover 2 (kern (V m c main_arg0) (V m c main_arg1)) (fun t _ => flushed_eq m c t) cover

/-- The run, read: the result array at `kern` of the arguments, the arguments unchanged. -/
theorem run : θ_run defs (onTc (τ := τ) (main (F := Ideal))) ⟨m, fun _ => 0, ρ⟩ fun r => ∀ c : Dev nD,
      r.2.mem ((c : Thread nD τ).loc main_v0) = kern (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.RefStages.lean ====
/-
  The reference program's stages as pure functions of its two argument arrays, in the program's own operations,
  each named after what it holds:
  * `padded`: an array with a border of one zero pixel on each side of the two image axes (130 × 130);
  * `window ky kx`: the 128 × 128 window of the padded array starting at `(ky, kx)`; `cols`: the nine windows of
    the first argument stacked on a new axis (tap `3 ky + kx`); `centre`: the middle window of the second argument
    (the argument itself) repeated over the nine taps;
  * `distSq`: the squared difference summed over the channels; `gauss`: `exp(−½ · distSq)`; `sup`: `gauss · cols`;
  * `tapOf k`: tap `k` of `sup` as a 4 × 64 × 128 × 128 array; `startAt a b`: the two-entry start vector `[a, b]`;
    `addAt a b canvas upd`: `upd` added into the 130 × 130 canvas with its corner at `(a, b)` of the image axes;
  * `folded`: the nine taps added one after the other into a zero canvas, tap `3 ky + kx` at `(ky, kx)`;
    `refValue`: its middle 128 × 128 window, the program's result.
  The run (`RefRun`) ends with the result buffer at `refValue` of the arguments; `RefRead` reads `refValue` at an index.
-/
import proofs.«179273_j17781164605470_2_alg».proof.ReferenceIdeal
import proofs.«179273_j17781164605470_2_alg».proof.Proof.Gen.ReferenceIdeal

noncomputable section

namespace Cert.ReferenceIdeal.Stages

open Cert.ReferenceIdeal Idealize.ShloMosaic
open Cert.ReferenceIdeal.Facts₀ Cert.ReferenceIdeal.Facts

variable {F : FTy → Type} [FloatOps F]

/-- The padding value: the integer zero converted to a float. -/
def padVal : (⟨S_, .f32⟩ : BufTy).Contents (Elt F) := sitofp .f32 (constantI S_ 32 0#32)

/-- An argument with a one-pixel border of the padding value around the two image axes. -/
def padded (x : (⟨S4x64x128x128, .f32⟩ : BufTy).Contents (Elt F)) : (⟨S4x64x130x130, .f32⟩ : BufTy).Contents (Elt F) :=
  pad S4x64x130x130 ![0, 0, 1, 1] ![0, 0, 1, 1] ![0, 0, 0, 0] x (padVal (F := F)) pads_S4x64x128x128_S4x64x130x130_000_000_110_110 h_S_

/-- A 128 × 128 window of a canvas, starting at `off`. -/
def window (off : Fin 4 → Nat) (h : S4x64x130x130.Slices off S4x64x128x128)
    (y : (⟨S4x64x130x130, .f32⟩ : BufTy).Contents (Elt F)) : (⟨S4x64x128x128, .f32⟩ : BufTy).Contents (Elt F) :=
  extractStridedSlice S4x64x128x128 off y h

/-- An array given a unit tap axis in third place. -/
def withTapAxis (y : (⟨S4x64x128x128, .f32⟩ : BufTy).Contents (Elt F)) : (⟨S4x64x1x128x128, .f32⟩ : BufTy).Contents (Elt F) :=
  broadcastInDim S4x64x1x128x128 ![0, 1, 3, 4] bcast_S4x64x128x128_S4x64x1x128x128_0_1_3_4 y

/-- The nine windows of the padded first argument, stacked along the tap axis: tap `3 ky + kx` starts at `(ky, kx)`. -/
def cols (x0 : (⟨S4x64x128x128, .f32⟩ : BufTy).Contents (Elt F)) : (⟨S4x64x9x128x128, .f32⟩ : BufTy).Contents (Elt F) :=
  concatenate S4x64x9x128x128 2
    [⟨S4x64x1x128x128, withTapAxis (window ![0, 0, 0, 0] slices_S4x64x130x130_S4x64x128x128_0_0_0_0 (padded x0))⟩,
     ⟨S4x64x1x128x128, withTapAxis (window ![0, 0, 0, 1] slices_S4x64x130x130_S4x64x128x128_0_0_0_1 (padded x0))⟩,
     ⟨S4x64x1x128x128, withTapAxis (window ![0, 0, 0, 2] slices_S4x64x130x130_S4x64x128x128_0_0_0_2 (padded x0))⟩,
     ⟨S4x64x1x128x128, withTapAxis (window ![0, 0, 1, 0] slices_S4x64x130x130_S4x64x128x128_0_0_1_0 (padded x0))⟩,
     ⟨S4x64x1x128x128, withTapAxis (window ![0, 0, 1, 1] slices_S4x64x130x130_S4x64x128x128_0_0_1_1 (padded x0))⟩,
     ⟨S4x64x1x128x128, withTapAxis (window ![0, 0, 1, 2] slices_S4x64x130x130_S4x64x128x128_0_0_1_2 (padded x0))⟩,
     ⟨S4x64x1x128x128, withTapAxis (window ![0, 0, 2, 0] slices_S4x64x130x130_S4x64x128x128_0_0_2_0 (padded x0))⟩,
     ⟨S4x64x1x128x128, withTapAxis (window ![0, 0, 2, 1] slices_S4x64x130x130_S4x64x128x128_0_0_2_1 (padded x0))⟩,
     ⟨S4x64x1x128x128, withTapAxis (window ![0, 0, 2, 2] slices_S4x64x130x130_S4x64x128x128_0_0_2_2 (padded x0))⟩]
    concatenates_S4x64x1x128x128_S4x64x1x128x128_S4x64x1x128x128_S4x64x1x128x128_S4x64x1x128x128_S4x64x1x128x128_S4x64x1x128x128_S4x64x1x128x128_S4x64x1x128x128_S4x64x9x128x128_d2

/-- The middle window of the padded second argument, the same on every tap. -/
def centre (x1 : (⟨S4x64x128x128, .f32⟩ : BufTy).Contents (Elt F)) : (⟨S4x64x9x128x128, .f32⟩ : BufTy).Contents (Elt F) :=
  broadcastInDim S4x64x9x128x128 ![0, 1, 2, 3, 4] bcast_S4x64x1x128x128_S4x64x9x128x128_0_1_2_3_4
    (withTapAxis (window ![0, 0, 1, 1] slices_S4x64x130x130_S4x64x128x128_0_0_1_1 (padded x1)))

/-- The difference of the stacked windows and the centre. -/
def diff (x0 x1 : (⟨S4x64x128x128, .f32⟩ : BufTy).Contents (Elt F)) : (⟨S4x64x9x128x128, .f32⟩ : BufTy).Contents (Elt F) :=
  subf (cols x0) (centre x1)

/-- The squared difference summed over the channels, from a zero start. -/
def distSq (x0 x1 : (⟨S4x64x128x128, .f32⟩ : BufTy).Contents (Elt F)) : (⟨S4x9x128x128, .f32⟩ : BufTy).Contents (Elt F) :=
  Host.reduceAdd (mulf (diff x0 x1) (diff x0 x1)) (constant S_ .f32 0x00000000#32) reducesTo_S4x64x9x128x128_S4x9x128x128_d1 h_S_

/-- `exp(−½ · distSq)`, with a unit channel axis. -/
def gauss (x0 x1 : (⟨S4x64x128x128, .f32⟩ : BufTy).Contents (Elt F)) : (⟨S4x1x9x128x128, .f32⟩ : BufTy).Contents (Elt F) :=
  Host.exp (mulf (broadcastInDim S4x1x9x128x128 ![] bcast_S_S4x1x9x128x128 (constant S_ .f32 0xBF000000#32))
    (broadcastInDim S4x1x9x128x128 ![0, 2, 3, 4] bcast_S4x9x128x128_S4x1x9x128x128_0_2_3_4 (distSq x0 x1)))

/-- The weight times the stacked windows. -/
def sup (x0 x1 : (⟨S4x64x128x128, .f32⟩ : BufTy).Contents (Elt F)) : (⟨S4x64x9x128x128, .f32⟩ : BufTy).Contents (Elt F) :=
  mulf (broadcastInDim S4x64x9x128x128 ![0, 1, 2, 3, 4] bcast_S4x1x9x128x128_S4x64x9x128x128_0_1_2_3_4 (gauss x0 x1)) (cols x0)

/-- One tap of a stack, as an array without the tap axis. -/
def tapOf (off : Fin 5 → Nat) (h : S4x64x9x128x128.Slices off S4x64x1x128x128)
    (s : (⟨S4x64x9x128x128, .f32⟩ : BufTy).Contents (Elt F)) : (⟨S4x64x128x128, .f32⟩ : BufTy).Contents (Elt F) :=
  shapeCast _ (extractStridedSlice S4x64x1x128x128 off s h) shapeCasts_S4x64x1x128x128_S4x64x128x128

/-- The start vector `[a, b]` of an addition into the canvas. -/
def startAt (a b : BitVec 32) : (⟨S2, .i32⟩ : BufTy).Contents (Elt F) :=
  concatenate S2 0 [⟨S1, broadcastInDim S1 ![] bcast_S_S1 (constantI S_ 32 a)⟩, ⟨S1, broadcastInDim S1 ![] bcast_S_S1 (constantI S_ 32 b)⟩]
    concatenates_S1_S1_S2_d0

/-- `upd` added into the canvas, its corner at `(a, b)` of the two image axes. -/
def addAt (a b : BitVec 32) (canvas : (⟨S4x64x130x130, .f32⟩ : BufTy).Contents (Elt F))
    (upd : (⟨S4x64x128x128, .f32⟩ : BufTy).Contents (Elt F)) : (⟨S4x64x130x130, .f32⟩ : BufTy).Contents (Elt F) :=
  Host.scatter scatter_S4x64x130x130_S2_S4x64x128x128_0123_n_23_0 FloatOps.addf canvas (startAt (F := F) a b) upd

/-- The zero canvas. -/
def canvas0 : (⟨S4x64x130x130, .f32⟩ : BufTy).Contents (Elt F) :=
  broadcastInDim S4x64x130x130 ![] bcast_S_S4x64x130x130 (constant S_ .f32 0x00000000#32)

/-- The nine taps added one after the other into the zero canvas, tap `3 ky + kx` with its corner at `(ky, kx)`. -/
def folded (x0 x1 : (⟨S4x64x128x128, .f32⟩ : BufTy).Contents (Elt F)) : (⟨S4x64x130x130, .f32⟩ : BufTy).Contents (Elt F) :=
  addAt 2#32 2#32 (addAt 2#32 1#32 (addAt 2#32 0#32 (addAt 1#32 2#32 (addAt 1#32 1#32 (addAt 1#32 0#32 (addAt 0#32 2#32 (addAt 0#32 1#32 (addAt 0#32 0#32 canvas0
    (tapOf ![0, 0, 0, 0, 0] slices_S4x64x9x128x128_S4x64x1x128x128_0_0_0_0_0 (sup x0 x1)))
    (tapOf ![0, 0, 1, 0, 0] slices_S4x64x9x128x128_S4x64x1x128x128_0_0_1_0_0 (sup x0 x1)))
    (tapOf ![0, 0, 2, 0, 0] slices_S4x64x9x128x128_S4x64x1x128x128_0_0_2_0_0 (sup x0 x1)))
    (tapOf ![0, 0, 3, 0, 0] slices_S4x64x9x128x128_S4x64x1x128x128_0_0_3_0_0 (sup x0 x1)))
    (tapOf ![0, 0, 4, 0, 0] slices_S4x64x9x128x128_S4x64x1x128x128_0_0_4_0_0 (sup x0 x1)))
    (tapOf ![0, 0, 5, 0, 0] slices_S4x64x9x128x128_S4x64x1x128x128_0_0_5_0_0 (sup x0 x1)))
    (tapOf ![0, 0, 6, 0, 0] slices_S4x64x9x128x128_S4x64x1x128x128_0_0_6_0_0 (sup x0 x1)))
    (tapOf ![0, 0, 7, 0, 0] slices_S4x64x9x128x128_S4x64x1x128x128_0_0_7_0_0 (sup x0 x1)))
    (tapOf ![0, 0, 8, 0, 0] slices_S4x64x9x128x128_S4x64x1x128x128_0_0_8_0_0 (sup x0 x1))

/-- The program's result: the middle window of the folded canvas. -/
def refValue (x0 x1 : (⟨S4x64x128x128, .f32⟩ : BufTy).Contents (Elt F)) : (⟨S4x64x128x128, .f32⟩ : BufTy).Contents (Elt F) :=
  window ![0, 0, 1, 1] slices_S4x64x130x130_S4x64x128x128_0_0_1_1 (folded x0 x1)

end Cert.ReferenceIdeal.Stages

end
-- ==== Proof.RefRun.lean ====
/-
  The reference program's run. Its 114 host operations are listed in order (the two calls of the padding
  function stand inlined at their call sites); the program is the sequence of that list, so every weakly fair
  execution terminates with each buffer at the fold of the operations' results over the launch contents.
  Read at the result buffer, that fold is the composition of the operations' functions over the two argument
  arrays, which is the value the stages name: the padded arrays, the nine stacked windows, the centre, the
  squared distance summed over the channels, the Gaussian weight, the weighted windows, the nine taps added
  into the zero canvas one after the other, and the middle window of that canvas.
-/
import proofs.«179273_j17781164605470_2_alg».proof.Proof.Gen.ReferenceIdeal
import proofs.«179273_j17781164605470_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 114 operations, in order; the operations of the padding function stand in place of each of
    its two calls, over that call's own buffers. -/
abbrev ops : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x64x128x128, .f32⟩) main_arg0) (TRef.of (T := ⟨S_, .f32⟩) main_call0_v0) (TRef.of (T := ⟨S4x64x130x130, .f32⟩) main_v0) (fun x v => pad S4x64x130x130 ![0, 0, 1, 1] ![0, 0, 1, 1] ![0, 0, 0, 0] x v pads_S4x64x128x128_S4x64x130x130_000_000_110_110 h_S_),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S4x64x128x128, .f32⟩) main_arg1) (TRef.of (T := ⟨S_, .f32⟩) main_call1_v0) (TRef.of (T := ⟨S4x64x130x130, .f32⟩) main_v1) (fun x v => pad S4x64x130x130 ![0, 0, 1, 1] ![0, 0, 1, 1] ![0, 0, 0, 0] x v pads_S4x64x128x128_S4x64x130x130_000_000_110_110 h_S_),
    unary main_v0 main_v2 ((extractStridedSlice S4x64x128x128 ![0, 0, 0, 0] · slices_S4x64x130x130_S4x64x128x128_0_0_0_0) : (⟨S4x64x130x130, .f32⟩ : BufTy).Contents (Elt F) → (⟨S4x64x128x128, .f32⟩ : BufTy).Contents (Elt F)),
    unary main_v0 main_v3 ((extractStridedSlice S4x64x128x128 ![0, 0, 0, 1] · slices_S4x64x130x130_S4x64x128x128_0_0_0_1) : (⟨S4x64x130x130, .f32⟩ : BufTy).Contents (Elt F) → (⟨S4x64x128x128, .f32⟩ : BufTy).Contents (Elt F)),
    unary main_v0 main_v4 ((extractStridedSlice S4x64x128x128 ![0, 0, 0, 2] · slices_S4x64x130x130_S4x64x128x128_0_0_0_2) : (⟨S4x64x130x130, .f32⟩ : BufTy).Contents (Elt F) → (⟨S4x64x128x128, .f32⟩ : BufTy).Contents (Elt F)),
    unary main_v0 main_v5 ((extractStridedSlice S4x64x128x128 ![0, 0, 1, 0] · slices_S4x64x130x130_S4x64x128x128_0_0_1_0) : (⟨S4x64x130x130, .f32⟩ : BufTy).Contents (Elt F) → (⟨S4x64x128x128, .f32⟩ : BufTy).Contents (Elt F)),
    unary main_v0 main_v6 ((extractStridedSlice S4x64x128x128 ![0, 0, 1, 1] · slices_S4x64x130x130_S4x64x128x128_0_0_1_1) : (⟨S4x64x130x130, .f32⟩ : BufTy).Contents (Elt F) → (⟨S4x64x128x128, .f32⟩ : BufTy).Contents (Elt F)),
    unary main_v0 main_v7 ((extractStridedSlice S4x64x128x128 ![0, 0, 1, 2] · slices_S4x64x130x130_S4x64x128x128_0_0_1_2) : (⟨S4x64x130x130, .f32⟩ : BufTy).Contents (Elt F) → (⟨S4x64x128x128, .f32⟩ : BufTy).Contents (Elt F)),
    unary main_v0 main_v8 ((extractStridedSlice S4x64x128x128 ![0, 0, 2, 0] · slices_S4x64x130x130_S4x64x128x128_0_0_2_0) : (⟨S4x64x130x130, .f32⟩ : BufTy).Contents (Elt F) → (⟨S4x64x128x128, .f32⟩ : BufTy).Contents (Elt F)),
    unary main_v0 main_v9 ((extractStridedSlice S4x64x128x128 ![0, 0, 2, 1] · slices_S4x64x130x130_S4x64x128x128_0_0_2_1) : (⟨S4x64x130x130, .f32⟩ : BufTy).Contents (Elt F) → (⟨S4x64x128x128, .f32⟩ : BufTy).Contents (Elt F)),
    unary main_v0 main_v10 ((extractStridedSlice S4x64x128x128 ![0, 0, 2, 2] · slices_S4x64x130x130_S4x64x128x128_0_0_2_2) : (⟨S4x64x130x130, .f32⟩ : BufTy).Contents (Elt F) → (⟨S4x64x128x128, .f32⟩ : BufTy).Contents (Elt F)),
    unary main_v2 main_v11 (broadcastInDim S4x64x1x128x128 ![0, 1, 3, 4] bcast_S4x64x128x128_S4x64x1x128x128_0_1_3_4 : (⟨S4x64x128x128, .f32⟩ : BufTy).Contents (Elt F) → (⟨S4x64x1x128x128, .f32⟩ : BufTy).Contents (Elt F)),
    unary main_v3 main_v12 (broadcastInDim S4x64x1x128x128 ![0, 1, 3, 4] bcast_S4x64x128x128_S4x64x1x128x128_0_1_3_4 : (⟨S4x64x128x128, .f32⟩ : BufTy).Contents (Elt F) → (⟨S4x64x1x128x128, .f32⟩ : BufTy).Contents (Elt F)),
    unary main_v4 main_v13 (broadcastInDim S4x64x1x128x128 ![0, 1, 3, 4] bcast_S4x64x128x128_S4x64x1x128x128_0_1_3_4 : (⟨S4x64x128x128, .f32⟩ : BufTy).Contents (Elt F) → (⟨S4x64x1x128x128, .f32⟩ : BufTy).Contents (Elt F)),
    unary main_v5 main_v14 (broadcastInDim S4x64x1x128x128 ![0, 1, 3, 4] bcast_S4x64x128x128_S4x64x1x128x128_0_1_3_4 : (⟨S4x64x128x128, .f32⟩ : BufTy).Contents (Elt F) → (⟨S4x64x1x128x128, .f32⟩ : BufTy).Contents (Elt F)),
    unary main_v6 main_v15 (broadcastInDim S4x64x1x128x128 ![0, 1, 3, 4] bcast_S4x64x128x128_S4x64x1x128x128_0_1_3_4 : (⟨S4x64x128x128, .f32⟩ : BufTy).Contents (Elt F) → (⟨S4x64x1x128x128, .f32⟩ : BufTy).Contents (Elt F)),
    unary main_v7 main_v16 (broadcastInDim S4x64x1x128x128 ![0, 1, 3, 4] bcast_S4x64x128x128_S4x64x1x128x128_0_1_3_4 : (⟨S4x64x128x128, .f32⟩ : BufTy).Contents (Elt F) → (⟨S4x64x1x128x128, .f32⟩ : BufTy).Contents (Elt F)),
    unary main_v8 main_v17 (broadcastInDim S4x64x1x128x128 ![0, 1, 3, 4] bcast_S4x64x128x128_S4x64x1x128x128_0_1_3_4 : (⟨S4x64x128x128, .f32⟩ : BufTy).Contents (Elt F) → (⟨S4x64x1x128x128, .f32⟩ : BufTy).Contents (Elt F)),
    unary main_v9 main_v18 (broadcastInDim S4x64x1x128x128 ![0, 1, 3, 4] bcast_S4x64x128x128_S4x64x1x128x128_0_1_3_4 : (⟨S4x64x128x128, .f32⟩ : BufTy).Contents (Elt F) → (⟨S4x64x1x128x128, .f32⟩ : BufTy).Contents (Elt F)),
    unary main_v10 main_v19 (broadcastInDim S4x64x1x128x128 ![0, 1, 3, 4] bcast_S4x64x128x128_S4x64x1x128x128_0_1_3_4 : (⟨S4x64x128x128, .f32⟩ : BufTy).Contents (Elt F) → (⟨S4x64x1x128x128, .f32⟩ : BufTy).Contents (Elt F)),
    nary ![main_v11, main_v12, main_v13, main_v14, main_v15, main_v16, main_v17, main_v18, main_v19] main_v20 (fun u => concatenate S4x64x9x128x128 2 [⟨S4x64x1x128x128, u 0⟩, ⟨S4x64x1x128x128, u 1⟩, ⟨S4x64x1x128x128, u 2⟩, ⟨S4x64x1x128x128, u 3⟩, ⟨S4x64x1x128x128, u 4⟩, ⟨S4x64x1x128x128, u 5⟩, ⟨S4x64x1x128x128, u 6⟩, ⟨S4x64x1x128x128, u 7⟩, ⟨S4x64x1x128x128, u 8⟩] concatenates_S4x64x1x128x128_S4x64x1x128x128_S4x64x1x128x128_S4x64x1x128x128_S4x64x1x128x128_S4x64x1x128x128_S4x64x1x128x128_S4x64x1x128x128_S4x64x1x128x128_S4x64x9x128x128_d2),
    unary main_v1 main_v21 ((extractStridedSlice S4x64x128x128 ![0, 0, 1, 1] · slices_S4x64x130x130_S4x64x128x128_0_0_1_1) : (⟨S4x64x130x130, .f32⟩ : BufTy).Contents (Elt F) → (⟨S4x64x128x128, .f32⟩ : BufTy).Contents (Elt F)),
    unary main_v21 main_v22 (broadcastInDim S4x64x1x128x128 ![0, 1, 3, 4] bcast_S4x64x128x128_S4x64x1x128x128_0_1_3_4 : (⟨S4x64x128x128, .f32⟩ : BufTy).Contents (Elt F) → (⟨S4x64x1x128x128, .f32⟩ : BufTy).Contents (Elt F)),
    unary main_v22 main_v23 (broadcastInDim S4x64x9x128x128 ![0, 1, 2, 3, 4] bcast_S4x64x1x128x128_S4x64x9x128x128_0_1_2_3_4 : (⟨S4x64x1x128x128, .f32⟩ : BufTy).Contents (Elt F) → (⟨S4x64x9x128x128, .f32⟩ : BufTy).Contents (Elt F)),
    binary main_v20 main_v23 main_v24 (subf : (⟨S4x64x9x128x128, .f32⟩ : BufTy).Contents (Elt F) → (⟨S4x64x9x128x128, .f32⟩ : BufTy).Contents (Elt F) → (⟨S4x64x9x128x128, .f32⟩ : BufTy).Contents (Elt F)),
    binary main_v24 main_v24 main_v25 (mulf : (⟨S4x64x9x128x128, .f32⟩ : BufTy).Contents (Elt F) → (⟨S4x64x9x128x128, .f32⟩ : BufTy).Contents (Elt F) → (⟨S4x64x9x128x128, .f32⟩ : BufTy).Contents (Elt F)),
    nullary main_cst (constant S_ .f32 0x00000000#32),
    binary main_v25 main_cst main_v26 ((fun x v => Host.reduceAdd x v reducesTo_S4x64x9x128x128_S4x9x128x128_d1 h_S_) : (⟨S4x64x9x128x128, .f32⟩ : BufTy).Contents (Elt F) → (⟨S_, .f32⟩ : BufTy).Contents (Elt F) → (⟨S4x9x128x128, .f32⟩ : BufTy).Contents (Elt F)),
    unary main_v26 main_v27 (broadcastInDim S4x1x9x128x128 ![0, 2, 3, 4] bcast_S4x9x128x128_S4x1x9x128x128_0_2_3_4 : (⟨S4x9x128x128, .f32⟩ : BufTy).Contents (Elt F) → (⟨S4x1x9x128x128, .f32⟩ : BufTy).Contents (Elt F)),
    nullary main_cst_1 (constant S_ .f32 0xBF000000#32),
    unary main_cst_1 main_v28 (broadcastInDim S4x1x9x128x128 ![] bcast_S_S4x1x9x128x128 : (⟨S_, .f32⟩ : BufTy).Contents (Elt F) → (⟨S4x1x9x128x128, .f32⟩ : BufTy).Contents (Elt F)),
    binary main_v28 main_v27 main_v29 (mulf : (⟨S4x1x9x128x128, .f32⟩ : BufTy).Contents (Elt F) → (⟨S4x1x9x128x128, .f32⟩ : BufTy).Contents (Elt F) → (⟨S4x1x9x128x128, .f32⟩ : BufTy).Contents (Elt F)),
    unary main_v29 main_v30 (Host.exp : (⟨S4x1x9x128x128, .f32⟩ : BufTy).Contents (Elt F) → (⟨S4x1x9x128x128, .f32⟩ : BufTy).Contents (Elt F)),
    unary main_v30 main_v31 (broadcastInDim S4x64x9x128x128 ![0, 1, 2, 3, 4] bcast_S4x1x9x128x128_S4x64x9x128x128_0_1_2_3_4 : (⟨S4x1x9x128x128, .f32⟩ : BufTy).Contents (Elt F) → (⟨S4x64x9x128x128, .f32⟩ : BufTy).Contents (Elt F)),
    binary main_v31 main_v20 main_v32 (mulf : (⟨S4x64x9x128x128, .f32⟩ : BufTy).Contents (Elt F) → (⟨S4x64x9x128x128, .f32⟩ : BufTy).Contents (Elt F) → (⟨S4x64x9x128x128, .f32⟩ : BufTy).Contents (Elt F)),
    nullary main_cst_2 (constant S_ .f32 0x00000000#32),
    unary main_cst_2 main_v33 (broadcastInDim S4x64x130x130 ![] bcast_S_S4x64x130x130 : (⟨S_, .f32⟩ : BufTy).Contents (Elt F) → (⟨S4x64x130x130, .f32⟩ : BufTy).Contents (Elt F)),
    unary main_v32 main_v34 ((extractStridedSlice S4x64x1x128x128 ![0, 0, 0, 0, 0] · slices_S4x64x9x128x128_S4x64x1x128x128_0_0_0_0_0) : (⟨S4x64x9x128x128, .f32⟩ : BufTy).Contents (Elt F) → (⟨S4x64x1x128x128, .f32⟩ : BufTy).Contents (Elt F)),
    reshape main_v34 main_v35 rfl shapeCasts_S4x64x1x128x128_S4x64x128x128,
    nullary main_c_3 (constantI S_ 32 0#32),
    unary main_c_3 main_v36 (broadcastInDim S1 ![] bcast_S_S1 : (⟨S_, .i32⟩ : BufTy).Contents (Elt F) → (⟨S1, .i32⟩ : BufTy).Contents (Elt F)),
    nullary main_c_4 (constantI S_ 32 0#32),
    unary main_c_4 main_v37 (broadcastInDim S1 ![] bcast_S_S1 : (⟨S_, .i32⟩ : BufTy).Contents (Elt F) → (⟨S1, .i32⟩ : BufTy).Contents (Elt F)),
    binary main_v36 main_v37 main_v38 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v33 main_v38 main_v35 main_v39 ((fun x i u => Host.scatter scatter_S4x64x130x130_S2_S4x64x128x128_0123_n_23_0 FloatOps.addf x i u) : (⟨S4x64x130x130, .f32⟩ : BufTy).Contents (Elt F) → (⟨S2, .i32⟩ : BufTy).Contents (Elt F) → (⟨S4x64x128x128, .f32⟩ : BufTy).Contents (Elt F) → (⟨S4x64x130x130, .f32⟩ : BufTy).Contents (Elt F)),
    unary main_v32 main_v40 ((extractStridedSlice S4x64x1x128x128 ![0, 0, 1, 0, 0] · slices_S4x64x9x128x128_S4x64x1x128x128_0_0_1_0_0) : (⟨S4x64x9x128x128, .f32⟩ : BufTy).Contents (Elt F) → (⟨S4x64x1x128x128, .f32⟩ : BufTy).Contents (Elt F)),
    reshape main_v40 main_v41 rfl shapeCasts_S4x64x1x128x128_S4x64x128x128,
    nullary main_c_5 (constantI S_ 32 0#32),
    unary main_c_5 main_v42 (broadcastInDim S1 ![] bcast_S_S1 : (⟨S_, .i32⟩ : BufTy).Contents (Elt F) → (⟨S1, .i32⟩ : BufTy).Contents (Elt F)),
    nullary main_c_6 (constantI S_ 32 1#32),
    unary main_c_6 main_v43 (broadcastInDim S1 ![] bcast_S_S1 : (⟨S_, .i32⟩ : BufTy).Contents (Elt F) → (⟨S1, .i32⟩ : BufTy).Contents (Elt F)),
    binary main_v42 main_v43 main_v44 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v39 main_v44 main_v41 main_v45 ((fun x i u => Host.scatter scatter_S4x64x130x130_S2_S4x64x128x128_0123_n_23_0 FloatOps.addf x i u) : (⟨S4x64x130x130, .f32⟩ : BufTy).Contents (Elt F) → (⟨S2, .i32⟩ : BufTy).Contents (Elt F) → (⟨S4x64x128x128, .f32⟩ : BufTy).Contents (Elt F) → (⟨S4x64x130x130, .f32⟩ : BufTy).Contents (Elt F)),
    unary main_v32 main_v46 ((extractStridedSlice S4x64x1x128x128 ![0, 0, 2, 0, 0] · slices_S4x64x9x128x128_S4x64x1x128x128_0_0_2_0_0) : (⟨S4x64x9x128x128, .f32⟩ : BufTy).Contents (Elt F) → (⟨S4x64x1x128x128, .f32⟩ : BufTy).Contents (Elt F)),
    reshape main_v46 main_v47 rfl shapeCasts_S4x64x1x128x128_S4x64x128x128,
    nullary main_c_7 (constantI S_ 32 0#32),
    unary main_c_7 main_v48 (broadcastInDim S1 ![] bcast_S_S1 : (⟨S_, .i32⟩ : BufTy).Contents (Elt F) → (⟨S1, .i32⟩ : BufTy).Contents (Elt F)),
    nullary main_c_8 (constantI S_ 32 2#32),
    unary main_c_8 main_v49 (broadcastInDim S1 ![] bcast_S_S1 : (⟨S_, .i32⟩ : BufTy).Contents (Elt F) → (⟨S1, .i32⟩ : BufTy).Contents (Elt F)),
    binary main_v48 main_v49 main_v50 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v45 main_v50 main_v47 main_v51 ((fun x i u => Host.scatter scatter_S4x64x130x130_S2_S4x64x128x128_0123_n_23_0 FloatOps.addf x i u) : (⟨S4x64x130x130, .f32⟩ : BufTy).Contents (Elt F) → (⟨S2, .i32⟩ : BufTy).Contents (Elt F) → (⟨S4x64x128x128, .f32⟩ : BufTy).Contents (Elt F) → (⟨S4x64x130x130, .f32⟩ : BufTy).Contents (Elt F)),
    unary main_v32 main_v52 ((extractStridedSlice S4x64x1x128x128 ![0, 0, 3, 0, 0] · slices_S4x64x9x128x128_S4x64x1x128x128_0_0_3_0_0) : (⟨S4x64x9x128x128, .f32⟩ : BufTy).Contents (Elt F) → (⟨S4x64x1x128x128, .f32⟩ : BufTy).Contents (Elt F)),
    reshape main_v52 main_v53 rfl shapeCasts_S4x64x1x128x128_S4x64x128x128,
    nullary main_c_9 (constantI S_ 32 1#32),
    unary main_c_9 main_v54 (broadcastInDim S1 ![] bcast_S_S1 : (⟨S_, .i32⟩ : BufTy).Contents (Elt F) → (⟨S1, .i32⟩ : BufTy).Contents (Elt F)),
    nullary main_c_10 (constantI S_ 32 0#32),
    unary main_c_10 main_v55 (broadcastInDim S1 ![] bcast_S_S1 : (⟨S_, .i32⟩ : BufTy).Contents (Elt F) → (⟨S1, .i32⟩ : BufTy).Contents (Elt F)),
    binary main_v54 main_v55 main_v56 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v51 main_v56 main_v53 main_v57 ((fun x i u => Host.scatter scatter_S4x64x130x130_S2_S4x64x128x128_0123_n_23_0 FloatOps.addf x i u) : (⟨S4x64x130x130, .f32⟩ : BufTy).Contents (Elt F) → (⟨S2, .i32⟩ : BufTy).Contents (Elt F) → (⟨S4x64x128x128, .f32⟩ : BufTy).Contents (Elt F) → (⟨S4x64x130x130, .f32⟩ : BufTy).Contents (Elt F)),
    unary main_v32 main_v58 ((extractStridedSlice S4x64x1x128x128 ![0, 0, 4, 0, 0] · slices_S4x64x9x128x128_S4x64x1x128x128_0_0_4_0_0) : (⟨S4x64x9x128x128, .f32⟩ : BufTy).Contents (Elt F) → (⟨S4x64x1x128x128, .f32⟩ : BufTy).Contents (Elt F)),
    reshape main_v58 main_v59 rfl shapeCasts_S4x64x1x128x128_S4x64x128x128,
    nullary main_c_11 (constantI S_ 32 1#32),
    unary main_c_11 main_v60 (broadcastInDim S1 ![] bcast_S_S1 : (⟨S_, .i32⟩ : BufTy).Contents (Elt F) → (⟨S1, .i32⟩ : BufTy).Contents (Elt F)),
    nullary main_c_12 (constantI S_ 32 1#32),
    unary main_c_12 main_v61 (broadcastInDim S1 ![] bcast_S_S1 : (⟨S_, .i32⟩ : BufTy).Contents (Elt F) → (⟨S1, .i32⟩ : BufTy).Contents (Elt F)),
    binary main_v60 main_v61 main_v62 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v57 main_v62 main_v59 main_v63 ((fun x i u => Host.scatter scatter_S4x64x130x130_S2_S4x64x128x128_0123_n_23_0 FloatOps.addf x i u) : (⟨S4x64x130x130, .f32⟩ : BufTy).Contents (Elt F) → (⟨S2, .i32⟩ : BufTy).Contents (Elt F) → (⟨S4x64x128x128, .f32⟩ : BufTy).Contents (Elt F) → (⟨S4x64x130x130, .f32⟩ : BufTy).Contents (Elt F)),
    unary main_v32 main_v64 ((extractStridedSlice S4x64x1x128x128 ![0, 0, 5, 0, 0] · slices_S4x64x9x128x128_S4x64x1x128x128_0_0_5_0_0) : (⟨S4x64x9x128x128, .f32⟩ : BufTy).Contents (Elt F) → (⟨S4x64x1x128x128, .f32⟩ : BufTy).Contents (Elt F)),
    reshape main_v64 main_v65 rfl shapeCasts_S4x64x1x128x128_S4x64x128x128,
    nullary main_c_13 (constantI S_ 32 1#32),
    unary main_c_13 main_v66 (broadcastInDim S1 ![] bcast_S_S1 : (⟨S_, .i32⟩ : BufTy).Contents (Elt F) → (⟨S1, .i32⟩ : BufTy).Contents (Elt F)),
    nullary main_c_14 (constantI S_ 32 2#32),
    unary main_c_14 main_v67 (broadcastInDim S1 ![] bcast_S_S1 : (⟨S_, .i32⟩ : BufTy).Contents (Elt F) → (⟨S1, .i32⟩ : BufTy).Contents (Elt F)),
    binary main_v66 main_v67 main_v68 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v63 main_v68 main_v65 main_v69 ((fun x i u => Host.scatter scatter_S4x64x130x130_S2_S4x64x128x128_0123_n_23_0 FloatOps.addf x i u) : (⟨S4x64x130x130, .f32⟩ : BufTy).Contents (Elt F) → (⟨S2, .i32⟩ : BufTy).Contents (Elt F) → (⟨S4x64x128x128, .f32⟩ : BufTy).Contents (Elt F) → (⟨S4x64x130x130, .f32⟩ : BufTy).Contents (Elt F)),
    unary main_v32 main_v70 ((extractStridedSlice S4x64x1x128x128 ![0, 0, 6, 0, 0] · slices_S4x64x9x128x128_S4x64x1x128x128_0_0_6_0_0) : (⟨S4x64x9x128x128, .f32⟩ : BufTy).Contents (Elt F) → (⟨S4x64x1x128x128, .f32⟩ : BufTy).Contents (Elt F)),
    reshape main_v70 main_v71 rfl shapeCasts_S4x64x1x128x128_S4x64x128x128,
    nullary main_c_15 (constantI S_ 32 2#32),
    unary main_c_15 main_v72 (broadcastInDim S1 ![] bcast_S_S1 : (⟨S_, .i32⟩ : BufTy).Contents (Elt F) → (⟨S1, .i32⟩ : BufTy).Contents (Elt F)),
    nullary main_c_16 (constantI S_ 32 0#32),
    unary main_c_16 main_v73 (broadcastInDim S1 ![] bcast_S_S1 : (⟨S_, .i32⟩ : BufTy).Contents (Elt F) → (⟨S1, .i32⟩ : BufTy).Contents (Elt F)),
    binary main_v72 main_v73 main_v74 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v69 main_v74 main_v71 main_v75 ((fun x i u => Host.scatter scatter_S4x64x130x130_S2_S4x64x128x128_0123_n_23_0 FloatOps.addf x i u) : (⟨S4x64x130x130, .f32⟩ : BufTy).Contents (Elt F) → (⟨S2, .i32⟩ : BufTy).Contents (Elt F) → (⟨S4x64x128x128, .f32⟩ : BufTy).Contents (Elt F) → (⟨S4x64x130x130, .f32⟩ : BufTy).Contents (Elt F)),
    unary main_v32 main_v76 ((extractStridedSlice S4x64x1x128x128 ![0, 0, 7, 0, 0] · slices_S4x64x9x128x128_S4x64x1x128x128_0_0_7_0_0) : (⟨S4x64x9x128x128, .f32⟩ : BufTy).Contents (Elt F) → (⟨S4x64x1x128x128, .f32⟩ : BufTy).Contents (Elt F)),
    reshape main_v76 main_v77 rfl shapeCasts_S4x64x1x128x128_S4x64x128x128,
    nullary main_c_17 (constantI S_ 32 2#32),
    unary main_c_17 main_v78 (broadcastInDim S1 ![] bcast_S_S1 : (⟨S_, .i32⟩ : BufTy).Contents (Elt F) → (⟨S1, .i32⟩ : BufTy).Contents (Elt F)),
    nullary main_c_18 (constantI S_ 32 1#32),
    unary main_c_18 main_v79 (broadcastInDim S1 ![] bcast_S_S1 : (⟨S_, .i32⟩ : BufTy).Contents (Elt F) → (⟨S1, .i32⟩ : BufTy).Contents (Elt F)),
    binary main_v78 main_v79 main_v80 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v75 main_v80 main_v77 main_v81 ((fun x i u => Host.scatter scatter_S4x64x130x130_S2_S4x64x128x128_0123_n_23_0 FloatOps.addf x i u) : (⟨S4x64x130x130, .f32⟩ : BufTy).Contents (Elt F) → (⟨S2, .i32⟩ : BufTy).Contents (Elt F) → (⟨S4x64x128x128, .f32⟩ : BufTy).Contents (Elt F) → (⟨S4x64x130x130, .f32⟩ : BufTy).Contents (Elt F)),
    unary main_v32 main_v82 ((extractStridedSlice S4x64x1x128x128 ![0, 0, 8, 0, 0] · slices_S4x64x9x128x128_S4x64x1x128x128_0_0_8_0_0) : (⟨S4x64x9x128x128, .f32⟩ : BufTy).Contents (Elt F) → (⟨S4x64x1x128x128, .f32⟩ : BufTy).Contents (Elt F)),
    reshape main_v82 main_v83 rfl shapeCasts_S4x64x1x128x128_S4x64x128x128,
    nullary main_c_19 (constantI S_ 32 2#32),
    unary main_c_19 main_v84 (broadcastInDim S1 ![] bcast_S_S1 : (⟨S_, .i32⟩ : BufTy).Contents (Elt F) → (⟨S1, .i32⟩ : BufTy).Contents (Elt F)),
    nullary main_c_20 (constantI S_ 32 2#32),
    unary main_c_20 main_v85 (broadcastInDim S1 ![] bcast_S_S1 : (⟨S_, .i32⟩ : BufTy).Contents (Elt F) → (⟨S1, .i32⟩ : BufTy).Contents (Elt F)),
    binary main_v84 main_v85 main_v86 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v81 main_v86 main_v83 main_v87 ((fun x i u => Host.scatter scatter_S4x64x130x130_S2_S4x64x128x128_0123_n_23_0 FloatOps.addf x i u) : (⟨S4x64x130x130, .f32⟩ : BufTy).Contents (Elt F) → (⟨S2, .i32⟩ : BufTy).Contents (Elt F) → (⟨S4x64x128x128, .f32⟩ : BufTy).Contents (Elt F) → (⟨S4x64x130x130, .f32⟩ : BufTy).Contents (Elt F)),
    unary main_v87 main_v88 ((extractStridedSlice S4x64x128x128 ![0, 0, 1, 1] · slices_S4x64x130x130_S4x64x128x128_0_0_1_1) : (⟨S4x64x130x130, .f32⟩ : BufTy).Contents (Elt F) → (⟨S4x64x128x128, .f32⟩ : BufTy).Contents (Elt F)) ]

set_option maxRecDepth 8192 in
set_option maxHeartbeats 4000000 in
/-- The program is the sequence of its operations. -/
theorem main_eq (c : Dev nD) : main (F := F) c = seq ops := rfl

/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide

set_option maxRecDepth 8192 in
/-- Every operation touches buffers of the device only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., nullary_bufs_sub .., unary_bufs_sub .., unary_bufs_sub .., reshape_bufs_sub .., nullary_bufs_sub .., unary_bufs_sub .., nullary_bufs_sub .., unary_bufs_sub .., binary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., reshape_bufs_sub .., nullary_bufs_sub .., unary_bufs_sub .., nullary_bufs_sub .., unary_bufs_sub .., binary_bufs_sub .., ternary_bufs_sub .., unary_bufs_sub .., reshape_bufs_sub .., nullary_bufs_sub .., unary_bufs_sub .., nullary_bufs_sub .., unary_bufs_sub .., binary_bufs_sub .., ternary_bufs_sub .., unary_bufs_sub ..⟩

set_option maxRecDepth 8192 in
set_option maxHeartbeats 4000000 in
/-- On every device, from any memory with zero counters: every weakly fair execution of the program terminates
    with the result buffer at the stages' value of the two argument arrays' launch contents, and the two
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v88) = Stages.refValue (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v88).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.LibWindowAdd.lean ====
/-
  A scatter read at one element of its result, when the update elements land on pairwise distinct elements.

  The scatter is a left fold over the update indices in row-major order: each step replaces the element an update
  lands on by the body applied to that element and the update, and leaves every other element alone. Read at one
  element `i` of the result the fold therefore collapses: if no update lands on `i` the element is the operand's; if
  exactly one update `j` lands on `i` the element is the body applied to the operand's element and that update.
  The second half specialises this to the WINDOW ADDITION of a rank-4 array: a block of the extents of the two
  trailing axes placed at a start `(a, b)` of those axes, the two leading axes kept whole.
-/
import Idealize.ShloMosaic.PureOps.ShapeOps
import Idealize.ShloMosaic.Lib.ValueIdx

namespace Cert.Lib.WindowAdd

open Idealize.ShloMosaic Idealize.ShloMosaic.ValueIdx

/-! ## The fold over a list of updates, read at one element -/

section Fold

variable {ι I α : Type} [DecidableEq I]

/-- One step of the fold: the update `n` lands on `land n` (or nowhere) and carries `val n`; the element it lands on
    becomes the body `f` of that element and the update's value, every other element stays. -/
def step (f : α → α → α) (land : ι → Option I) (val : ι → α) (r : I → α) (n : ι) : I → α :=
  match land n with
  | some i => fun i' => if i' = i then f (r i) (val n) else r i'
  | none => r

/-- A step whose update does not land on `i` leaves the element at `i` alone. -/
theorem step_of_ne (f : α → α → α) (land : ι → Option I) (val : ι → α) (r : I → α) (n : ι) (i : I)
    (h : land n ≠ some i) : step f land val r n i = r i := by
  unfold step
  cases hn : land n with
  | none => rfl
  | some k =>
    have hk : i ≠ k := fun e => h (by rw [hn, e])
    simp only [if_neg hk]

/-- A step whose update lands on `i` puts the body of the old element and the update's value there. -/
theorem step_of_eq (f : α → α → α) (land : ι → Option I) (val : ι → α) (r : I → α) (n : ι) (i : I)
    (h : land n = some i) : step f land val r n i = f (r i) (val n) := by
  unfold step
  rw [h]
  simp only [if_true]

/-- MISS: if no update of the list lands on `i`, the fold's value at `i` is the starting array's. -/
theorem foldl_miss (f : α → α → α) (land : ι → Option I) (val : ι → α) (i : I) :
    ∀ (l : List ι) (acc : I → α), (∀ n ∈ l, land n ≠ some i) → l.foldl (step f land val) acc i = acc i
  | [], _, _ => rfl
  | m :: l, acc, h => by
    rw [List.foldl_cons, foldl_miss f land val i l _ (fun n hn => h n (List.mem_cons_of_mem _ hn))]
    exact step_of_ne f land val acc m i (h m (List.mem_cons_self ..))

/-- HIT: if exactly the update `n` of a list without repeats lands on `i`, the fold's value at `i` is the body of the
    starting array's element and that update's value. -/
theorem foldl_hit (f : α → α → α) (land : ι → Option I) (val : ι → α) (i : I) (n : ι) (hland : land n = some i) :
    ∀ (l : List ι) (acc : I → α), l.Nodup → n ∈ l → (∀ m ∈ l, m ≠ n → land m ≠ some i) →
      l.foldl (step f land val) acc i = f (acc i) (val n)
  | [], _, _, hn, _ => absurd hn (List.not_mem_nil)
  | m :: l, acc, hl, hn, hother => by
    rw [List.foldl_cons]
    by_cases hm : m = n
    · subst hm
      have hnot : m ∉ l := (List.nodup_cons.1 hl).1
      rw [foldl_miss f land val i l _ (fun k hk => hother k (List.mem_cons_of_mem _ hk) (fun e => hnot (e ▸ hk)))]
      exact step_of_eq f land val acc m i hland
    · have hnl : n ∈ l := by
        rcases List.mem_cons.1 hn with e | e
        · exact absurd e.symm hm
        · exact e
      rw [foldl_hit f land val i n hland l _ (List.nodup_cons.1 hl).2 hnl
        (fun k hk => hother k (List.mem_cons_of_mem _ hk))]
      rw [step_of_ne f land val acc m i (hother m (List.mem_cons_self ..) hm)]

end Fold

/-! ## The scatter read at an element -/

section Scatter

variable {α : Type} {s si u : Shape} {w : Nat}

/-- The scatter is the fold of `step` over the row-major positions of the update indices. -/
theorem scatter_eq_foldl (d : ScatterDims s si u) (f : α → α → α) (x : s.Idx → α) (idx : IVec si w) (upd : u.Idx → α) :
    Host.scatter d f x idx upd =
      (List.finRange u.numel).foldl
        (step f (fun n => d.resultIdx? (u.rowMajor.symm n) idx) (fun n => upd (u.rowMajor.symm n))) x := by
  unfold Host.scatter
  congr 1
  funext r n
  unfold step
  beta_reduce
  cases d.resultIdx? (u.rowMajor.symm n) idx <;> rfl

/-- No update index lands on `i`: the result at `i` is the operand's element. -/
theorem scatter_apply_of_none (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_miss f _ _ i _ x (fun n _ => h _)

/-- Update index `j` lands on `i` and no other does: the result at `i` is the body of the operand's element and the
    update's. -/
theorem scatter_apply_of_unique (d : ScatterDims s si u) (f : α → α → α) (x : s.Idx → α) (idx : IVec si w)
    (upd : u.Idx → α) (i : s.Idx) (j : u.Idx) (hj : d.resultIdx? j idx = some i)
    (huniq : ∀ j', d.resultIdx? j' idx = some i → j' = j) :
    Host.scatter d f x idx upd i = f (x i) (upd j) := by
  rw [scatter_eq_foldl]
  have h := foldl_hit f (fun n => d.resultIdx? (u.rowMajor.symm n) idx) (fun n => upd (u.rowMajor.symm n)) i
    (u.rowMajor j) (by simp only [Equiv.symm_apply_apply]; exact hj) (List.finRange u.numel) x
    (List.nodup_finRange _) (List.mem_finRange _)
    (fun m _ hm hl => hm (by
      have := huniq _ hl
      rw [← this, Equiv.apply_symm_apply]))
  rw [h]
  simp only [Equiv.symm_apply_apply]

/-- An update index lands on `i` exactly when, on every axis, `i`'s coordinate is the window's start plus the update's
    window coordinate. -/
theorem resultIdx?_eq_some_iff (d : ScatterDims s si u) (j : u.Idx) (idx : IVec si w) (i : s.Idx) :
    d.resultIdx? j idx = some i ↔ ∀ a, ((i a).val : Int) = d.start j idx a + (d.window j a : Int) := by
  unfold ScatterDims.resultIdx?
  constructor
  · intro h a
    split_ifs at h with hin
    have hi := Option.some.inj h
    rw [← hi]
    have := (hin a).1
    simp only [Int.toNat_of_nonneg this]
  · intro h
    have hin : ∀ a, 0 ≤ d.start j idx a + d.window j a ∧ d.start j idx a + d.window j a < s.size a := by
      intro a
      have := (i a).isLt
      rw [← h a]
      omega
    rw [dif_pos hin]
    congr 1
    funext a
    refine Fin.ext ?_
    show (d.start j idx a + d.window j a).toNat = (i a).val
    rw [← h a]
    simp only [Int.toNat_natCast]

end Scatter

/-! ## The window addition of a rank-4 array along its two trailing axes -/

section Window

variable {α : Type} {n0 n1 H W h w : Nat} {wd : Nat}

/-- The start of the window on each axis: nothing on the two leading axes, the two entries of the start vector, read
    signed, on the two trailing ones. -/
theorem start_eq (d : ScatterDims ⟨4, ![n0, n1, H, W]⟩ ⟨1, ![2]⟩ ⟨4, ![n0, n1, h, w]⟩)
    (hsd : d.scatterDimsToOperandDims = [2, 3]) (hiv : d.indexVectorDim = 0)
    (j : (⟨4, ![n0, n1, h, w]⟩ : Shape).Idx) (idx : IVec ⟨1, ![2]⟩ wd) :
    d.start j idx 0 = 0 ∧ d.start j idx 1 = 0 ∧ d.start j idx 2 = (idx (ix1 0)).toInt ∧
      d.start j idx 3 = (idx (ix1 1)).toInt := by
  obtain ⟨uw, iw, sd, iv, wf⟩ := d
  simp only at hsd hiv
  subst hsd hiv
  refine ⟨?_, ?_, ?_, ?_⟩
  · unfold ScatterDims.start
    rw [dif_neg (show ¬ ((0 : Fin 4) ∈ ([2, 3] : List (Fin 4))) by decide)]
  · unfold ScatterDims.start
    rw [dif_neg (show ¬ ((1 : Fin 4) ∈ ([2, 3] : List (Fin 4))) by decide)]
  · unfold ScatterDims.start
    rw [dif_pos (show (2 : Fin 4) ∈ ([2, 3] : List (Fin 4)) by decide)]
    congr 2
    funext b
    obtain rfl : b = 0 := Subsingleton.elim _ _
    rfl
  · unfold ScatterDims.start
    rw [dif_pos (show (3 : Fin 4) ∈ ([2, 3] : List (Fin 4)) by decide)]
    congr 2
    funext b
    obtain rfl : b = 0 := Subsingleton.elim _ _
    rfl

/-- The window coordinate on each axis is the update index's own coordinate: every axis of the update is a window
    axis and no axis of the operand is inserted. -/
theorem window_eq (d : ScatterDims ⟨4, ![n0, n1, H, W]⟩ ⟨1, ![2]⟩ ⟨4, ![n0, n1, h, w]⟩)
    (huw : d.updateWindowDims = [0, 1, 2, 3]) (hiw : d.insertedWindowDims = [])
    (j : (⟨4, ![n0, n1, h, w]⟩ : Shape).Idx) :
    d.window j 0 = (j 0).val ∧ d.window j 1 = (j 1).val ∧ d.window j 2 = (j 2).val ∧ d.window j 3 = (j 3).val := by
  obtain ⟨uw, iw, sd, iv, wf⟩ := d
  simp only at huw hiw
  subst huw hiw
  have hk : ∀ a : Fin 4, a ∈ (List.finRange 4).filter (· ∉ ([] : List (Fin 4))) := by decide
  refine ⟨?_, ?_, ?_, ?_⟩
  · unfold ScatterDims.window
    refine (dif_pos ?_).trans ?_
    · exact hk 0
    · rfl
  · unfold ScatterDims.window
    refine (dif_pos ?_).trans ?_
    · exact hk 1
    · rfl
  · unfold ScatterDims.window
    refine (dif_pos ?_).trans ?_
    · exact hk 2
    · rfl
  · unfold ScatterDims.window
    refine (dif_pos ?_).trans ?_
    · exact hk 3
    · rfl

/-- Update index `j` lands on `i` exactly when `i` has `j`'s coordinates on the two leading axes and `j`'s moved by
    the start `(a, b)` on the two trailing ones. -/
theorem window_resultIdx?_iff (d : ScatterDims ⟨4, ![n0, n1, H, W]⟩ ⟨1, ![2]⟩ ⟨4, ![n0, n1, h, w]⟩)
    (huw : d.updateWindowDims = [0, 1, 2, 3]) (hiw : d.insertedWindowDims = [])
    (hsd : d.scatterDimsToOperandDims = [2, 3]) (hiv : d.indexVectorDim = 0)
    (j : (⟨4, ![n0, n1, h, w]⟩ : Shape).Idx) (idx : IVec ⟨1, ![2]⟩ wd) (a b : Nat)
    (ha : (idx (ix1 0)).toInt = a) (hb : (idx (ix1 1)).toInt = b) (i : (⟨4, ![n0, n1, H, W]⟩ : Shape).Idx) :
    d.resultIdx? j idx = some i ↔
      (i 0).val = (j 0).val ∧ (i 1).val = (j 1).val ∧ (i 2).val = a + (j 2).val ∧ (i 3).val = b + (j 3).val := by
  rw [resultIdx?_eq_some_iff]
  obtain ⟨s0, s1, s2, s3⟩ := start_eq d hsd hiv j idx
  obtain ⟨w0, w1, w2, w3⟩ := window_eq d huw hiw j
  constructor
  · intro hall
    have h0 := hall 0
    have h1 := hall 1
    have h2 := hall 2
    have h3 := hall 3
    rw [s0, w0] at h0
    rw [s1, w1] at h1
    rw [s2, w2, ha] at h2
    rw [s3, w3, hb] at h3
    exact ⟨by omega, by omega, by omega, by omega⟩
  · rintro ⟨h0, h1, h2, h3⟩ c
    match c with
    | ⟨0, _⟩ =>
      show ((i 0).val : Int) = d.start j idx 0 + (d.window j 0 : Int)
      rw [s0, w0]; omega
    | ⟨1, _⟩ =>
      show ((i 1).val : Int) = d.start j idx 1 + (d.window j 1 : Int)
      rw [s1, w1]; omega
    | ⟨2, _⟩ =>
      show ((i 2).val : Int) = d.start j idx 2 + (d.window j 2 : Int)
      rw [s2, w2, ha]; omega
    | ⟨3, _⟩ =>
      show ((i 3).val : Int) = d.start j idx 3 + (d.window j 3 : Int)
      rw [s3, w3, hb]; omega

/-- INSIDE THE WINDOW: at the canvas element `(p, q, Y, X)` with `Y = a + y'` and `X = b + x'` the window addition's
    result is the body of the canvas's element and the update's element `(p, q, y', x')`. -/
theorem windowAdd_apply_of_inside (d : ScatterDims ⟨4, ![n0, n1, H, W]⟩ ⟨1, ![2]⟩ ⟨4, ![n0, n1, h, w]⟩)
    (huw : d.updateWindowDims = [0, 1, 2, 3]) (hiw : d.insertedWindowDims = [])
    (hsd : d.scatterDimsToOperandDims = [2, 3]) (hiv : d.indexVectorDim = 0)
    (f : α → α → α) (x : (⟨4, ![n0, n1, H, W]⟩ : Shape).Idx → α) (idx : IVec ⟨1, ![2]⟩ wd)
    (upd : (⟨4, ![n0, n1, h, w]⟩ : Shape).Idx → α) (a b : Nat)
    (ha : (idx (ix1 0)).toInt = a) (hb : (idx (ix1 1)).toInt = b)
    (p : Fin n0) (q : Fin n1) (Y : Fin H) (X : Fin W) (y' : Fin h) (x' : Fin w)
    (hY : Y.val = a + y'.val) (hX : X.val = b + x'.val) :
    Host.scatter d f x idx upd (ix4 p q Y X) = f (x (ix4 p q Y X)) (upd (ix4 p q y' x')) := by
  refine scatter_apply_of_unique d f x idx upd (ix4 p q Y X) (ix4 p q y' x') ?_ ?_
  · exact (window_resultIdx?_iff d huw hiw hsd hiv _ idx a b ha hb _).2 ⟨rfl, rfl, hY, hX⟩
  · intro j' hl
    obtain ⟨h0, h1, h2, h3⟩ := (window_resultIdx?_iff d huw hiw hsd hiv j' idx a b ha hb _).1 hl
    rw [eq_ix4 j']
    have e0 : j' 0 = p := Fin.ext h0.symm
    have e1 : j' 1 = q := Fin.ext h1.symm
    have e2 : j' 2 = y' := Fin.ext (by
      have h2' : Y.val = a + (j' 2).val := h2
      omega)
    have e3 : j' 3 = x' := Fin.ext (by
      have h3' : X.val = b + (j' 3).val := h3
      omega)
    rw [e0, e1, e2, e3]
    rfl

/-- OUTSIDE THE WINDOW: at a canvas element whose trailing coordinates are not both within the window placed at
    `(a, b)` the window addition leaves the canvas's element. -/
theorem windowAdd_apply_of_outside (d : ScatterDims ⟨4, ![n0, n1, H, W]⟩ ⟨1, ![2]⟩ ⟨4, ![n0, n1, h, w]⟩)
    (huw : d.updateWindowDims = [0, 1, 2, 3]) (hiw : d.insertedWindowDims = [])
    (hsd : d.scatterDimsToOperandDims = [2, 3]) (hiv : d.indexVectorDim = 0)
    (f : α → α → α) (x : (⟨4, ![n0, n1, H, W]⟩ : Shape).Idx → α) (idx : IVec ⟨1, ![2]⟩ wd)
    (upd : (⟨4, ![n0, n1, h, w]⟩ : Shape).Idx → α) (a b : Nat)
    (ha : (idx (ix1 0)).toInt = a) (hb : (idx (ix1 1)).toInt = b)
    (p : Fin n0) (q : Fin n1) (Y : Fin H) (X : Fin W)
    (hout : ¬((a ≤ Y.val ∧ Y.val < a + h) ∧ (b ≤ X.val ∧ X.val < b + w))) :
    Host.scatter d f x idx upd (ix4 p q Y X) = x (ix4 p q Y X) := by
  refine scatter_apply_of_none d f x idx upd (ix4 p q Y X) ?_
  intro j' hl
  obtain ⟨_, _, h2, h3⟩ := (window_resultIdx?_iff d huw hiw hsd hiv j' idx a b ha hb _).1 hl
  have h2' : Y.val = a + (j' 2).val := h2
  have h3' : X.val = b + (j' 3).val := h3
  have l2 : (j' 2).val < h := (j' 2).isLt
  have l3 : (j' 3).val < w := (j' 3).isLt
  exact hout ⟨⟨by omega, by omega⟩, ⟨by omega, by omega⟩⟩

/-- THE WINDOW ADDITION READ AT A CANVAS ELEMENT `(p, q, Y, X)`: inside the window placed at `(a, b)` the body of the
    canvas's element and the update's element `(p, q, Y − a, X − b)`; outside it the canvas's element. -/
theorem windowAdd_apply (d : ScatterDims ⟨4, ![n0, n1, H, W]⟩ ⟨1, ![2]⟩ ⟨4, ![n0, n1, h, w]⟩)
    (huw : d.updateWindowDims = [0, 1, 2, 3]) (hiw : d.insertedWindowDims = [])
    (hsd : d.scatterDimsToOperandDims = [2, 3]) (hiv : d.indexVectorDim = 0)
    (f : α → α → α) (x : (⟨4, ![n0, n1, H, W]⟩ : Shape).Idx → α) (idx : IVec ⟨1, ![2]⟩ wd)
    (upd : (⟨4, ![n0, n1, h, w]⟩ : Shape).Idx → α) (a b : Nat)
    (ha : (idx (ix1 0)).toInt = a) (hb : (idx (ix1 1)).toInt = b)
    (p : Fin n0) (q : Fin n1) (Y : Fin H) (X : Fin W) :
    Host.scatter d f x idx upd (ix4 p q Y X) =
      if hin : (a ≤ Y.val ∧ Y.val < a + h) ∧ (b ≤ X.val ∧ X.val < b + w) then
        f (x (ix4 p q Y X)) (upd (ix4 p q ⟨Y.val - a, by omega⟩ ⟨X.val - b, by omega⟩))
      else x (ix4 p q Y X) := by
  by_cases hin : (a ≤ Y.val ∧ Y.val < a + h) ∧ (b ≤ X.val ∧ X.val < b + w)
  · rw [dif_pos hin]
    exact windowAdd_apply_of_inside d huw hiw hsd hiv f x idx upd a b ha hb p q Y X _ _
      (by show Y.val = a + (Y.val - a); omega) (by show X.val = b + (X.val - b); omega)
  · rw [dif_neg hin]
    exact windowAdd_apply_of_outside d huw hiw hsd hiv f x idx upd a b ha hb p q Y X hin

end Window

end Cert.Lib.WindowAdd
-- ==== Proof.RefRead.lean ====
/-
  The reference program's result read at one entry.

  `refValue A0 A1` at `(b, c, y, x)` is the direct form of the statement, `refAt A0 A1 b c y x`, for arbitrary
  extended-real arrays: every step is a re-indexing, `0 + s = s`, `s + 0 = s`, or a rearrangement of a sum.
  Stage by stage: the padded array inside its border is the array; a window of a canvas is the canvas shifted; tap
  `k = 3 ky + kx` of the stacked windows is the padded array shifted by `(ky, kx)`; the weight is the exponential of
  `−½` times the channel sum of squared differences; a tap of the weighted stack is added into the canvas with its
  corner at `(ky, kx)`, so the canvas entry `(y + 1, x + 1)` receives from tap `(ky, kx)` the stack's entry
  `(y + 1 − ky, x + 1 − kx)` when that lies in the image and nothing otherwise. There the shifts cancel: the window
  of the first array reads `A0(·, y, x)` on every tap, and the second array is read at the neighbour
  `(y + 1 − ky, x + 1 − kx)`, which is the statement's neighbour for the offsets `(2 − ky, 2 − kx)`.
-/
import proofs.«179273_j17781164605470_2_alg».proof.Proof.RefStages
import proofs.«179273_j17781164605470_2_alg».proof.Proof.TapSpec
import proofs.«179273_j17781164605470_2_alg».proof.Proof.LibWindowAdd
import Idealize.ShloMosaic.Lib.ValueIdx
import Idealize.ShloMosaic.Lib.Pipeline.Value
import Idealize.ShloMosaic.Lib.KernelVsHost
import Idealize.ShloMosaic.PureOps.Ideal.Laws

noncomputable section

namespace Cert.ReferenceIdeal.RefRead

open Cert.ReferenceIdeal Cert.ReferenceIdeal.Stages Idealize.ShloMosaic Idealize.ShloMosaic.ValueIdx
open Cert.ReferenceIdeal.Facts₀ Cert.ReferenceIdeal.Facts

/-- An argument array: 4 images × 64 channels × 128 × 128 pixels of extended reals. -/
abbrev Arr : Type := S4x64x128x128.Idx → EReal
/-- A canvas: an array with a border of one pixel on each side of the two image axes. -/
abbrev Canvas : Type := S4x64x130x130.Idx → EReal
/-- A stack of nine taps of an array. -/
abbrev Stack : Type := S4x64x9x128x128.Idx → EReal

/-! ## Padding, windows, the tap axis -/

/-- The padding value is zero. -/
theorem padVal_apply (i : S_.Idx) : padVal (F := Ideal) i = 0 := by
  unfold padVal
  rw [sitofp_apply]
  show (((constantI S_ 32 0#32 i).toInt : ℝ) : EReal) = 0
  simp [constantI]

/-- Inside the border the padded array is the array, one pixel up and left. -/
theorem padded_apply (A : Arr) (p : Fin 4) (q : Fin 64) (Y X : Fin 130) (y x : Fin 128)
    (hY : Y.val = 1 + y.val) (hX : X.val = 1 + x.val) :
    padded (F := Ideal) A (ix4 p q Y X) = A (ix4 p q y x) := by
  unfold padded
  exact pad_apply_of_inside _ _ _ A _ _ _ (ix4 p q Y X) (ix4 p q y x) (fun a => match a with
    | ⟨0, _⟩ => by show p.val = 0 + p.val * (0 + 1); omega
    | ⟨1, _⟩ => by show q.val = 0 + q.val * (0 + 1); omega
    | ⟨2, _⟩ => by show Y.val = 1 + y.val * (0 + 1); omega
    | ⟨3, _⟩ => by show X.val = 1 + x.val * (0 + 1); omega)

/-- The window of a canvas starting at `(ky, kx)` reads the canvas `(ky, kx)` further on. -/
theorem window_apply (ky kx : Nat) (h : S4x64x130x130.Slices ![0, 0, ky, kx] S4x64x128x128) (C : Canvas)
    (p : Fin 4) (q : Fin 64) (y x : Fin 128) (Y X : Fin 130) (hY : Y.val = ky + y.val) (hX : X.val = kx + x.val) :
    window (F := Ideal) ![0, 0, ky, kx] h C (ix4 p q y x) = C (ix4 p q Y X) := by
  unfold window
  exact extractStridedSlice_apply _ C h (ix4 p q y x) (ix4 p q Y X) (fun a => match a with
    | ⟨0, _⟩ => by show p.val = 0 + p.val; omega
    | ⟨1, _⟩ => by show q.val = 0 + q.val; omega
    | ⟨2, _⟩ => by show Y.val = ky + y.val; omega
    | ⟨3, _⟩ => by show X.val = kx + x.val; omega)

/-- An array given a unit tap axis reads the array. -/
theorem withTapAxis_apply (B : Arr) (p : Fin 4) (q : Fin 64) (o : Fin 1) (y x : Fin 128) :
    withTapAxis (F := Ideal) B (ix5 p q o y x) = B (ix4 p q y x) := by
  unfold withTapAxis
  exact broadcastInDim_apply _ bcast_S4x64x128x128_S4x64x1x128x128_0_1_3_4 B (ix5 p q o y x) (ix4 p q y x) (fun a => match a with
    | ⟨0, _⟩ => by show p.val = if (4 : Nat) = 1 then 0 else p.val; rw [if_neg (by decide)]
    | ⟨1, _⟩ => by show q.val = if (64 : Nat) = 1 then 0 else q.val; rw [if_neg (by decide)]
    | ⟨2, _⟩ => by show y.val = if (128 : Nat) = 1 then 0 else y.val; rw [if_neg (by decide)]
    | ⟨3, _⟩ => by show x.val = if (128 : Nat) = 1 then 0 else x.val; rw [if_neg (by decide)])

/-! ## The stacked windows and the centre -/

/-- Every tap's window fits the canvas. -/
theorem slicesAt : ∀ n : Fin 9, S4x64x130x130.Slices ![0, 0, n.val / 3, n.val % 3] S4x64x128x128 := by decide

/-- Tap `n` of the stack as a piece with a unit tap axis: the window of the padded array starting at `(n / 3, n % 3)`. -/
def colPiece (A : Arr) (n : Fin 9) : S4x64x1x128x128.Idx → EReal :=
  withTapAxis (F := Ideal) (window (F := Ideal) ![0, 0, n.val / 3, n.val % 3] (slicesAt n) (padded (F := Ideal) A))

/-- The stack is the nine pieces laid along the tap axis. -/
theorem cols_eq (A : Arr) :
    cols (F := Ideal) A =
      concatenate S4x64x9x128x128 2
        (List.ofFn fun n : Fin 9 => (⟨S4x64x1x128x128, colPiece A n⟩ : (s : Shape) × (s.Idx → EReal)))
        (show Shape.Concatenates
            ((List.ofFn fun n : Fin 9 => (⟨S4x64x1x128x128, colPiece A n⟩ : (s : Shape) × (s.Idx → EReal))).map (·.1))
            S4x64x9x128x128 2 from
          concatenates_S4x64x1x128x128_S4x64x1x128x128_S4x64x1x128x128_S4x64x1x128x128_S4x64x1x128x128_S4x64x1x128x128_S4x64x1x128x128_S4x64x1x128x128_S4x64x1x128x128_S4x64x9x128x128_d2) :=
  rfl

/-- Tap `k` of the stacked windows reads the padded array `(k / 3, k % 3)` further on. -/
theorem cols_apply (A : Arr) (p : Fin 4) (q : Fin 64) (k : Fin 9) (y x : Fin 128) (Y X : Fin 130)
    (hY : Y.val = k.val / 3 + y.val) (hX : X.val = k.val % 3 + x.val) :
    cols (F := Ideal) A (ix5 p q k y x) = padded (F := Ideal) A (ix4 p q Y X) := by
  rw [cols_eq]
  rw [concatenate_ofFn_unit_apply (t := S4x64x9x128x128) (s₁ := S4x64x1x128x128) (2 : Fin 5) (fun n : Fin 9 => colPiece A n) _ rfl rfl (ix5 p q k y x) k rfl
    (ix5 p q (0 : Fin 1) y x) (fun b hb => match b with
      | ⟨0, _⟩ => rfl
      | ⟨1, _⟩ => rfl
      | ⟨2, _⟩ => absurd rfl hb
      | ⟨3, _⟩ => rfl
      | ⟨4, _⟩ => rfl)]
  unfold colPiece
  rw [withTapAxis_apply]
  exact window_apply _ _ _ _ p q y x Y X hY hX

/-- The centre reads the padded second array one pixel down and right, on every tap. -/
theorem centre_apply (A : Arr) (p : Fin 4) (q : Fin 64) (k : Fin 9) (y x : Fin 128) (Y X : Fin 130)
    (hY : Y.val = 1 + y.val) (hX : X.val = 1 + x.val) :
    centre (F := Ideal) A (ix5 p q k y x) = padded (F := Ideal) A (ix4 p q Y X) := by
  unfold centre
  rw [broadcastInDim_apply _ bcast_S4x64x1x128x128_S4x64x9x128x128_0_1_2_3_4 _ (ix5 p q k y x) (ix5 p q (0 : Fin 1) y x)
    (fun a => match a with
      | ⟨0, _⟩ => by show p.val = if (4 : Nat) = 1 then 0 else p.val; rw [if_neg (by decide)]
      | ⟨1, _⟩ => by show q.val = if (64 : Nat) = 1 then 0 else q.val; rw [if_neg (by decide)]
      | ⟨2, _⟩ => by show (0 : Nat) = if (1 : Nat) = 1 then 0 else k.val; rw [if_pos rfl]
      | ⟨3, _⟩ => by show y.val = if (128 : Nat) = 1 then 0 else y.val; rw [if_neg (by decide)]
      | ⟨4, _⟩ => by show x.val = if (128 : Nat) = 1 then 0 else x.val; rw [if_neg (by decide)])]
  rw [withTapAxis_apply]
  exact window_apply 1 1 _ _ p q y x Y X hY hX

/-! ## The weight and the weighted stack -/

/-- The squared difference summed over the channels, from a zero start. -/
theorem distSq_apply (A0 A1 : Arr) (p : Fin 4) (k : Fin 9) (y x : Fin 128) :
    distSq (F := Ideal) A0 A1 (ix4 p k y x) =
      0 + ∑ c : Fin 64, (cols (F := Ideal) A0 (ix5 p c k y x) - centre (F := Ideal) A1 (ix5 p c k y x)) *
        (cols (F := Ideal) A0 (ix5 p c k y x) - centre (F := Ideal) A1 (ix5 p c k y x)) := by
  unfold distSq
  simp only [Host.reduceAdd, Ideal.hostReduceAdd_def]
  rw [Ideal.hostReduceAdd_single reducesTo_S4x64x9x128x128_S4x9x128x128_d1 (by decide)]
  rw [constant_apply, Ideal.ofBits_zero_f32]
  refine congrArg (0 + ·) (Finset.sum_congr rfl fun c _ => ?_)
  exact congrArg (fun i => (cols (F := Ideal) A0 i - centre (F := Ideal) A1 i) * (cols (F := Ideal) A0 i - centre (F := Ideal) A1 i))
    (funext fun a => Fin.ext (by match a with | ⟨0, _⟩ => rfl | ⟨1, _⟩ => rfl | ⟨2, _⟩ => rfl | ⟨3, _⟩ => rfl | ⟨4, _⟩ => rfl))

/-- The weight: the exponential of `−½` times the summed squared difference. -/
theorem gauss_apply (A0 A1 : Arr) (p : Fin 4) (o : Fin 1) (k : Fin 9) (y x : Fin 128) :
    gauss (F := Ideal) A0 A1 (ix5 p o k y x) = Ideal.exp (Cert.GaussTaps.negHalf * distSq (F := Ideal) A0 A1 (ix4 p k y x)) := by
  unfold gauss
  show FloatOps.hostUnary .exp (_ * _) = _
  rw [Ideal.hostUnary_exp_def]
  rw [broadcastInDim_apply _ bcast_S_S4x1x9x128x128 _ (ix5 p o k y x) ix0 (fun a => a.elim0)]
  rw [broadcastInDim_apply _ bcast_S4x9x128x128_S4x1x9x128x128_0_2_3_4 _ (ix5 p o k y x) (ix4 p k y x) (fun a => match a with
      | ⟨0, _⟩ => by show p.val = if (4 : Nat) = 1 then 0 else p.val; rw [if_neg (by decide)]
      | ⟨1, _⟩ => by show k.val = if (9 : Nat) = 1 then 0 else k.val; rw [if_neg (by decide)]
      | ⟨2, _⟩ => by show y.val = if (128 : Nat) = 1 then 0 else y.val; rw [if_neg (by decide)]
      | ⟨3, _⟩ => by show x.val = if (128 : Nat) = 1 then 0 else x.val; rw [if_neg (by decide)])]
  rfl

/-- The weighted stack: the weight times the stacked windows, the weight the same on every channel. -/
theorem sup_apply (A0 A1 : Arr) (p : Fin 4) (q : Fin 64) (k : Fin 9) (y x : Fin 128) :
    sup (F := Ideal) A0 A1 (ix5 p q k y x) =
      gauss (F := Ideal) A0 A1 (ix5 p (0 : Fin 1) k y x) * cols (F := Ideal) A0 (ix5 p q k y x) := by
  unfold sup
  rw [mulf_apply]
  rw [broadcastInDim_apply _ bcast_S4x1x9x128x128_S4x64x9x128x128_0_1_2_3_4 _ (ix5 p q k y x) (ix5 p (0 : Fin 1) k y x) (fun a => match a with
      | ⟨0, _⟩ => by show p.val = if (4 : Nat) = 1 then 0 else p.val; rw [if_neg (by decide)]
      | ⟨1, _⟩ => by show (0 : Nat) = if (1 : Nat) = 1 then 0 else q.val; rw [if_pos rfl]
      | ⟨2, _⟩ => by show k.val = if (9 : Nat) = 1 then 0 else k.val; rw [if_neg (by decide)]
      | ⟨3, _⟩ => by show y.val = if (128 : Nat) = 1 then 0 else y.val; rw [if_neg (by decide)]
      | ⟨4, _⟩ => by show x.val = if (128 : Nat) = 1 then 0 else x.val; rw [if_neg (by decide)])]

/-- One tap of a stack, without the tap axis, reads the stack at that tap. -/
theorem tapOf_apply (k : Nat) (hk : k < 9) (h : S4x64x9x128x128.Slices ![0, 0, k, 0, 0] S4x64x1x128x128) (s : Stack)
    (p : Fin 4) (q : Fin 64) (y x : Fin 128) :
    tapOf (F := Ideal) ![0, 0, k, 0, 0] h s (ix4 p q y x) = s (ix5 p q ⟨k, hk⟩ y x) := by
  unfold tapOf
  rw [shapeCast_apply _ shapeCasts_S4x64x1x128x128_S4x64x128x128 (ix4 p q y x) (ix5 p q (0 : Fin 1) y x) (by
    rw [Shape.rowMajor_val_five, Shape.rowMajor_val_four]
    show (((p.val * 64 + q.val) * 1 + 0) * 128 + y.val) * 128 + x.val = ((p.val * 64 + q.val) * 128 + y.val) * 128 + x.val
    omega)]
  exact extractStridedSlice_apply _ s h (ix5 p q (0 : Fin 1) y x) (ix5 p q ⟨k, hk⟩ y x) (fun a => match a with
    | ⟨0, _⟩ => by show p.val = 0 + p.val; omega
    | ⟨1, _⟩ => by show q.val = 0 + q.val; omega
    | ⟨2, _⟩ => by show k = k + 0; omega
    | ⟨3, _⟩ => by show y.val = 0 + y.val; omega
    | ⟨4, _⟩ => by show x.val = 0 + x.val; omega)

/-! ## The additions into the canvas -/

/-- The start vector's first entry. -/
theorem startAt_apply_zero (a b : BitVec 32) : startAt (F := Ideal) a b (ix1 0) = a := by
  unfold startAt
  refine (concatenate_pair_apply_left (t := S2) (s₁ := S1) (s₂ := S1) (0 : Fin 1) _ _ concatenates_S1_S1_S2_d0
    (ix1 (0 : Fin 2)) rfl (ix1 (0 : Fin 1)) (fun c => match c with | ⟨0, _⟩ => rfl)).trans ?_
  rfl

/-- The start vector's second entry. -/
theorem startAt_apply_one (a b : BitVec 32) : startAt (F := Ideal) a b (ix1 1) = b := by
  unfold startAt
  refine (concatenate_pair_apply_right (t := S2) (s₁ := S1) (s₂ := S1) (0 : Fin 1) _ _ concatenates_S1_S1_S2_d0
    (ix1 (1 : Fin 2)) rfl rfl (ix1 (0 : Fin 1)) (fun c hc => match c with | ⟨0, _⟩ => absurd rfl hc) rfl).trans ?_
  rfl

/-- The zero canvas. -/
theorem canvas0_apply (i : S4x64x130x130.Idx) : canvas0 (F := Ideal) i = 0 := by
  unfold canvas0
  rw [broadcastInDim_apply _ bcast_S_S4x64x130x130 _ i ix0 (fun a => a.elim0), constant_apply, Ideal.ofBits_zero_f32]

/-- An addition into the canvas with its corner at `(ky, kx)`, read inside the added block. -/
theorem addAt_apply_of_inside (a b : BitVec 32) (ky kx : Nat) (ha : a.toInt = ky) (hb : b.toInt = kx) (C : Canvas) (B : Arr)
    (p : Fin 4) (q : Fin 64) (Y X : Fin 130) (y x : Fin 128) (hY : Y.val = ky + y.val) (hX : X.val = kx + x.val) :
    addAt (F := Ideal) a b C B (ix4 p q Y X) = C (ix4 p q Y X) + B (ix4 p q y x) := by
  have h0 : (startAt (F := Ideal) a b (ix1 (0 : Fin 2))).toInt = (ky : Int) := by rw [startAt_apply_zero]; exact ha
  have h1 : (startAt (F := Ideal) a b (ix1 (1 : Fin 2))).toInt = (kx : Int) := by rw [startAt_apply_one]; exact hb
  unfold addAt
  refine (Cert.Lib.WindowAdd.windowAdd_apply_of_inside (α := EReal) (wd := 32) (n0 := 4) (n1 := 64) (H := 130) (W := 130) (h := 128) (w := 128)
    scatter_S4x64x130x130_S2_S4x64x128x128_0123_n_23_0 rfl rfl rfl rfl
    (FloatOps.addf (F := Ideal) (φ := .f32)) C (startAt (F := Ideal) a b) B ky kx h0 h1 p q Y X y x hY hX).trans ?_
  rfl

/-- An addition into the canvas with its corner at `(ky, kx)`, read outside the added block. -/
theorem addAt_apply_of_outside (a b : BitVec 32) (ky kx : Nat) (ha : a.toInt = ky) (hb : b.toInt = kx) (C : Canvas) (B : Arr)
    (p : Fin 4) (q : Fin 64) (Y X : Fin 130)
    (hout : ¬((ky ≤ Y.val ∧ Y.val < ky + 128) ∧ (kx ≤ X.val ∧ X.val < kx + 128))) :
    addAt (F := Ideal) a b C B (ix4 p q Y X) = C (ix4 p q Y X) := by
  have h0 : (startAt (F := Ideal) a b (ix1 (0 : Fin 2))).toInt = (ky : Int) := by rw [startAt_apply_zero]; exact ha
  have h1 : (startAt (F := Ideal) a b (ix1 (1 : Fin 2))).toInt = (kx : Int) := by rw [startAt_apply_one]; exact hb
  unfold addAt
  exact Cert.Lib.WindowAdd.windowAdd_apply_of_outside (α := EReal) (wd := 32) (n0 := 4) (n1 := 64) (H := 130) (W := 130) (h := 128) (w := 128)
    scatter_S4x64x130x130_S2_S4x64x128x128_0123_n_23_0 rfl rfl rfl rfl
    (FloatOps.addf (F := Ideal) (φ := .f32)) C (startAt (F := Ideal) a b) B ky kx h0 h1 p q Y X hout

/-! ## One tap's contribution at the centre of its window -/

/-- The statement's summand for the offsets `(dy, dx)`. -/
def term (A0 A1 : Arr) (b : Fin 4) (c : Fin 64) (y x : Fin 128) (dy dx : Fin 3) : EReal :=
  if Cert.GaussTaps.inside y dy ∧ Cert.GaussTaps.inside x dx then
    Ideal.exp (Cert.GaussTaps.negHalf * Cert.GaussTaps.dist A0 A1 b dy dx y x) * A0 (ix4 b c y x)
  else 0

/-- The direct form of the statement is the sum of the nine summands. -/
theorem refAt_eq (A0 A1 : Arr) (b : Fin 4) (c : Fin 64) (y x : Fin 128) :
    Cert.GaussTaps.refAt A0 A1 b c y x = ∑ dy : Fin 3, ∑ dx : Fin 3, term A0 A1 b c y x dy dx := rfl

/-- Tap `(ky, kx)` of the stacked windows, read `(ky, kx)` before `(y + 1, x + 1)`, is the array at `(y, x)`: the
    shifts cancel. -/
theorem cols_tap (A : Arr) (p : Fin 4) (c : Fin 64) (ky kx : Fin 3) (y x y' x' : Fin 128)
    (hy : y'.val + ky.val = y.val + 1) (hx : x'.val + kx.val = x.val + 1) :
    cols (F := Ideal) A (ix5 p c (⟨3 * ky.val + kx.val, by omega⟩ : Fin 9) y' x') = A (ix4 p c y x) := by
  rw [cols_apply A p c _ y' x' ⟨y.val + 1, by omega⟩ ⟨x.val + 1, by omega⟩
    (by show y.val + 1 = (3 * ky.val + kx.val) / 3 + y'.val; omega)
    (by show x.val + 1 = (3 * ky.val + kx.val) % 3 + x'.val; omega)]
  exact padded_apply A p c _ _ y x (by show y.val + 1 = 1 + y.val; omega) (by show x.val + 1 = 1 + x.val; omega)

/-- The centre is the second array itself, on every tap. -/
theorem centre_tap (A : Arr) (p : Fin 4) (c : Fin 64) (k : Fin 9) (y x : Fin 128) :
    centre (F := Ideal) A (ix5 p c k y x) = A (ix4 p c y x) := by
  rw [centre_apply A p c k y x ⟨1 + y.val, by omega⟩ ⟨1 + x.val, by omega⟩ rfl rfl]
  exact padded_apply A p c _ _ y x rfl rfl

/-- The weighted stack at tap `(ky, kx)`, read `(ky, kx)` before `(y + 1, x + 1)`. -/
theorem sup_tap (A0 A1 : Arr) (p : Fin 4) (q : Fin 64) (ky kx : Fin 3) (y x y' x' : Fin 128)
    (hy : y'.val + ky.val = y.val + 1) (hx : x'.val + kx.val = x.val + 1) :
    sup (F := Ideal) A0 A1 (ix5 p q (⟨3 * ky.val + kx.val, by omega⟩ : Fin 9) y' x') =
      Ideal.exp (Cert.GaussTaps.negHalf *
        (0 + ∑ c : Fin 64, (A0 (ix4 p c y x) - A1 (ix4 p c y' x')) * (A0 (ix4 p c y x) - A1 (ix4 p c y' x')))) *
        A0 (ix4 p q y x) := by
  rw [sup_apply, gauss_apply, distSq_apply, cols_tap A0 p q ky kx y x y' x' hy hx]
  simp only [fun c => cols_tap A0 p c ky kx y x y' x' hy hx, centre_tap]

/-- ONE ADDITION OF THE FOLD at the canvas entry `(y + 1, x + 1)`: tap `(ky, kx)` adds the statement's summand for
    the offsets `(2 − ky, 2 − kx)`. -/
theorem addAt_tap (A0 A1 : Arr) (C : Canvas) (ky kx : Fin 3) (a b : BitVec 32)
    (ha : a.toInt = (ky.val : Int)) (hb : b.toInt = (kx.val : Int))
    (k : Nat) (hk : k = 3 * ky.val + kx.val) (h : S4x64x9x128x128.Slices ![0, 0, k, 0, 0] S4x64x1x128x128)
    (p : Fin 4) (q : Fin 64) (y x : Fin 128) (Y X : Fin 130) (hY : Y.val = y.val + 1) (hX : X.val = x.val + 1) :
    addAt (F := Ideal) a b C (tapOf (F := Ideal) ![0, 0, k, 0, 0] h (sup (F := Ideal) A0 A1)) (ix4 p q Y X) =
      C (ix4 p q Y X) + term A0 A1 p q y x (Fin.rev ky) (Fin.rev kx) := by
  subst hk
  have hky : (Fin.rev ky).val = 2 - ky.val := by rw [Fin.val_rev]; omega
  have hkx : (Fin.rev kx).val = 2 - kx.val := by rw [Fin.val_rev]; omega
  have lky : ky.val < 3 := ky.isLt
  have lkx : kx.val < 3 := kx.isLt
  by_cases hin : Cert.GaussTaps.inside y (Fin.rev ky) ∧ Cert.GaussTaps.inside x (Fin.rev kx)
  · have ny := Cert.GaussTaps.nb_val_of_inside hin.1
    have nx := Cert.GaussTaps.nb_val_of_inside hin.2
    have hy : (Cert.GaussTaps.nb y (Fin.rev ky)).val + ky.val = y.val + 1 := by
      have := hin.1; unfold Cert.GaussTaps.inside at this; omega
    have hx : (Cert.GaussTaps.nb x (Fin.rev kx)).val + kx.val = x.val + 1 := by
      have := hin.2; unfold Cert.GaussTaps.inside at this; omega
    rw [addAt_apply_of_inside a b ky.val kx.val ha hb C _ p q Y X (Cert.GaussTaps.nb y (Fin.rev ky)) (Cert.GaussTaps.nb x (Fin.rev kx))
      (by omega) (by omega)]
    rw [tapOf_apply (3 * ky.val + kx.val) (by omega) h _ p q _ _]
    rw [sup_tap A0 A1 p q ky kx y x _ _ hy hx]
    unfold term
    rw [if_pos hin, zero_add]
    rfl
  · have hout : ¬((ky.val ≤ Y.val ∧ Y.val < ky.val + 128) ∧ (kx.val ≤ X.val ∧ X.val < kx.val + 128)) := by
      intro hc
      apply hin
      unfold Cert.GaussTaps.inside
      omega
    rw [addAt_apply_of_outside a b ky.val kx.val ha hb C _ p q Y X hout]
    unfold term
    rw [if_neg hin, add_zero]

/-! ## The result -/

/-- THE REFERENCE'S RESULT READ AT AN ENTRY is the direct form of the statement. -/
theorem refValue_apply (A0 A1 : Cert.ReferenceIdeal.S4x64x128x128.Idx → EReal) (b : Fin 4) (c : Fin 64) (y x : Fin 128) :
    Cert.ReferenceIdeal.Stages.refValue (F := Ideal) A0 A1 (ValueIdx.ix4 b c y x) = Cert.GaussTaps.refAt A0 A1 b c y x := by
  unfold refValue
  rw [window_apply 1 1 _ _ b c y x ⟨y.val + 1, by omega⟩ ⟨x.val + 1, by omega⟩
    (by show y.val + 1 = 1 + y.val; omega) (by show x.val + 1 = 1 + x.val; omega)]
  unfold folded
  rw [addAt_tap A0 A1 _ 2 2 2#32 2#32 (by decide) (by decide) 8 (by decide) _ b c y x _ _ rfl rfl]
  rw [addAt_tap A0 A1 _ 2 1 2#32 1#32 (by decide) (by decide) 7 (by decide) _ b c y x _ _ rfl rfl]
  rw [addAt_tap A0 A1 _ 2 0 2#32 0#32 (by decide) (by decide) 6 (by decide) _ b c y x _ _ rfl rfl]
  rw [addAt_tap A0 A1 _ 1 2 1#32 2#32 (by decide) (by decide) 5 (by decide) _ b c y x _ _ rfl rfl]
  rw [addAt_tap A0 A1 _ 1 1 1#32 1#32 (by decide) (by decide) 4 (by decide) _ b c y x _ _ rfl rfl]
  rw [addAt_tap A0 A1 _ 1 0 1#32 0#32 (by decide) (by decide) 3 (by decide) _ b c y x _ _ rfl rfl]
  rw [addAt_tap A0 A1 _ 0 2 0#32 2#32 (by decide) (by decide) 2 (by decide) _ b c y x _ _ rfl rfl]
  rw [addAt_tap A0 A1 _ 0 1 0#32 1#32 (by decide) (by decide) 1 (by decide) _ b c y x _ _ rfl rfl]
  rw [addAt_tap A0 A1 _ 0 0 0#32 0#32 (by decide) (by decide) 0 (by decide) _ b c y x _ _ rfl rfl]
  rw [canvas0_apply, refAt_eq]
  simp only [Fin.sum_univ_three]
  have r0 : Fin.rev (0 : Fin 3) = 2 := by decide
  have r1 : Fin.rev (1 : Fin 3) = 1 := by decide
  have r2 : Fin.rev (2 : Fin 3) = 0 := by decide
  rw [r0, r1, r2, zero_add]
  ac_rfl

end Cert.ReferenceIdeal.RefRead

end
-- ==== Proof.TapAlgebra.lean ====
/-
  The two forms of the pixel-adaptive Gaussian weighting agree on arrays of real numbers.

  On real entries every sum and product of the statement is a real number, so the extended-real expression is the
  coercion of a real one: the two constants are the reals −1/2 and 2, the squared norms, the cross term and the
  squared distance are coercions of the real sums over the channels, and the exponential of a coerced real is the
  coerced real exponential. In the reals the squared distance expands,
      Σ_c a² + Σ_c a'² − 2 Σ_c a·a' = Σ_c (a − a')·(a − a'),
  so a tap's weight is the same real number in both forms, and the pixel distributes over the finite sum of the
  nine weights:  a · Σ_taps w = Σ_taps w · a.
-/
import proofs.«179273_j17781164605470_2_alg».proof.Proof.TapSpec
import Mathlib.Data.EReal.Operations
import Mathlib.Algebra.BigOperators.Ring.Finset
import Mathlib.Tactic.Ring
import Mathlib.Tactic.NormNum

noncomputable section

namespace Cert.GaussTaps

open Idealize.ShloMosaic Idealize.ShloMosaic.ValueIdx

/-! ## The two constants -/

/-- The pattern of −0.5 denotes the real −1/2. -/
theorem negHalf_eq : negHalf = ((-(1 / 2) : ℝ) : EReal) := by
  simp [negHalf, Ideal.ofBits, Ideal.ieee, -EReal.coe_mul]; norm_num

/-- The pattern of 2.0 denotes the real 2. -/
theorem two_eq : two = ((2 : ℝ) : EReal) := by
  simp [two, Ideal.ofBits, Ideal.ieee, -EReal.coe_mul]; norm_num

/-! ## The coercion through a finite sum -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The real counterparts -/

variable (a0 a1 : SArr.Idx → ℝ)

/-- The squared norm of a pixel's channel vector, in the reals. -/
def sqNormR (a : SArr.Idx → ℝ) (b : Fin 4) (y x : Fin 128) : ℝ :=
  ∑ c : Fin 64, a (ix4 b c y x) * a (ix4 b c y x)

/-- The cross term at a tap's neighbour, in the reals. -/
def crossR (b : Fin 4) (dy dx : Fin 3) (y x : Fin 128) : ℝ :=
  ∑ c : Fin 64, a0 (ix4 b c y x) * a1 (ix4 b c (nb y dy) (nb x dx))

/-- The squared distance at a tap's neighbour, in the reals. -/
def distR (b : Fin 4) (dy dx : Fin 3) (y x : Fin 128) : ℝ :=
  ∑ c : Fin 64, (a0 (ix4 b c y x) - a1 (ix4 b c (nb y dy) (nb x dx))) * (a0 (ix4 b c y x) - a1 (ix4 b c (nb y dy) (nb x dx)))

/-- A tap's weight, in the reals: the Gaussian of the squared distance where the tap counts, zero elsewhere. -/
def tapR (b : Fin 4) (dy dx : Fin 3) (y x : Fin 128) : ℝ :=
  if inside y dy ∧ inside x dx then Real.exp (-(1 / 2) * distR a0 a1 b dy dx y x) else 0

theorem sqNorm_coe (a : SArr.Idx → ℝ) (b : Fin 4) (y x : Fin 128) :
    sqNorm (fun i => (a i : EReal)) b y x = ((sqNormR a b y x : ℝ) : EReal) := by
  unfold sqNorm sqNormR
  rw [coe_sum]
  simp only [EReal.coe_mul]

theorem cross_coe (b : Fin 4) (dy dx : Fin 3) (y x : Fin 128) :
    cross (fun i => (a0 i : EReal)) (fun i => (a1 i : EReal)) b dy dx y x = ((crossR a0 a1 b dy dx y x : ℝ) : EReal) := by
  unfold cross crossR
  rw [coe_sum]
  simp only [EReal.coe_mul]

theorem dist_coe (b : Fin 4) (dy dx : Fin 3) (y x : Fin 128) :
    dist (fun i => (a0 i : EReal)) (fun i => (a1 i : EReal)) b dy dx y x = ((distR a0 a1 b dy dx y x : ℝ) : EReal) := by
  unfold dist distR
  rw [coe_sum]
  simp only [EReal.coe_mul, EReal.coe_sub]

/-- The expansion of the square, summed over the channels. -/
theorem expand_real (b : Fin 4) (dy dx : Fin 3) (y x : Fin 128) :
    sqNormR a0 b y x + sqNormR a1 b (nb y dy) (nb x dx) - 2 * crossR a0 a1 b dy dx y x = distR a0 a1 b dy dx y x := by
  unfold sqNormR crossR distR
  rw [Finset.mul_sum, ← Finset.sum_add_distrib, ← Finset.sum_sub_distrib]
  exact Finset.sum_congr rfl fun c _ => by ring

/-- A tap's weight in the expanded form is the coerced real weight. -/
theorem wExpanded_coe (b : Fin 4) (dy dx : Fin 3) (y x : Fin 128) :
    wExpanded (fun i => (a0 i : EReal)) (fun i => (a1 i : EReal)) b dy dx y x = ((tapR a0 a1 b dy dx y x : ℝ) : EReal) := by
  unfold wExpanded tapR
  split_ifs with h
  · rw [sqNorm_coe, sqNorm_coe, cross_coe, negHalf_eq, two_eq, ← EReal.coe_add, ← EReal.coe_mul, ← EReal.coe_sub,
      ← EReal.coe_mul, Ideal.exp_coe, expand_real]
  · exact EReal.coe_zero.symm

/-- A tap's term in the direct form is the coerced real weight times the pixel. -/
theorem refTap_coe (b : Fin 4) (c : Fin 64) (dy dx : Fin 3) (y x : Fin 128) :
    (if inside y dy ∧ inside x dx then
        Ideal.exp (negHalf * dist (fun i => (a0 i : EReal)) (fun i => (a1 i : EReal)) b dy dx y x) * (a0 (ix4 b c y x) : EReal)
      else 0)
      = ((tapR a0 a1 b dy dx y x * a0 (ix4 b c y x) : ℝ) : EReal) := by
  unfold tapR
  split_ifs with h
  · rw [dist_coe, negHalf_eq, ← EReal.coe_mul, Ideal.exp_coe, ← EReal.coe_mul]
  · rw [zero_mul, EReal.coe_zero]

/-- The entry in the expanded form, as a coerced real. -/
theorem kernAt_coe (b : Fin 4) (c : Fin 64) (y x : Fin 128) :
    kernAt (fun i => (a0 i : EReal)) (fun i => (a1 i : EReal)) b c y x
      = ((a0 (ix4 b c y x) * ∑ dy : Fin 3, ∑ dx : Fin 3, tapR a0 a1 b dy dx y x : ℝ) : EReal) := by
  unfold kernAt
  simp only [wExpanded_coe, ← coe_sum, ← EReal.coe_mul]

/-- The entry in the direct form, as a coerced real. -/
theorem refAt_coe (b : Fin 4) (c : Fin 64) (y x : Fin 128) :
    refAt (fun i => (a0 i : EReal)) (fun i => (a1 i : EReal)) b c y x
      = ((∑ dy : Fin 3, ∑ dx : Fin 3, tapR a0 a1 b dy dx y x * a0 (ix4 b c y x) : ℝ) : EReal) := by
  unfold refAt
  simp only [refTap_coe, ← coe_sum]

/-- On arrays of real numbers the expanded form and the direct form give the same entry. -/
theorem kernAt_eq_refAt (a0 a1 : SArr.Idx → ℝ) (b : Fin 4) (c : Fin 64) (y x : Fin 128) :
    kernAt (fun i => (a0 i : EReal)) (fun i => (a1 i : EReal)) b c y x = refAt (fun i => (a0 i : EReal)) (fun i => (a1 i : EReal)) b c y x := by
  rw [kernAt_coe, refAt_coe, Finset.mul_sum]
  refine congrArg _ (Finset.sum_congr rfl fun dy _ => ?_)
  rw [Finset.mul_sum]
  exact Finset.sum_congr rfl fun dx _ => mul_comm _ _

end Cert.GaussTaps

end
-- ==== Proof.FiniteInputs.lean ====
/-
  From the precondition to real entries. The precondition says, of each argument array, that every entry's
  absolute value is below plus infinity (the conjunction over all entries, then the conjunction of the two
  arrays' verdicts, is the one-bit word 1). An extended real whose absolute value max(x, −x) is below plus
  infinity is neither infinity, hence a real number; so both arrays are arrays of reals.
-/
import proofs.«179273_j17781164605470_2_alg».proof.Pre_finite_inputs
import proofs.«179273_j17781164605470_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The shape with no axes has one index. -/
instance : Subsingleton S_.Idx := ⟨fun a b => funext fun d => d.elim0⟩

/-- The bit pattern of plus infinity denotes the top element. -/
theorem ofBits_inf : Ideal.ofBits .f32 0x7F800000#32 = (⊤ : EReal) := by
  simp [Ideal.ofBits, Ideal.ieee]

/-- An extended real whose absolute value is below plus infinity is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h0 : BitVec.ofBool (decide (max x (-x) < Ideal.ofBits .f32 0x7F800000#32)) = 1#1 := h
  rw [ofBits_inf] at h0
  have h1 : max x (-x) < (⊤ : EReal) := by
    by_contra hn
    rw [decide_eq_false hn] at h0
    exact absurd h0 (by decide)
  induction x using EReal.rec with
  | bot => simp at h1
  | coe r => exact ⟨r, rfl⟩
  | top => simp at h1

/-- Every entry of an array whose entries' absolute values are all below plus infinity is a real number. -/
theorem real_of_all (A : S4x64x128x128.Idx → EReal)
    (h : Host.reduce IntOp.andi
          (cmpf (F := Ideal) .olt (Host.absf A) (broadcastInDim S4x64x128x128 ![] Facts.bcast_S_S4x64x128x128 (constant S_ .f32 0x7F800000#32)))
          (constantI S_ 1 1#1) Facts.reducesTo_S4x64x128x128_S_d0_1_2_3 Facts.h_S_ ValueIdx.ix0 = 1#1) :
    ∃ a : S4x64x128x128.Idx → ℝ, A = fun i => (a i : EReal) := by
  have hall : ∀ i, ∃ r : ℝ, A i = (r : EReal) := fun i =>
    real_of_abs_lt (A i) (Host.reduce_andi_all _ _ _ _ _ h i)
  exact ⟨fun i => (hall i).choose, funext fun i => (hall i).choose_spec⟩

/-- Under the precondition both argument arrays are arrays of real numbers. -/
theorem real_of_pre (A0 A1 : S4x64x128x128.Idx → EReal)
    (h : fn (F := Ideal) A0 A1 = fun _ => 1#1) :
    (∃ a0 : S4x64x128x128.Idx → ℝ, A0 = fun i => (a0 i : EReal)) ∧ (∃ a1 : S4x64x128x128.Idx → ℝ, A1 = fun i => (a1 i : EReal)) := by
  have h0 := congrFun h ValueIdx.ix0
  dsimp only [fn] at h0
  obtain ⟨hA, hB⟩ := IntOp.andi_eq_one.1 h0
  exact ⟨real_of_all A0 hA, real_of_all A1 hB⟩

end Cert.FiniteInputs

end
-- ==== Proof.lean ====
/-
  The pixel-adaptive Gaussian weighting of a 3 × 3 neighbourhood: the kernel against its reference, over the
  extended reals, for arrays of 4 images × 64 channels × 128 × 128 pixels.

  Both programs compute, at channel `c` of pixel `(y, x)` of image `b`,
      A0(b, c, y, x) · Σ_taps exp(−½ · Σ_c' (A0(b, c', y, x) − A1(b, c', y + oy, x + ox))²),
  the sum over the offsets `(oy, ox) ∈ {−1, 0, 1}²` whose neighbour lies inside the image (`Cert.GaussTaps.result`).
  * The reference pads both arrays by one zero pixel, stacks the nine shifted windows of the first, weights them by
    the distance to the second's centre window, and adds the nine weighted windows back into a padded canvas at the
    nine shifts; at an inner pixel each window read is the pixel itself, so the sum is the direct form `refAt`
    (its stages read at an index: `RefRead.refValue_apply`, for any extended-real arrays).
  * The kernel works one image per grid point, sixteen channels at a time, and expands the square: it accumulates
    the two squared norms and nine cross terms (rotations of the image axes supply the neighbours; masks on the row
    and column numbers drop the wrapped ones) and multiplies the pixel by the summed weights: the expanded form
    `kernAt` (`ArrayValue.run`).
  The two forms agree when every entry is a real number (`kernAt_eq_refAt`): expanding the square and moving the
  pixel across the sum of the weights need finite terms, so the claim uses its precondition (every input finite:
  `FiniteInputs.real_of_pre`). The frames are the generated runs; the kernel's idealization rewrote nothing.
-/
import proofs.«179273_j17781164605470_2_alg».proof.Defs
import proofs.«179273_j17781164605470_2_alg».proof.Proof.Gen.Kernel
import proofs.«179273_j17781164605470_2_alg».proof.Proof.Gen.Kernel.Skeleton
import proofs.«179273_j17781164605470_2_alg».proof.Proof.Gen.Kernel.Launch
import proofs.«179273_j17781164605470_2_alg».proof.Proof.Gen.Kernel.Points
import proofs.«179273_j17781164605470_2_alg».proof.Proof.Gen.Kernel.Frame
import proofs.«179273_j17781164605470_2_alg».proof.Proof.Gen.KernelIdeal
import proofs.«179273_j17781164605470_2_alg».proof.Proof.Gen.KernelIdeal.Skeleton
import proofs.«179273_j17781164605470_2_alg».proof.Proof.Gen.KernelIdeal.Launch
import proofs.«179273_j17781164605470_2_alg».proof.Proof.Gen.KernelIdeal.Points
import proofs.«179273_j17781164605470_2_alg».proof.Proof.Gen.KernelIdeal.Frame
import proofs.«179273_j17781164605470_2_alg».proof.Proof.Gen.ReferenceIdeal
import proofs.«179273_j17781164605470_2_alg».proof.Proof.Gen.Pre_finite_inputs
import proofs.«179273_j17781164605470_2_alg».proof.Proof.Gen.KernelIdeal.Value
import proofs.«179273_j17781164605470_2_alg».proof.Proof.KernelArray
import proofs.«179273_j17781164605470_2_alg».proof.Proof.RefRun
import proofs.«179273_j17781164605470_2_alg».proof.Proof.RefRead
import proofs.«179273_j17781164605470_2_alg».proof.Proof.TapAlgebra
import proofs.«179273_j17781164605470_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- With every entry real, the kernel's expanded form is the direct form at every index. -/
theorem kern_eq_result (A0 A1 : Cert.KernelIdeal.S4x64x128x128.Idx → EReal)
    (h : Cert.Pre_finite_inputs.fn (F := Ideal) A0 A1 = fun _ => 1#1) :
    Cert.KernelIdeal.ArrayValue.kern A0 A1 = Cert.GaussTaps.result A0 A1 := by
  obtain ⟨⟨a0, h0⟩, ⟨a1, h1⟩⟩ := Cert.FiniteInputs.real_of_pre A0 A1 h
  subst h0 h1
  funext i
  exact Cert.GaussTaps.kernAt_eq_refAt a0 a1 (i 0) (i 1) (i 2) (i 3)

/-- The reference's result is the direct form at every index. -/
theorem refValue_eq_result (A0 A1 : Cert.ReferenceIdeal.S4x64x128x128.Idx → EReal) :
    Cert.ReferenceIdeal.Stages.refValue (F := Ideal) A0 A1 = Cert.GaussTaps.result A0 A1 := by
  funext i
  rw [eq_ix4 i]
  exact Cert.ReferenceIdeal.RefRead.refValue_apply A0 A1 (i 0) (i 1) (i 2) (i 3)

/-- From memories agreeing on the arguments, both runs end with the result array at `result` of the arguments. -/
theorem algebraic : Cert.algebraic_KernelIdeal_ReferenceIdeal := by
  intro m ρ m' ρ' hpre hagree
  refine ⟨fun c => Cert.GaussTaps.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (kern_eq_result _ _ (hpre c)), (h c).2⟩)
      (Cert.KernelIdeal.ArrayValue.run m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2]
    exact refValue_eq_result _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
